-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v133)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v229) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S4x128x128 : Shape := ⟨3, ![4, 128, 128]⟩
abbrev S4x128 : Shape := ⟨2, ![4, 128]⟩
abbrev S2x600000 : Shape := ⟨2, ![2, 600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_arg4 : FVec F S4x128 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128 .f32 := Host.absf main_arg4
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  main_v23

def fn {F : FTy → Type} [FloatOps F] (main_arg0 : FVec F S100000x128 .f32) (main_arg1 : FVec F S4x128x128 .f32) (main_arg2 : FVec F S4x128 .f32) (main_arg3 : FVec F S4x128 .f32) (main_arg4 : FVec F S4x128 .f32) (main_arg5 : IVec S2x600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x128x128 .f32 := Host.absf main_arg1
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg2
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128 .f32 := Host.absf main_arg3
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg4 main_v13 main_v16
-- ==== Kernel.lean ====
abbrev S100000x128 : Shape := ⟨2, ![100000, 128]⟩
abbrev S4x128x128 : Shape := ⟨3, ![4, 128, 128]⟩
abbrev S4x128 : Shape := ⟨2, ![4, 128]⟩
abbrev S2x600000 : Shape := ⟨2, ![2, 600000]⟩
abbrev S1x600000 : Shape := ⟨2, ![1, 600000]⟩
abbrev S600000 : Shape := ⟨1, ![600000]⟩
abbrev S100000 : Shape := ⟨1, ![100000]⟩
abbrev S700000 : Shape := ⟨1, ![700000]⟩
abbrev S_ : Shape := ⟨0, ![]⟩
abbrev S700000x1 : Shape := ⟨2, ![700000, 1]⟩
abbrev S1x128x128 : Shape := ⟨3, ![1, 128, 128]⟩
abbrev S128x128 : Shape := ⟨2, ![128, 128]⟩
abbrev S5000x128 : Shape := ⟨2, ![5000, 128]⟩
abbrev S700000x128 : Shape := ⟨2, ![700000, 128]⟩
abbrev S1x128 : Shape := ⟨2, ![1, 128]⟩
abbrev S128 : Shape := ⟨1, ![128]⟩
abbrev S5000 : Shape := ⟨1, ![5000]⟩
abbrev S5000x1 : Shape := ⟨2, ![5000, 1]⟩

abbrev nBuf : Space → Nat
  | .hbm => 162
  | .vmem => 48
  | .smem => 0
  | _ => 0

abbrev hbmTy0_0 (i : Nat) : BufTy := match i % 128 with
  | 0 => ⟨S100000x128, .f32⟩
  | 1 => ⟨S4x128x128, .f32⟩
  | 2 => ⟨S4x128, .f32⟩
  | 3 => ⟨S4x128, .f32⟩
  | 4 => ⟨S4x128, .f32⟩
  | 5 => ⟨S2x600000, .i32⟩
  | 6 => ⟨S1x600000, .i32⟩
  | 7 => ⟨S600000, .i32⟩
  | 8 => ⟨S1x600000, .i32⟩
  | 9 => ⟨S600000, .i32⟩
  | 10 => ⟨S100000, .i32⟩
  | 11 => ⟨S700000, .i32⟩
  | 12 => ⟨S700000, .i32⟩
  | 13 => ⟨S_, .f32⟩
  | 14 => ⟨S700000, .f32⟩
  | 15 => ⟨S_, .f32⟩
  | 16 => ⟨S100000, .f32⟩
  | 17 => ⟨S700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S700000, .i32⟩
  | 29 => ⟨S700000, .i1⟩
  | 30 => ⟨S_, .i32⟩
  | 31 => ⟨S700000, .i32⟩
  | 32 => ⟨S700000, .i32⟩
  | 33 => ⟨S700000, .i32⟩
  | 34 => ⟨S700000x1, .i32⟩
  | 35 => ⟨S700000, .f32⟩
  | 36 => ⟨S_, .i32⟩
  | 37 => ⟨S700000, .i32⟩
  | 38 => ⟨S700000, .i1⟩
  | 39 => ⟨S_, .i32⟩
  | 40 => ⟨S700000, .i32⟩
  | 41 => ⟨S700000, .i32⟩
  | 42 => ⟨S700000, .i32⟩
  | 43 => ⟨S700000x1, .i32⟩
  | 44 => ⟨S700000, .f32⟩
  | 45 => ⟨S700000, .f32⟩
  | 46 => ⟨S1x128x128, .f32⟩
  | 47 => ⟨S128x128, .f32⟩
  | 48 => ⟨S100000x128, .f32⟩
  | 49 => ⟨S_, .i32⟩
  | 50 => ⟨S700000, .i32⟩
  | 51 => ⟨S700000, .i1⟩
  | 52 => ⟨S_, .i32⟩
  | 53 => ⟨S700000, .i32⟩
  | 54 => ⟨S700000, .i32⟩
  | 55 => ⟨S700000, .i32⟩
  | 56 => ⟨S700000x1, .i32⟩
  | 57 => ⟨S700000x128, .f32⟩
  | 58 => ⟨S700000x1, .f32⟩
  | 59 => ⟨S700000x128, .f32⟩
  | 60 => ⟨S700000x128, .f32⟩
  | 61 => ⟨S_, .f32⟩
  | 62 => ⟨S100000x128, .f32⟩
  | 63 => ⟨S700000x1, .i32⟩
  | 64 => ⟨S100000x128, .f32⟩
  | 65 => ⟨S1x128, .f32⟩
  | 66 => ⟨S128, .f32⟩
  | 67 => ⟨S1x128, .f32⟩
  | 68 => ⟨S128, .f32⟩
  | 69 => ⟨S1x128, .f32⟩
  | 70 => ⟨S128, .f32⟩
  | 71 => ⟨S1x128, .f32⟩
  | 72 => ⟨S1x128, .f32⟩
  | 73 => ⟨S1x128, .f32⟩
  | 74 => ⟨S100000x128, .f32⟩
  | 75 => ⟨S1x128x128, .f32⟩
  | 76 => ⟨S128x128, .f32⟩
  | 77 => ⟨S100000x128, .f32⟩
  | 78 => ⟨S_, .i32⟩
  | 79 => ⟨S700000, .i32⟩
  | 80 => ⟨S700000, .i1⟩
  | 81 => ⟨S_, .i32⟩
  | 82 => ⟨S700000, .i32⟩
  | 83 => ⟨S700000, .i32⟩
  | 84 => ⟨S700000, .i32⟩
  | 85 => ⟨S700000x1, .i32⟩
  | 86 => ⟨S700000x128, .f32⟩
  | 87 => ⟨S700000x1, .f32⟩
  | 88 => ⟨S700000x128, .f32⟩
  | 89 => ⟨S700000x128, .f32⟩
  | 90 => ⟨S_, .f32⟩
  | 91 => ⟨S100000x128, .f32⟩
  | 92 => ⟨S700000x1, .i32⟩
  | 93 => ⟨S100000x128, .f32⟩
  | 94 => ⟨S1x128, .f32⟩
  | 95 => ⟨S128, .f32⟩
  | 96 => ⟨S1x128, .f32⟩
  | 97 => ⟨S128, .f32⟩
  | 98 => ⟨S1x128, .f32⟩
  | 99 => ⟨S128, .f32⟩
  | 100 => ⟨S1x128, .f32⟩
  | 101 => ⟨S1x128, .f32⟩
  | 102 => ⟨S1x128, .f32⟩
  | 103 => ⟨S100000x128, .f32⟩
  | 104 => ⟨S1x128x128, .f32⟩
  | 105 => ⟨S128x128, .f32⟩
  | 106 => ⟨S100000x128, .f32⟩
  | 107 => ⟨S_, .i32⟩
  | 108 => ⟨S700000, .i32⟩
  | 109 => ⟨S700000, .i1⟩
  | 110 => ⟨S_, .i32⟩
  | 111 => ⟨S700000, .i32⟩
  | 112 => ⟨S700000, .i32⟩
  | 113 => ⟨S700000, .i32⟩
  | 114 => ⟨S700000x1, .i32⟩
  | 115 => ⟨S700000x128, .f32⟩
  | 116 => ⟨S700000x1, .f32⟩
  | 117 => ⟨S700000x128, .f32⟩
  | 118 => ⟨S700000x128, .f32⟩
  | 119 => ⟨S_, .f32⟩
  | 120 => ⟨S100000x128, .f32⟩
  | 121 => ⟨S700000x1, .i32⟩
  | 122 => ⟨S100000x128, .f32⟩
  | 123 => ⟨S1x128, .f32⟩
  | 124 => ⟨S128, .f32⟩
  | 125 => ⟨S1x128, .f32⟩
  | 126 => ⟨S128, .f32⟩
  | 127 => ⟨S1x128, .f32⟩
  | _ => ⟨S100000x128, .f32⟩

abbrev hbmTy0_1 (i : Nat) : BufTy := match i % 128 with
  | 0 => ⟨S128, .f32⟩
  | 1 => ⟨S1x128, .f32⟩
  | 2 => ⟨S1x128, .f32⟩
  | 3 => ⟨S1x128, .f32⟩
  | 4 => ⟨S100000x128, .f32⟩
  | 5 => ⟨S1x128x128, .f32⟩
  | 6 => ⟨S128x128, .f32⟩
  | 7 => ⟨S100000x128, .f32⟩
  | 8 => ⟨S_, .i32⟩
  | 9 => ⟨S700000, .i32⟩
  | 10 => ⟨S700000, .i1⟩
  | 11 => ⟨S_, .i32⟩
  | 12 => ⟨S700000, .i32⟩
  | 13 => ⟨S700000, .i32⟩
  | 14 => ⟨S700000, .i32⟩
  | 15 => ⟨S700000x1, .i32⟩
  | 16 => ⟨S700000x128, .f32⟩
  | 17 => ⟨S700000x1, .f32⟩
  | 18 => ⟨S700000x128, .f32⟩
  | 19 => ⟨S700000x128, .f32⟩
  | 20 => ⟨S_, .f32⟩
  | 21 => ⟨S100000x128, .f32⟩
  | 22 => ⟨S700000x1, .i32⟩
  | 23 => ⟨S100000x128, .f32⟩
  | 24 => ⟨S1x128, .f32⟩
  | 25 => ⟨S128, .f32⟩
  | 26 => ⟨S1x128, .f32⟩
  | 27 => ⟨S128, .f32⟩
  | 28 => ⟨S1x128, .f32⟩
  | 29 => ⟨S128, .f32⟩
  | 30 => ⟨S1x128, .f32⟩
  | 31 => ⟨S1x128, .f32⟩
  | 32 => ⟨S1x128, .f32⟩
  | 33 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_9 : Ref sig .tc := ⟨.hbm, 78, rfl⟩
abbrev main_v59 : Ref sig .tc := ⟨.hbm, 79, rfl⟩
abbrev main_v60 : Ref sig .tc := ⟨.hbm, 80, rfl⟩
abbrev main_c_10 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_11 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_c_12 : Ref sig .tc := ⟨.hbm, 107, rfl⟩
abbrev main_v85 : Ref sig .tc := ⟨.hbm, 108, rfl⟩
abbrev main_v86 : Ref sig .tc := ⟨.hbm, 109, rfl⟩
abbrev main_c_13 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_14 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_c_15 : Ref sig .tc := ⟨.hbm, 136, rfl⟩
abbrev main_v111 : Ref sig .tc := ⟨.hbm, 137, rfl⟩
abbrev main_v112 : Ref sig .tc := ⟨.hbm, 138, rfl⟩
abbrev main_c_16 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_cst_17 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg4_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg2_0 : Ref sig .tc := ⟨.vmem, 44, rfl⟩
abbrev cc7_stg3_0 : Ref sig .tc := ⟨.vmem, 45, rfl⟩
abbrev cc7_stg4_0 : Ref sig .tc := ⟨.vmem, 46, rfl⟩
abbrev cc7_stg4_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem4_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem2_0 : DmaSem sig := 44
abbrev cc7_sem3_0 : DmaSem sig := 45
abbrev cc7_sem4_0 : DmaSem sig := 46
abbrev cc7_sem4_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  slices_S4x128x128_S1x128x128_0_0_0 : S4x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  slices_S4x128_S1x128_0_0 : S4x128.Slices ![0, 0] S1x128
  shapeCasts_S1x128_S128 : S1x128.ShapeCasts S128
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S5000x128_S128x128_S5000x128_1_0_0_1_n_n_wf : DotDims.WF S5000x128 S128x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S100000x128.size a
  hwx5_4 : ∀ i : grid5.Coords, EltTy.bits .f32 = 32 ∨ (Rect.block (s := S100000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S100000x128.size a
  hwx7_4 : ∀ i : grid7.Coords, EltTy.bits .f32 = 32 ∨ (Rect.block (s := S100000x128) S5000x128.size (cc7_transform_4 i) (hinb7_4 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v55) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v71) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v78) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v79) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v80) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v81) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v81) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v83) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v84) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v97) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v104) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v105) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v106) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v107) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v107) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v109) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v110) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v123) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v130) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v131) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v132) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v133) S5000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S100000x128 : Shape := ⟨2, ![100000, 128]⟩
abbrev S4x128x128 : Shape := ⟨3, ![4, 128, 128]⟩
abbrev S4x128 : Shape := ⟨2, ![4, 128]⟩
abbrev S2x600000 : Shape := ⟨2, ![2, 600000]⟩
abbrev S1x600000 : Shape := ⟨2, ![1, 600000]⟩
abbrev S600000 : Shape := ⟨1, ![600000]⟩
abbrev S100000 : Shape := ⟨1, ![100000]⟩
abbrev S700000 : Shape := ⟨1, ![700000]⟩
abbrev S_ : Shape := ⟨0, ![]⟩
abbrev S700000x1 : Shape := ⟨2, ![700000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S700000x128 : Shape := ⟨2, ![700000, 128]⟩
abbrev S100000x1 : Shape := ⟨2, ![100000, 1]⟩

abbrev nBuf : Space → Nat
  | .hbm => 286
  | .vmem => 0
  | .smem => 0
  | _ => 0

abbrev hbmTy0_0 (i : Nat) : BufTy := match i % 128 with
  | 0 => ⟨S100000x128, .f32⟩
  | 1 => ⟨S4x128x128, .f32⟩
  | 2 => ⟨S4x128, .f32⟩
  | 3 => ⟨S4x128, .f32⟩
  | 4 => ⟨S4x128, .f32⟩
  | 5 => ⟨S2x600000, .i32⟩
  | 6 => ⟨S1x600000, .i32⟩
  | 7 => ⟨S600000, .i32⟩
  | 8 => ⟨S1x600000, .i32⟩
  | 9 => ⟨S600000, .i32⟩
  | 10 => ⟨S100000, .i32⟩
  | 11 => ⟨S700000, .i32⟩
  | 12 => ⟨S700000, .i32⟩
  | 13 => ⟨S_, .f32⟩
  | 14 => ⟨S700000, .f32⟩
  | 15 => ⟨S_, .f32⟩
  | 16 => ⟨S100000, .f32⟩
  | 17 => ⟨S700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S700000, .i32⟩
  | 29 => ⟨S700000, .i1⟩
  | 30 => ⟨S_, .i32⟩
  | 31 => ⟨S700000, .i32⟩
  | 32 => ⟨S700000, .i32⟩
  | 33 => ⟨S700000, .i32⟩
  | 34 => ⟨S700000x1, .i32⟩
  | 35 => ⟨S700000, .f32⟩
  | 36 => ⟨S_, .i32⟩
  | 37 => ⟨S700000, .i32⟩
  | 38 => ⟨S700000, .i1⟩
  | 39 => ⟨S_, .i32⟩
  | 40 => ⟨S700000, .i32⟩
  | 41 => ⟨S700000, .i32⟩
  | 42 => ⟨S700000, .i32⟩
  | 43 => ⟨S700000x1, .i32⟩
  | 44 => ⟨S700000, .f32⟩
  | 45 => ⟨S700000, .f32⟩
  | 46 => ⟨S1x128x128, .f32⟩
  | 47 => ⟨S128x128, .f32⟩
  | 48 => ⟨S1x128, .f32⟩
  | 49 => ⟨S128, .f32⟩
  | 50 => ⟨S100000x128, .f32⟩
  | 51 => ⟨S_, .i32⟩
  | 52 => ⟨S700000, .i32⟩
  | 53 => ⟨S700000, .i1⟩
  | 54 => ⟨S_, .i32⟩
  | 55 => ⟨S700000, .i32⟩
  | 56 => ⟨S700000, .i32⟩
  | 57 => ⟨S700000, .i32⟩
  | 58 => ⟨S700000x1, .i32⟩
  | 59 => ⟨S700000x128, .f32⟩
  | 60 => ⟨S700000x1, .f32⟩
  | 61 => ⟨S700000x128, .f32⟩
  | 62 => ⟨S700000x128, .f32⟩
  | 63 => ⟨S_, .f32⟩
  | 64 => ⟨S100000x128, .f32⟩
  | 65 => ⟨S700000x1, .i32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S1x128, .f32⟩
  | 74 => ⟨S128, .f32⟩
  | 75 => ⟨S1x128, .f32⟩
  | 76 => ⟨S128, .f32⟩
  | 77 => ⟨S_, .f32⟩
  | 78 => ⟨S100000, .f32⟩
  | 79 => ⟨S100000x1, .f32⟩
  | 80 => ⟨S_, .f32⟩
  | 81 => ⟨S100000x1, .f32⟩
  | 82 => ⟨S100000x1, .f32⟩
  | 83 => ⟨S100000x128, .f32⟩
  | 84 => ⟨S100000x128, .f32⟩
  | 85 => ⟨S100000x128, .f32⟩
  | 86 => ⟨S_, .f32⟩
  | 87 => ⟨S100000, .f32⟩
  | 88 => ⟨S100000x1, .f32⟩
  | 89 => ⟨S_, .f32⟩
  | 90 => ⟨S100000x1, .f32⟩
  | 91 => ⟨S100000x1, .f32⟩
  | 92 => ⟨S100000x128, .f32⟩
  | 93 => ⟨S100000x128, .f32⟩
  | 94 => ⟨S_, .f32⟩
  | 95 => ⟨S100000x1, .f32⟩
  | 96 => ⟨S100000x1, .f32⟩
  | 97 => ⟨S100000x1, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S1x128, .f32⟩
  | 104 => ⟨S100000x128, .f32⟩
  | 105 => ⟨S100000x128, .f32⟩
  | 106 => ⟨S1x128x128, .f32⟩
  | 107 => ⟨S128x128, .f32⟩
  | 108 => ⟨S1x128, .f32⟩
  | 109 => ⟨S128, .f32⟩
  | 110 => ⟨S100000x128, .f32⟩
  | 111 => ⟨S_, .i32⟩
  | 112 => ⟨S700000, .i32⟩
  | 113 => ⟨S700000, .i1⟩
  | 114 => ⟨S_, .i32⟩
  | 115 => ⟨S700000, .i32⟩
  | 116 => ⟨S700000, .i32⟩
  | 117 => ⟨S700000, .i32⟩
  | 118 => ⟨S700000x1, .i32⟩
  | 119 => ⟨S700000x128, .f32⟩
  | 120 => ⟨S700000x1, .f32⟩
  | 121 => ⟨S700000x128, .f32⟩
  | 122 => ⟨S700000x128, .f32⟩
  | 123 => ⟨S_, .f32⟩
  | 124 => ⟨S100000x128, .f32⟩
  | 125 => ⟨S700000x1, .i32⟩
  | 126 => ⟨S100000x128, .f32⟩
  | 127 => ⟨S1x128, .f32⟩
  | _ => ⟨S100000x128, .f32⟩

abbrev hbmTy0_1 (i : Nat) : BufTy := match i % 128 with
  | 0 => ⟨S100000x128, .f32⟩
  | 1 => ⟨S100000x128, .f32⟩
  | 2 => ⟨S_, .f32⟩
  | 3 => ⟨S100000x128, .f32⟩
  | 4 => ⟨S100000x128, .f32⟩
  | 5 => ⟨S1x128, .f32⟩
  | 6 => ⟨S128, .f32⟩
  | 7 => ⟨S1x128, .f32⟩
  | 8 => ⟨S128, .f32⟩
  | 9 => ⟨S_, .f32⟩
  | 10 => ⟨S100000, .f32⟩
  | 11 => ⟨S100000x1, .f32⟩
  | 12 => ⟨S_, .f32⟩
  | 13 => ⟨S100000x1, .f32⟩
  | 14 => ⟨S100000x1, .f32⟩
  | 15 => ⟨S100000x128, .f32⟩
  | 16 => ⟨S100000x128, .f32⟩
  | 17 => ⟨S100000x128, .f32⟩
  | 18 => ⟨S_, .f32⟩
  | 19 => ⟨S100000, .f32⟩
  | 20 => ⟨S100000x1, .f32⟩
  | 21 => ⟨S_, .f32⟩
  | 22 => ⟨S100000x1, .f32⟩
  | 23 => ⟨S100000x1, .f32⟩
  | 24 => ⟨S100000x128, .f32⟩
  | 25 => ⟨S100000x128, .f32⟩
  | 26 => ⟨S_, .f32⟩
  | 27 => ⟨S100000x1, .f32⟩
  | 28 => ⟨S100000x1, .f32⟩
  | 29 => ⟨S100000x1, .f32⟩
  | 30 => ⟨S100000x128, .f32⟩
  | 31 => ⟨S100000x128, .f32⟩
  | 32 => ⟨S1x128, .f32⟩
  | 33 => ⟨S100000x128, .f32⟩
  | 34 => ⟨S100000x128, .f32⟩
  | 35 => ⟨S1x128, .f32⟩
  | 36 => ⟨S100000x128, .f32⟩
  | 37 => ⟨S100000x128, .f32⟩
  | 38 => ⟨S1x128x128, .f32⟩
  | 39 => ⟨S128x128, .f32⟩
  | 40 => ⟨S1x128, .f32⟩
  | 41 => ⟨S128, .f32⟩
  | 42 => ⟨S100000x128, .f32⟩
  | 43 => ⟨S_, .i32⟩
  | 44 => ⟨S700000, .i32⟩
  | 45 => ⟨S700000, .i1⟩
  | 46 => ⟨S_, .i32⟩
  | 47 => ⟨S700000, .i32⟩
  | 48 => ⟨S700000, .i32⟩
  | 49 => ⟨S700000, .i32⟩
  | 50 => ⟨S700000x1, .i32⟩
  | 51 => ⟨S700000x128, .f32⟩
  | 52 => ⟨S700000x1, .f32⟩
  | 53 => ⟨S700000x128, .f32⟩
  | 54 => ⟨S700000x128, .f32⟩
  | 55 => ⟨S_, .f32⟩
  | 56 => ⟨S100000x128, .f32⟩
  | 57 => ⟨S700000x1, .i32⟩
  | 58 => ⟨S100000x128, .f32⟩
  | 59 => ⟨S1x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S1x128, .f32⟩
  | 66 => ⟨S128, .f32⟩
  | 67 => ⟨S1x128, .f32⟩
  | 68 => ⟨S128, .f32⟩
  | 69 => ⟨S_, .f32⟩
  | 70 => ⟨S100000, .f32⟩
  | 71 => ⟨S100000x1, .f32⟩
  | 72 => ⟨S_, .f32⟩
  | 73 => ⟨S100000x1, .f32⟩
  | 74 => ⟨S100000x1, .f32⟩
  | 75 => ⟨S100000x128, .f32⟩
  | 76 => ⟨S100000x128, .f32⟩
  | 77 => ⟨S100000x128, .f32⟩
  | 78 => ⟨S_, .f32⟩
  | 79 => ⟨S100000, .f32⟩
  | 80 => ⟨S100000x1, .f32⟩
  | 81 => ⟨S_, .f32⟩
  | 82 => ⟨S100000x1, .f32⟩
  | 83 => ⟨S100000x1, .f32⟩
  | 84 => ⟨S100000x128, .f32⟩
  | 85 => ⟨S100000x128, .f32⟩
  | 86 => ⟨S_, .f32⟩
  | 87 => ⟨S100000x1, .f32⟩
  | 88 => ⟨S100000x1, .f32⟩
  | 89 => ⟨S100000x1, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S1x128x128, .f32⟩
  | 99 => ⟨S128x128, .f32⟩
  | 100 => ⟨S1x128, .f32⟩
  | 101 => ⟨S128, .f32⟩
  | 102 => ⟨S100000x128, .f32⟩
  | 103 => ⟨S_, .i32⟩
  | 104 => ⟨S700000, .i32⟩
  | 105 => ⟨S700000, .i1⟩
  | 106 => ⟨S_, .i32⟩
  | 107 => ⟨S700000, .i32⟩
  | 108 => ⟨S700000, .i32⟩
  | 109 => ⟨S700000, .i32⟩
  | 110 => ⟨S700000x1, .i32⟩
  | 111 => ⟨S700000x128, .f32⟩
  | 112 => ⟨S700000x1, .f32⟩
  | 113 => ⟨S700000x128, .f32⟩
  | 114 => ⟨S700000x128, .f32⟩
  | 115 => ⟨S_, .f32⟩
  | 116 => ⟨S100000x128, .f32⟩
  | 117 => ⟨S700000x1, .i32⟩
  | 118 => ⟨S100000x128, .f32⟩
  | 119 => ⟨S1x128, .f32⟩
  | 120 => ⟨S100000x128, .f32⟩
  | 121 => ⟨S100000x128, .f32⟩
  | 122 => ⟨S_, .f32⟩
  | 123 => ⟨S100000x128, .f32⟩
  | 124 => ⟨S100000x128, .f32⟩
  | 125 => ⟨S1x128, .f32⟩
  | 126 => ⟨S128, .f32⟩
  | 127 => ⟨S1x128, .f32⟩
  | _ => ⟨S100000x128, .f32⟩

abbrev hbmTy0_2 (i : Nat) : BufTy := match i % 128 with
  | 0 => ⟨S128, .f32⟩
  | 1 => ⟨S_, .f32⟩
  | 2 => ⟨S100000, .f32⟩
  | 3 => ⟨S100000x1, .f32⟩
  | 4 => ⟨S_, .f32⟩
  | 5 => ⟨S100000x1, .f32⟩
  | 6 => ⟨S100000x1, .f32⟩
  | 7 => ⟨S100000x128, .f32⟩
  | 8 => ⟨S100000x128, .f32⟩
  | 9 => ⟨S100000x128, .f32⟩
  | 10 => ⟨S_, .f32⟩
  | 11 => ⟨S100000, .f32⟩
  | 12 => ⟨S100000x1, .f32⟩
  | 13 => ⟨S_, .f32⟩
  | 14 => ⟨S100000x1, .f32⟩
  | 15 => ⟨S100000x1, .f32⟩
  | 16 => ⟨S100000x128, .f32⟩
  | 17 => ⟨S100000x128, .f32⟩
  | 18 => ⟨S_, .f32⟩
  | 19 => ⟨S100000x1, .f32⟩
  | 20 => ⟨S100000x1, .f32⟩
  | 21 => ⟨S100000x1, .f32⟩
  | 22 => ⟨S100000x128, .f32⟩
  | 23 => ⟨S100000x128, .f32⟩
  | 24 => ⟨S1x128, .f32⟩
  | 25 => ⟨S100000x128, .f32⟩
  | 26 => ⟨S100000x128, .f32⟩
  | 27 => ⟨S1x128, .f32⟩
  | 28 => ⟨S100000x128, .f32⟩
  | 29 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_6 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_call1_cst : Ref sig .tc := ⟨.hbm, 70, rfl⟩
abbrev main_call1_v0 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_c_14 : Ref sig .tc := ⟨.hbm, 111, rfl⟩
abbrev main_v85 : Ref sig .tc := ⟨.hbm, 112, rfl⟩
abbrev main_v86 : Ref sig .tc := ⟨.hbm, 113, rfl⟩
abbrev main_c_15 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_16 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_call2_cst : Ref sig .tc := ⟨.hbm, 130, rfl⟩
abbrev main_call2_v0 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_17 : Ref sig .tc := ⟨.hbm, 137, rfl⟩
abbrev main_v106 : Ref sig .tc := ⟨.hbm, 138, rfl⟩
abbrev main_v107 : Ref sig .tc := ⟨.hbm, 139, rfl⟩
abbrev main_cst_18 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_cst_19 : Ref sig .tc := ⟨.hbm, 146, rfl⟩
abbrev main_v113 : Ref sig .tc := ⟨.hbm, 147, rfl⟩
abbrev main_v114 : Ref sig .tc := ⟨.hbm, 148, rfl⟩
abbrev main_cst_20 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_cst_21 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_c_22 : Ref sig .tc := ⟨.hbm, 171, rfl⟩
abbrev main_v135 : Ref sig .tc := ⟨.hbm, 172, rfl⟩
abbrev main_v136 : Ref sig .tc := ⟨.hbm, 173, rfl⟩
abbrev main_c_23 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_cst_24 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_call3_cst : Ref sig .tc := ⟨.hbm, 190, rfl⟩
abbrev main_call3_v0 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_cst_25 : Ref sig .tc := ⟨.hbm, 197, rfl⟩
abbrev main_v156 : Ref sig .tc := ⟨.hbm, 198, rfl⟩
abbrev main_v157 : Ref sig .tc := ⟨.hbm, 199, rfl⟩
abbrev main_cst_26 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_cst_27 : Ref sig .tc := ⟨.hbm, 206, rfl⟩
abbrev main_v163 : Ref sig .tc := ⟨.hbm, 207, rfl⟩
abbrev main_v164 : Ref sig .tc := ⟨.hbm, 208, rfl⟩
abbrev main_cst_28 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_cst_29 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_c_30 : Ref sig .tc := ⟨.hbm, 231, rfl⟩
abbrev main_v185 : Ref sig .tc := ⟨.hbm, 232, rfl⟩
abbrev main_v186 : Ref sig .tc := ⟨.hbm, 233, rfl⟩
abbrev main_c_31 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_cst_32 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_call4_cst : Ref sig .tc := ⟨.hbm, 250, rfl⟩
abbrev main_call4_v0 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_cst_33 : Ref sig .tc := ⟨.hbm, 257, rfl⟩
abbrev main_v206 : Ref sig .tc := ⟨.hbm, 258, rfl⟩
abbrev main_v207 : Ref sig .tc := ⟨.hbm, 259, rfl⟩
abbrev main_cst_34 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_cst_35 : Ref sig .tc := ⟨.hbm, 266, rfl⟩
abbrev main_v213 : Ref sig .tc := ⟨.hbm, 267, rfl⟩
abbrev main_v214 : Ref sig .tc := ⟨.hbm, 268, rfl⟩
abbrev main_cst_36 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_cst_37 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

class Facts : Prop extends Facts₀ where

variable [Facts]
-- ==== Proof.KernelRun.lean ====
/-
  The idealized kernel program's run with its result named.

  The program is eight launches among stretches of host operations.  The buffer contents at each of the
  eighteen boundaries are a fold from the launch memory (`Gen.W0` … `Gen.W18`): a stretch applies its host
  operations, a launch leaves its arrays at what its write-backs leave and every other buffer as entered.
  Every weakly fair execution terminates, nothing faulting, with EVERY unscoped buffer at the last
  boundary's contents; read at the result buffer this names the result, read at the six argument buffers it
  says they are unchanged.
-/
import proofs.«175188_j21217138442428_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- From any memory with zero counters every weakly fair execution of the program terminates, nothing
    faulting, with the result buffer at the last boundary's contents and the argument arrays as launched. -/
theorem run : θ_run defs (onTc (τ := τ) (main (F := F))) ⟨m, fun _ => 0, ρ⟩ (fun r => ∀ c : Dev nD,
      r.2.mem ((c.tc : Thread nD τ).loc main_v133) = W18 m ρ c (Proc.devRef .tc main_v133)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v133 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c)⟩)

end Cert.KernelIdeal.RunValue

end
-- ==== Proof.Carried.lean ====
/-
  Buffers no later step writes.

  The two index vectors (sources and targets of the edges with the self-loops appended), the edge weights and
  the four parameter arrays are written before the first launch or never; every later stretch of host
  operations writes other buffers and every launch leaves the buffers that are not its arrays as entered.  So at
  every later boundary each of them still holds what it held when the first launch was entered.
-/
import proofs.«175188_j21217138442428_1_alg».proof.Proof.Gen.KernelIdeal.Frame
import Idealize.ShloMosaic.Lib.StableHlo.Run

set_option maxRecDepth 16384

noncomputable section

namespace Cert.KernelIdeal.Carried

open Cert.KernelIdeal Cert.KernelIdeal.Gen
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-! ### `main_v5` -/

theorem step4_main_v5 (c : Dev nD) : W4 m ρ c (Proc.devRef .tc main_v5) = W3 m ρ c (Proc.devRef .tc main_v5) :=
  W4_of_ne m ρ c main_v5 (by decide)
theorem at4_main_v5 (c : Dev nD) : W4 m ρ c (Proc.devRef .tc main_v5) = W3 m ρ c (Proc.devRef .tc main_v5) := step4_main_v5 m ρ c
theorem step5_main_v5 (c : Dev nD) : W5 m ρ c (Proc.devRef .tc main_v5) = W4 m ρ c (Proc.devRef .tc main_v5) := by
  show StableHlo.after hostOps1 (W4 m ρ c) (Proc.devRef .tc main_v5) = _
  after_results
theorem at5_main_v5 (c : Dev nD) : W5 m ρ c (Proc.devRef .tc main_v5) = W3 m ρ c (Proc.devRef .tc main_v5) :=
  (step5_main_v5 m ρ c).trans (at4_main_v5 m ρ c)
theorem step6_main_v5 (c : Dev nD) : W6 m ρ c (Proc.devRef .tc main_v5) = W5 m ρ c (Proc.devRef .tc main_v5) :=
  W6_of_ne m ρ c main_v5 (by decide)
theorem at6_main_v5 (c : Dev nD) : W6 m ρ c (Proc.devRef .tc main_v5) = W3 m ρ c (Proc.devRef .tc main_v5) :=
  (step6_main_v5 m ρ c).trans (at5_main_v5 m ρ c)
theorem step7_main_v5 (c : Dev nD) : W7 m ρ c (Proc.devRef .tc main_v5) = W6 m ρ c (Proc.devRef .tc main_v5) := by
  show StableHlo.after hostOps2 (W6 m ρ c) (Proc.devRef .tc main_v5) = _
  after_results
theorem at7_main_v5 (c : Dev nD) : W7 m ρ c (Proc.devRef .tc main_v5) = W3 m ρ c (Proc.devRef .tc main_v5) :=
  (step7_main_v5 m ρ c).trans (at6_main_v5 m ρ c)
theorem step8_main_v5 (c : Dev nD) : W8 m ρ c (Proc.devRef .tc main_v5) = W7 m ρ c (Proc.devRef .tc main_v5) :=
  W8_of_ne m ρ c main_v5 (by decide)
theorem at8_main_v5 (c : Dev nD) : W8 m ρ c (Proc.devRef .tc main_v5) = W3 m ρ c (Proc.devRef .tc main_v5) :=
  (step8_main_v5 m ρ c).trans (at7_main_v5 m ρ c)
theorem step9_main_v5 (c : Dev nD) : W9 m ρ c (Proc.devRef .tc main_v5) = W8 m ρ c (Proc.devRef .tc main_v5) := by
  show StableHlo.after hostOps3 (W8 m ρ c) (Proc.devRef .tc main_v5) = _
  after_results
theorem at9_main_v5 (c : Dev nD) : W9 m ρ c (Proc.devRef .tc main_v5) = W3 m ρ c (Proc.devRef .tc main_v5) :=
  (step9_main_v5 m ρ c).trans (at8_main_v5 m ρ c)
theorem step10_main_v5 (c : Dev nD) : W10 m ρ c (Proc.devRef .tc main_v5) = W9 m ρ c (Proc.devRef .tc main_v5) :=
  W10_of_ne m ρ c main_v5 (by decide)
theorem at10_main_v5 (c : Dev nD) : W10 m ρ c (Proc.devRef .tc main_v5) = W3 m ρ c (Proc.devRef .tc main_v5) :=
  (step10_main_v5 m ρ c).trans (at9_main_v5 m ρ c)
theorem step11_main_v5 (c : Dev nD) : W11 m ρ c (Proc.devRef .tc main_v5) = W10 m ρ c (Proc.devRef .tc main_v5) := by
  show StableHlo.after hostOps4 (W10 m ρ c) (Proc.devRef .tc main_v5) = _
  after_results
theorem at11_main_v5 (c : Dev nD) : W11 m ρ c (Proc.devRef .tc main_v5) = W3 m ρ c (Proc.devRef .tc main_v5) :=
  (step11_main_v5 m ρ c).trans (at10_main_v5 m ρ c)
theorem step12_main_v5 (c : Dev nD) : W12 m ρ c (Proc.devRef .tc main_v5) = W11 m ρ c (Proc.devRef .tc main_v5) :=
  W12_of_ne m ρ c main_v5 (by decide)
theorem at12_main_v5 (c : Dev nD) : W12 m ρ c (Proc.devRef .tc main_v5) = W3 m ρ c (Proc.devRef .tc main_v5) :=
  (step12_main_v5 m ρ c).trans (at11_main_v5 m ρ c)
theorem step13_main_v5 (c : Dev nD) : W13 m ρ c (Proc.devRef .tc main_v5) = W12 m ρ c (Proc.devRef .tc main_v5) := by
  show StableHlo.after hostOps5 (W12 m ρ c) (Proc.devRef .tc main_v5) = _
  after_results
theorem at13_main_v5 (c : Dev nD) : W13 m ρ c (Proc.devRef .tc main_v5) = W3 m ρ c (Proc.devRef .tc main_v5) :=
  (step13_main_v5 m ρ c).trans (at12_main_v5 m ρ c)
theorem step14_main_v5 (c : Dev nD) : W14 m ρ c (Proc.devRef .tc main_v5) = W13 m ρ c (Proc.devRef .tc main_v5) :=
  W14_of_ne m ρ c main_v5 (by decide)
theorem at14_main_v5 (c : Dev nD) : W14 m ρ c (Proc.devRef .tc main_v5) = W3 m ρ c (Proc.devRef .tc main_v5) :=
  (step14_main_v5 m ρ c).trans (at13_main_v5 m ρ c)
theorem step15_main_v5 (c : Dev nD) : W15 m ρ c (Proc.devRef .tc main_v5) = W14 m ρ c (Proc.devRef .tc main_v5) := by
  show StableHlo.after hostOps6 (W14 m ρ c) (Proc.devRef .tc main_v5) = _
  after_results
theorem at15_main_v5 (c : Dev nD) : W15 m ρ c (Proc.devRef .tc main_v5) = W3 m ρ c (Proc.devRef .tc main_v5) :=
  (step15_main_v5 m ρ c).trans (at14_main_v5 m ρ c)
theorem step16_main_v5 (c : Dev nD) : W16 m ρ c (Proc.devRef .tc main_v5) = W15 m ρ c (Proc.devRef .tc main_v5) :=
  W16_of_ne m ρ c main_v5 (by decide)
theorem at16_main_v5 (c : Dev nD) : W16 m ρ c (Proc.devRef .tc main_v5) = W3 m ρ c (Proc.devRef .tc main_v5) :=
  (step16_main_v5 m ρ c).trans (at15_main_v5 m ρ c)
theorem step17_main_v5 (c : Dev nD) : W17 m ρ c (Proc.devRef .tc main_v5) = W16 m ρ c (Proc.devRef .tc main_v5) := by
  show StableHlo.after hostOps7 (W16 m ρ c) (Proc.devRef .tc main_v5) = _
  after_results
theorem at17_main_v5 (c : Dev nD) : W17 m ρ c (Proc.devRef .tc main_v5) = W3 m ρ c (Proc.devRef .tc main_v5) :=
  (step17_main_v5 m ρ c).trans (at16_main_v5 m ρ c)

/-! ### `main_v6` -/

theorem step4_main_v6 (c : Dev nD) : W4 m ρ c (Proc.devRef .tc main_v6) = W3 m ρ c (Proc.devRef .tc main_v6) :=
  W4_of_ne m ρ c main_v6 (by decide)
theorem at4_main_v6 (c : Dev nD) : W4 m ρ c (Proc.devRef .tc main_v6) = W3 m ρ c (Proc.devRef .tc main_v6) := step4_main_v6 m ρ c
theorem step5_main_v6 (c : Dev nD) : W5 m ρ c (Proc.devRef .tc main_v6) = W4 m ρ c (Proc.devRef .tc main_v6) := by
  show StableHlo.after hostOps1 (W4 m ρ c) (Proc.devRef .tc main_v6) = _
  after_results
theorem at5_main_v6 (c : Dev nD) : W5 m ρ c (Proc.devRef .tc main_v6) = W3 m ρ c (Proc.devRef .tc main_v6) :=
  (step5_main_v6 m ρ c).trans (at4_main_v6 m ρ c)
theorem step6_main_v6 (c : Dev nD) : W6 m ρ c (Proc.devRef .tc main_v6) = W5 m ρ c (Proc.devRef .tc main_v6) :=
  W6_of_ne m ρ c main_v6 (by decide)
theorem at6_main_v6 (c : Dev nD) : W6 m ρ c (Proc.devRef .tc main_v6) = W3 m ρ c (Proc.devRef .tc main_v6) :=
  (step6_main_v6 m ρ c).trans (at5_main_v6 m ρ c)
theorem step7_main_v6 (c : Dev nD) : W7 m ρ c (Proc.devRef .tc main_v6) = W6 m ρ c (Proc.devRef .tc main_v6) := by
  show StableHlo.after hostOps2 (W6 m ρ c) (Proc.devRef .tc main_v6) = _
  after_results
theorem at7_main_v6 (c : Dev nD) : W7 m ρ c (Proc.devRef .tc main_v6) = W3 m ρ c (Proc.devRef .tc main_v6) :=
  (step7_main_v6 m ρ c).trans (at6_main_v6 m ρ c)
theorem step8_main_v6 (c : Dev nD) : W8 m ρ c (Proc.devRef .tc main_v6) = W7 m ρ c (Proc.devRef .tc main_v6) :=
  W8_of_ne m ρ c main_v6 (by decide)
theorem at8_main_v6 (c : Dev nD) : W8 m ρ c (Proc.devRef .tc main_v6) = W3 m ρ c (Proc.devRef .tc main_v6) :=
  (step8_main_v6 m ρ c).trans (at7_main_v6 m ρ c)
theorem step9_main_v6 (c : Dev nD) : W9 m ρ c (Proc.devRef .tc main_v6) = W8 m ρ c (Proc.devRef .tc main_v6) := by
  show StableHlo.after hostOps3 (W8 m ρ c) (Proc.devRef .tc main_v6) = _
  after_results
theorem at9_main_v6 (c : Dev nD) : W9 m ρ c (Proc.devRef .tc main_v6) = W3 m ρ c (Proc.devRef .tc main_v6) :=
  (step9_main_v6 m ρ c).trans (at8_main_v6 m ρ c)
theorem step10_main_v6 (c : Dev nD) : W10 m ρ c (Proc.devRef .tc main_v6) = W9 m ρ c (Proc.devRef .tc main_v6) :=
  W10_of_ne m ρ c main_v6 (by decide)
theorem at10_main_v6 (c : Dev nD) : W10 m ρ c (Proc.devRef .tc main_v6) = W3 m ρ c (Proc.devRef .tc main_v6) :=
  (step10_main_v6 m ρ c).trans (at9_main_v6 m ρ c)
theorem step11_main_v6 (c : Dev nD) : W11 m ρ c (Proc.devRef .tc main_v6) = W10 m ρ c (Proc.devRef .tc main_v6) := by
  show StableHlo.after hostOps4 (W10 m ρ c) (Proc.devRef .tc main_v6) = _
  after_results
theorem at11_main_v6 (c : Dev nD) : W11 m ρ c (Proc.devRef .tc main_v6) = W3 m ρ c (Proc.devRef .tc main_v6) :=
  (step11_main_v6 m ρ c).trans (at10_main_v6 m ρ c)
theorem step12_main_v6 (c : Dev nD) : W12 m ρ c (Proc.devRef .tc main_v6) = W11 m ρ c (Proc.devRef .tc main_v6) :=
  W12_of_ne m ρ c main_v6 (by decide)
theorem at12_main_v6 (c : Dev nD) : W12 m ρ c (Proc.devRef .tc main_v6) = W3 m ρ c (Proc.devRef .tc main_v6) :=
  (step12_main_v6 m ρ c).trans (at11_main_v6 m ρ c)
theorem step13_main_v6 (c : Dev nD) : W13 m ρ c (Proc.devRef .tc main_v6) = W12 m ρ c (Proc.devRef .tc main_v6) := by
  show StableHlo.after hostOps5 (W12 m ρ c) (Proc.devRef .tc main_v6) = _
  after_results
theorem at13_main_v6 (c : Dev nD) : W13 m ρ c (Proc.devRef .tc main_v6) = W3 m ρ c (Proc.devRef .tc main_v6) :=
  (step13_main_v6 m ρ c).trans (at12_main_v6 m ρ c)
theorem step14_main_v6 (c : Dev nD) : W14 m ρ c (Proc.devRef .tc main_v6) = W13 m ρ c (Proc.devRef .tc main_v6) :=
  W14_of_ne m ρ c main_v6 (by decide)
theorem at14_main_v6 (c : Dev nD) : W14 m ρ c (Proc.devRef .tc main_v6) = W3 m ρ c (Proc.devRef .tc main_v6) :=
  (step14_main_v6 m ρ c).trans (at13_main_v6 m ρ c)
theorem step15_main_v6 (c : Dev nD) : W15 m ρ c (Proc.devRef .tc main_v6) = W14 m ρ c (Proc.devRef .tc main_v6) := by
  show StableHlo.after hostOps6 (W14 m ρ c) (Proc.devRef .tc main_v6) = _
  after_results
theorem at15_main_v6 (c : Dev nD) : W15 m ρ c (Proc.devRef .tc main_v6) = W3 m ρ c (Proc.devRef .tc main_v6) :=
  (step15_main_v6 m ρ c).trans (at14_main_v6 m ρ c)
theorem step16_main_v6 (c : Dev nD) : W16 m ρ c (Proc.devRef .tc main_v6) = W15 m ρ c (Proc.devRef .tc main_v6) :=
  W16_of_ne m ρ c main_v6 (by decide)
theorem at16_main_v6 (c : Dev nD) : W16 m ρ c (Proc.devRef .tc main_v6) = W3 m ρ c (Proc.devRef .tc main_v6) :=
  (step16_main_v6 m ρ c).trans (at15_main_v6 m ρ c)
theorem step17_main_v6 (c : Dev nD) : W17 m ρ c (Proc.devRef .tc main_v6) = W16 m ρ c (Proc.devRef .tc main_v6) := by
  show StableHlo.after hostOps7 (W16 m ρ c) (Proc.devRef .tc main_v6) = _
  after_results
theorem at17_main_v6 (c : Dev nD) : W17 m ρ c (Proc.devRef .tc main_v6) = W3 m ρ c (Proc.devRef .tc main_v6) :=
  (step17_main_v6 m ρ c).trans (at16_main_v6 m ρ c)

/-! ### `main_v29` -/

theorem step4_main_v29 (c : Dev nD) : W4 m ρ c (Proc.devRef .tc main_v29) = W3 m ρ c (Proc.devRef .tc main_v29) :=
  W4_of_ne m ρ c main_v29 (by decide)
theorem at4_main_v29 (c : Dev nD) : W4 m ρ c (Proc.devRef .tc main_v29) = W3 m ρ c (Proc.devRef .tc main_v29) := step4_main_v29 m ρ c
theorem step5_main_v29 (c : Dev nD) : W5 m ρ c (Proc.devRef .tc main_v29) = W4 m ρ c (Proc.devRef .tc main_v29) := by
  show StableHlo.after hostOps1 (W4 m ρ c) (Proc.devRef .tc main_v29) = _
  after_results
theorem at5_main_v29 (c : Dev nD) : W5 m ρ c (Proc.devRef .tc main_v29) = W3 m ρ c (Proc.devRef .tc main_v29) :=
  (step5_main_v29 m ρ c).trans (at4_main_v29 m ρ c)
theorem step6_main_v29 (c : Dev nD) : W6 m ρ c (Proc.devRef .tc main_v29) = W5 m ρ c (Proc.devRef .tc main_v29) :=
  W6_of_ne m ρ c main_v29 (by decide)
theorem at6_main_v29 (c : Dev nD) : W6 m ρ c (Proc.devRef .tc main_v29) = W3 m ρ c (Proc.devRef .tc main_v29) :=
  (step6_main_v29 m ρ c).trans (at5_main_v29 m ρ c)
theorem step7_main_v29 (c : Dev nD) : W7 m ρ c (Proc.devRef .tc main_v29) = W6 m ρ c (Proc.devRef .tc main_v29) := by
  show StableHlo.after hostOps2 (W6 m ρ c) (Proc.devRef .tc main_v29) = _
  after_results
theorem at7_main_v29 (c : Dev nD) : W7 m ρ c (Proc.devRef .tc main_v29) = W3 m ρ c (Proc.devRef .tc main_v29) :=
  (step7_main_v29 m ρ c).trans (at6_main_v29 m ρ c)
theorem step8_main_v29 (c : Dev nD) : W8 m ρ c (Proc.devRef .tc main_v29) = W7 m ρ c (Proc.devRef .tc main_v29) :=
  W8_of_ne m ρ c main_v29 (by decide)
theorem at8_main_v29 (c : Dev nD) : W8 m ρ c (Proc.devRef .tc main_v29) = W3 m ρ c (Proc.devRef .tc main_v29) :=
  (step8_main_v29 m ρ c).trans (at7_main_v29 m ρ c)
theorem step9_main_v29 (c : Dev nD) : W9 m ρ c (Proc.devRef .tc main_v29) = W8 m ρ c (Proc.devRef .tc main_v29) := by
  show StableHlo.after hostOps3 (W8 m ρ c) (Proc.devRef .tc main_v29) = _
  after_results
theorem at9_main_v29 (c : Dev nD) : W9 m ρ c (Proc.devRef .tc main_v29) = W3 m ρ c (Proc.devRef .tc main_v29) :=
  (step9_main_v29 m ρ c).trans (at8_main_v29 m ρ c)
theorem step10_main_v29 (c : Dev nD) : W10 m ρ c (Proc.devRef .tc main_v29) = W9 m ρ c (Proc.devRef .tc main_v29) :=
  W10_of_ne m ρ c main_v29 (by decide)
theorem at10_main_v29 (c : Dev nD) : W10 m ρ c (Proc.devRef .tc main_v29) = W3 m ρ c (Proc.devRef .tc main_v29) :=
  (step10_main_v29 m ρ c).trans (at9_main_v29 m ρ c)
theorem step11_main_v29 (c : Dev nD) : W11 m ρ c (Proc.devRef .tc main_v29) = W10 m ρ c (Proc.devRef .tc main_v29) := by
  show StableHlo.after hostOps4 (W10 m ρ c) (Proc.devRef .tc main_v29) = _
  after_results
theorem at11_main_v29 (c : Dev nD) : W11 m ρ c (Proc.devRef .tc main_v29) = W3 m ρ c (Proc.devRef .tc main_v29) :=
  (step11_main_v29 m ρ c).trans (at10_main_v29 m ρ c)
theorem step12_main_v29 (c : Dev nD) : W12 m ρ c (Proc.devRef .tc main_v29) = W11 m ρ c (Proc.devRef .tc main_v29) :=
  W12_of_ne m ρ c main_v29 (by decide)
theorem at12_main_v29 (c : Dev nD) : W12 m ρ c (Proc.devRef .tc main_v29) = W3 m ρ c (Proc.devRef .tc main_v29) :=
  (step12_main_v29 m ρ c).trans (at11_main_v29 m ρ c)
theorem step13_main_v29 (c : Dev nD) : W13 m ρ c (Proc.devRef .tc main_v29) = W12 m ρ c (Proc.devRef .tc main_v29) := by
  show StableHlo.after hostOps5 (W12 m ρ c) (Proc.devRef .tc main_v29) = _
  after_results
theorem at13_main_v29 (c : Dev nD) : W13 m ρ c (Proc.devRef .tc main_v29) = W3 m ρ c (Proc.devRef .tc main_v29) :=
  (step13_main_v29 m ρ c).trans (at12_main_v29 m ρ c)
theorem step14_main_v29 (c : Dev nD) : W14 m ρ c (Proc.devRef .tc main_v29) = W13 m ρ c (Proc.devRef .tc main_v29) :=
  W14_of_ne m ρ c main_v29 (by decide)
theorem at14_main_v29 (c : Dev nD) : W14 m ρ c (Proc.devRef .tc main_v29) = W3 m ρ c (Proc.devRef .tc main_v29) :=
  (step14_main_v29 m ρ c).trans (at13_main_v29 m ρ c)
theorem step15_main_v29 (c : Dev nD) : W15 m ρ c (Proc.devRef .tc main_v29) = W14 m ρ c (Proc.devRef .tc main_v29) := by
  show StableHlo.after hostOps6 (W14 m ρ c) (Proc.devRef .tc main_v29) = _
  after_results
theorem at15_main_v29 (c : Dev nD) : W15 m ρ c (Proc.devRef .tc main_v29) = W3 m ρ c (Proc.devRef .tc main_v29) :=
  (step15_main_v29 m ρ c).trans (at14_main_v29 m ρ c)
theorem step16_main_v29 (c : Dev nD) : W16 m ρ c (Proc.devRef .tc main_v29) = W15 m ρ c (Proc.devRef .tc main_v29) :=
  W16_of_ne m ρ c main_v29 (by decide)
theorem at16_main_v29 (c : Dev nD) : W16 m ρ c (Proc.devRef .tc main_v29) = W3 m ρ c (Proc.devRef .tc main_v29) :=
  (step16_main_v29 m ρ c).trans (at15_main_v29 m ρ c)
theorem step17_main_v29 (c : Dev nD) : W17 m ρ c (Proc.devRef .tc main_v29) = W16 m ρ c (Proc.devRef .tc main_v29) := by
  show StableHlo.after hostOps7 (W16 m ρ c) (Proc.devRef .tc main_v29) = _
  after_results
theorem at17_main_v29 (c : Dev nD) : W17 m ρ c (Proc.devRef .tc main_v29) = W3 m ρ c (Proc.devRef .tc main_v29) :=
  (step17_main_v29 m ρ c).trans (at16_main_v29 m ρ c)

/-! ### `main_arg1` -/

theorem step4_main_arg1 (c : Dev nD) : W4 m ρ c (Proc.devRef .tc main_arg1) = W3 m ρ c (Proc.devRef .tc main_arg1) :=
  W4_of_ne m ρ c main_arg1 (by decide)
theorem at4_main_arg1 (c : Dev nD) : W4 m ρ c (Proc.devRef .tc main_arg1) = W3 m ρ c (Proc.devRef .tc main_arg1) := step4_main_arg1 m ρ c
theorem step5_main_arg1 (c : Dev nD) : W5 m ρ c (Proc.devRef .tc main_arg1) = W4 m ρ c (Proc.devRef .tc main_arg1) := by
  show StableHlo.after hostOps1 (W4 m ρ c) (Proc.devRef .tc main_arg1) = _
  after_results
theorem at5_main_arg1 (c : Dev nD) : W5 m ρ c (Proc.devRef .tc main_arg1) = W3 m ρ c (Proc.devRef .tc main_arg1) :=
  (step5_main_arg1 m ρ c).trans (at4_main_arg1 m ρ c)
theorem step6_main_arg1 (c : Dev nD) : W6 m ρ c (Proc.devRef .tc main_arg1) = W5 m ρ c (Proc.devRef .tc main_arg1) :=
  W6_of_ne m ρ c main_arg1 (by decide)
theorem at6_main_arg1 (c : Dev nD) : W6 m ρ c (Proc.devRef .tc main_arg1) = W3 m ρ c (Proc.devRef .tc main_arg1) :=
  (step6_main_arg1 m ρ c).trans (at5_main_arg1 m ρ c)
theorem step7_main_arg1 (c : Dev nD) : W7 m ρ c (Proc.devRef .tc main_arg1) = W6 m ρ c (Proc.devRef .tc main_arg1) := by
  show StableHlo.after hostOps2 (W6 m ρ c) (Proc.devRef .tc main_arg1) = _
  after_results
theorem at7_main_arg1 (c : Dev nD) : W7 m ρ c (Proc.devRef .tc main_arg1) = W3 m ρ c (Proc.devRef .tc main_arg1) :=
  (step7_main_arg1 m ρ c).trans (at6_main_arg1 m ρ c)
theorem step8_main_arg1 (c : Dev nD) : W8 m ρ c (Proc.devRef .tc main_arg1) = W7 m ρ c (Proc.devRef .tc main_arg1) :=
  W8_of_ne m ρ c main_arg1 (by decide)
theorem at8_main_arg1 (c : Dev nD) : W8 m ρ c (Proc.devRef .tc main_arg1) = W3 m ρ c (Proc.devRef .tc main_arg1) :=
  (step8_main_arg1 m ρ c).trans (at7_main_arg1 m ρ c)
theorem step9_main_arg1 (c : Dev nD) : W9 m ρ c (Proc.devRef .tc main_arg1) = W8 m ρ c (Proc.devRef .tc main_arg1) := by
  show StableHlo.after hostOps3 (W8 m ρ c) (Proc.devRef .tc main_arg1) = _
  after_results
theorem at9_main_arg1 (c : Dev nD) : W9 m ρ c (Proc.devRef .tc main_arg1) = W3 m ρ c (Proc.devRef .tc main_arg1) :=
  (step9_main_arg1 m ρ c).trans (at8_main_arg1 m ρ c)
theorem step10_main_arg1 (c : Dev nD) : W10 m ρ c (Proc.devRef .tc main_arg1) = W9 m ρ c (Proc.devRef .tc main_arg1) :=
  W10_of_ne m ρ c main_arg1 (by decide)
theorem at10_main_arg1 (c : Dev nD) : W10 m ρ c (Proc.devRef .tc main_arg1) = W3 m ρ c (Proc.devRef .tc main_arg1) :=
  (step10_main_arg1 m ρ c).trans (at9_main_arg1 m ρ c)
theorem step11_main_arg1 (c : Dev nD) : W11 m ρ c (Proc.devRef .tc main_arg1) = W10 m ρ c (Proc.devRef .tc main_arg1) := by
  show StableHlo.after hostOps4 (W10 m ρ c) (Proc.devRef .tc main_arg1) = _
  after_results
theorem at11_main_arg1 (c : Dev nD) : W11 m ρ c (Proc.devRef .tc main_arg1) = W3 m ρ c (Proc.devRef .tc main_arg1) :=
  (step11_main_arg1 m ρ c).trans (at10_main_arg1 m ρ c)
theorem step12_main_arg1 (c : Dev nD) : W12 m ρ c (Proc.devRef .tc main_arg1) = W11 m ρ c (Proc.devRef .tc main_arg1) :=
  W12_of_ne m ρ c main_arg1 (by decide)
theorem at12_main_arg1 (c : Dev nD) : W12 m ρ c (Proc.devRef .tc main_arg1) = W3 m ρ c (Proc.devRef .tc main_arg1) :=
  (step12_main_arg1 m ρ c).trans (at11_main_arg1 m ρ c)
theorem step13_main_arg1 (c : Dev nD) : W13 m ρ c (Proc.devRef .tc main_arg1) = W12 m ρ c (Proc.devRef .tc main_arg1) := by
  show StableHlo.after hostOps5 (W12 m ρ c) (Proc.devRef .tc main_arg1) = _
  after_results
theorem at13_main_arg1 (c : Dev nD) : W13 m ρ c (Proc.devRef .tc main_arg1) = W3 m ρ c (Proc.devRef .tc main_arg1) :=
  (step13_main_arg1 m ρ c).trans (at12_main_arg1 m ρ c)
theorem step14_main_arg1 (c : Dev nD) : W14 m ρ c (Proc.devRef .tc main_arg1) = W13 m ρ c (Proc.devRef .tc main_arg1) :=
  W14_of_ne m ρ c main_arg1 (by decide)
theorem at14_main_arg1 (c : Dev nD) : W14 m ρ c (Proc.devRef .tc main_arg1) = W3 m ρ c (Proc.devRef .tc main_arg1) :=
  (step14_main_arg1 m ρ c).trans (at13_main_arg1 m ρ c)
theorem step15_main_arg1 (c : Dev nD) : W15 m ρ c (Proc.devRef .tc main_arg1) = W14 m ρ c (Proc.devRef .tc main_arg1) := by
  show StableHlo.after hostOps6 (W14 m ρ c) (Proc.devRef .tc main_arg1) = _
  after_results
theorem at15_main_arg1 (c : Dev nD) : W15 m ρ c (Proc.devRef .tc main_arg1) = W3 m ρ c (Proc.devRef .tc main_arg1) :=
  (step15_main_arg1 m ρ c).trans (at14_main_arg1 m ρ c)
theorem step16_main_arg1 (c : Dev nD) : W16 m ρ c (Proc.devRef .tc main_arg1) = W15 m ρ c (Proc.devRef .tc main_arg1) :=
  W16_of_ne m ρ c main_arg1 (by decide)
theorem at16_main_arg1 (c : Dev nD) : W16 m ρ c (Proc.devRef .tc main_arg1) = W3 m ρ c (Proc.devRef .tc main_arg1) :=
  (step16_main_arg1 m ρ c).trans (at15_main_arg1 m ρ c)
theorem step17_main_arg1 (c : Dev nD) : W17 m ρ c (Proc.devRef .tc main_arg1) = W16 m ρ c (Proc.devRef .tc main_arg1) := by
  show StableHlo.after hostOps7 (W16 m ρ c) (Proc.devRef .tc main_arg1) = _
  after_results
theorem at17_main_arg1 (c : Dev nD) : W17 m ρ c (Proc.devRef .tc main_arg1) = W3 m ρ c (Proc.devRef .tc main_arg1) :=
  (step17_main_arg1 m ρ c).trans (at16_main_arg1 m ρ c)

/-! ### `main_arg2` -/

theorem step4_main_arg2 (c : Dev nD) : W4 m ρ c (Proc.devRef .tc main_arg2) = W3 m ρ c (Proc.devRef .tc main_arg2) :=
  W4_of_ne m ρ c main_arg2 (by decide)
theorem at4_main_arg2 (c : Dev nD) : W4 m ρ c (Proc.devRef .tc main_arg2) = W3 m ρ c (Proc.devRef .tc main_arg2) := step4_main_arg2 m ρ c
theorem step5_main_arg2 (c : Dev nD) : W5 m ρ c (Proc.devRef .tc main_arg2) = W4 m ρ c (Proc.devRef .tc main_arg2) := by
  show StableHlo.after hostOps1 (W4 m ρ c) (Proc.devRef .tc main_arg2) = _
  after_results
theorem at5_main_arg2 (c : Dev nD) : W5 m ρ c (Proc.devRef .tc main_arg2) = W3 m ρ c (Proc.devRef .tc main_arg2) :=
  (step5_main_arg2 m ρ c).trans (at4_main_arg2 m ρ c)
theorem step6_main_arg2 (c : Dev nD) : W6 m ρ c (Proc.devRef .tc main_arg2) = W5 m ρ c (Proc.devRef .tc main_arg2) :=
  W6_of_ne m ρ c main_arg2 (by decide)
theorem at6_main_arg2 (c : Dev nD) : W6 m ρ c (Proc.devRef .tc main_arg2) = W3 m ρ c (Proc.devRef .tc main_arg2) :=
  (step6_main_arg2 m ρ c).trans (at5_main_arg2 m ρ c)
theorem step7_main_arg2 (c : Dev nD) : W7 m ρ c (Proc.devRef .tc main_arg2) = W6 m ρ c (Proc.devRef .tc main_arg2) := by
  show StableHlo.after hostOps2 (W6 m ρ c) (Proc.devRef .tc main_arg2) = _
  after_results
theorem at7_main_arg2 (c : Dev nD) : W7 m ρ c (Proc.devRef .tc main_arg2) = W3 m ρ c (Proc.devRef .tc main_arg2) :=
  (step7_main_arg2 m ρ c).trans (at6_main_arg2 m ρ c)
theorem step8_main_arg2 (c : Dev nD) : W8 m ρ c (Proc.devRef .tc main_arg2) = W7 m ρ c (Proc.devRef .tc main_arg2) :=
  W8_of_ne m ρ c main_arg2 (by decide)
theorem at8_main_arg2 (c : Dev nD) : W8 m ρ c (Proc.devRef .tc main_arg2) = W3 m ρ c (Proc.devRef .tc main_arg2) :=
  (step8_main_arg2 m ρ c).trans (at7_main_arg2 m ρ c)
theorem step9_main_arg2 (c : Dev nD) : W9 m ρ c (Proc.devRef .tc main_arg2) = W8 m ρ c (Proc.devRef .tc main_arg2) := by
  show StableHlo.after hostOps3 (W8 m ρ c) (Proc.devRef .tc main_arg2) = _
  after_results
theorem at9_main_arg2 (c : Dev nD) : W9 m ρ c (Proc.devRef .tc main_arg2) = W3 m ρ c (Proc.devRef .tc main_arg2) :=
  (step9_main_arg2 m ρ c).trans (at8_main_arg2 m ρ c)
theorem step10_main_arg2 (c : Dev nD) : W10 m ρ c (Proc.devRef .tc main_arg2) = W9 m ρ c (Proc.devRef .tc main_arg2) :=
  W10_of_ne m ρ c main_arg2 (by decide)
theorem at10_main_arg2 (c : Dev nD) : W10 m ρ c (Proc.devRef .tc main_arg2) = W3 m ρ c (Proc.devRef .tc main_arg2) :=
  (step10_main_arg2 m ρ c).trans (at9_main_arg2 m ρ c)
theorem step11_main_arg2 (c : Dev nD) : W11 m ρ c (Proc.devRef .tc main_arg2) = W10 m ρ c (Proc.devRef .tc main_arg2) := by
  show StableHlo.after hostOps4 (W10 m ρ c) (Proc.devRef .tc main_arg2) = _
  after_results
theorem at11_main_arg2 (c : Dev nD) : W11 m ρ c (Proc.devRef .tc main_arg2) = W3 m ρ c (Proc.devRef .tc main_arg2) :=
  (step11_main_arg2 m ρ c).trans (at10_main_arg2 m ρ c)
theorem step12_main_arg2 (c : Dev nD) : W12 m ρ c (Proc.devRef .tc main_arg2) = W11 m ρ c (Proc.devRef .tc main_arg2) :=
  W12_of_ne m ρ c main_arg2 (by decide)
theorem at12_main_arg2 (c : Dev nD) : W12 m ρ c (Proc.devRef .tc main_arg2) = W3 m ρ c (Proc.devRef .tc main_arg2) :=
  (step12_main_arg2 m ρ c).trans (at11_main_arg2 m ρ c)
theorem step13_main_arg2 (c : Dev nD) : W13 m ρ c (Proc.devRef .tc main_arg2) = W12 m ρ c (Proc.devRef .tc main_arg2) := by
  show StableHlo.after hostOps5 (W12 m ρ c) (Proc.devRef .tc main_arg2) = _
  after_results
theorem at13_main_arg2 (c : Dev nD) : W13 m ρ c (Proc.devRef .tc main_arg2) = W3 m ρ c (Proc.devRef .tc main_arg2) :=
  (step13_main_arg2 m ρ c).trans (at12_main_arg2 m ρ c)
theorem step14_main_arg2 (c : Dev nD) : W14 m ρ c (Proc.devRef .tc main_arg2) = W13 m ρ c (Proc.devRef .tc main_arg2) :=
  W14_of_ne m ρ c main_arg2 (by decide)
theorem at14_main_arg2 (c : Dev nD) : W14 m ρ c (Proc.devRef .tc main_arg2) = W3 m ρ c (Proc.devRef .tc main_arg2) :=
  (step14_main_arg2 m ρ c).trans (at13_main_arg2 m ρ c)
theorem step15_main_arg2 (c : Dev nD) : W15 m ρ c (Proc.devRef .tc main_arg2) = W14 m ρ c (Proc.devRef .tc main_arg2) := by
  show StableHlo.after hostOps6 (W14 m ρ c) (Proc.devRef .tc main_arg2) = _
  after_results
theorem at15_main_arg2 (c : Dev nD) : W15 m ρ c (Proc.devRef .tc main_arg2) = W3 m ρ c (Proc.devRef .tc main_arg2) :=
  (step15_main_arg2 m ρ c).trans (at14_main_arg2 m ρ c)
theorem step16_main_arg2 (c : Dev nD) : W16 m ρ c (Proc.devRef .tc main_arg2) = W15 m ρ c (Proc.devRef .tc main_arg2) :=
  W16_of_ne m ρ c main_arg2 (by decide)
theorem at16_main_arg2 (c : Dev nD) : W16 m ρ c (Proc.devRef .tc main_arg2) = W3 m ρ c (Proc.devRef .tc main_arg2) :=
  (step16_main_arg2 m ρ c).trans (at15_main_arg2 m ρ c)
theorem step17_main_arg2 (c : Dev nD) : W17 m ρ c (Proc.devRef .tc main_arg2) = W16 m ρ c (Proc.devRef .tc main_arg2) := by
  show StableHlo.after hostOps7 (W16 m ρ c) (Proc.devRef .tc main_arg2) = _
  after_results
theorem at17_main_arg2 (c : Dev nD) : W17 m ρ c (Proc.devRef .tc main_arg2) = W3 m ρ c (Proc.devRef .tc main_arg2) :=
  (step17_main_arg2 m ρ c).trans (at16_main_arg2 m ρ c)

/-! ### `main_arg3` -/

theorem step4_main_arg3 (c : Dev nD) : W4 m ρ c (Proc.devRef .tc main_arg3) = W3 m ρ c (Proc.devRef .tc main_arg3) :=
  W4_of_ne m ρ c main_arg3 (by decide)
theorem at4_main_arg3 (c : Dev nD) : W4 m ρ c (Proc.devRef .tc main_arg3) = W3 m ρ c (Proc.devRef .tc main_arg3) := step4_main_arg3 m ρ c
theorem step5_main_arg3 (c : Dev nD) : W5 m ρ c (Proc.devRef .tc main_arg3) = W4 m ρ c (Proc.devRef .tc main_arg3) := by
  show StableHlo.after hostOps1 (W4 m ρ c) (Proc.devRef .tc main_arg3) = _
  after_results
theorem at5_main_arg3 (c : Dev nD) : W5 m ρ c (Proc.devRef .tc main_arg3) = W3 m ρ c (Proc.devRef .tc main_arg3) :=
  (step5_main_arg3 m ρ c).trans (at4_main_arg3 m ρ c)
theorem step6_main_arg3 (c : Dev nD) : W6 m ρ c (Proc.devRef .tc main_arg3) = W5 m ρ c (Proc.devRef .tc main_arg3) :=
  W6_of_ne m ρ c main_arg3 (by decide)
theorem at6_main_arg3 (c : Dev nD) : W6 m ρ c (Proc.devRef .tc main_arg3) = W3 m ρ c (Proc.devRef .tc main_arg3) :=
  (step6_main_arg3 m ρ c).trans (at5_main_arg3 m ρ c)
theorem step7_main_arg3 (c : Dev nD) : W7 m ρ c (Proc.devRef .tc main_arg3) = W6 m ρ c (Proc.devRef .tc main_arg3) := by
  show StableHlo.after hostOps2 (W6 m ρ c) (Proc.devRef .tc main_arg3) = _
  after_results
theorem at7_main_arg3 (c : Dev nD) : W7 m ρ c (Proc.devRef .tc main_arg3) = W3 m ρ c (Proc.devRef .tc main_arg3) :=
  (step7_main_arg3 m ρ c).trans (at6_main_arg3 m ρ c)
theorem step8_main_arg3 (c : Dev nD) : W8 m ρ c (Proc.devRef .tc main_arg3) = W7 m ρ c (Proc.devRef .tc main_arg3) :=
  W8_of_ne m ρ c main_arg3 (by decide)
theorem at8_main_arg3 (c : Dev nD) : W8 m ρ c (Proc.devRef .tc main_arg3) = W3 m ρ c (Proc.devRef .tc main_arg3) :=
  (step8_main_arg3 m ρ c).trans (at7_main_arg3 m ρ c)
theorem step9_main_arg3 (c : Dev nD) : W9 m ρ c (Proc.devRef .tc main_arg3) = W8 m ρ c (Proc.devRef .tc main_arg3) := by
  show StableHlo.after hostOps3 (W8 m ρ c) (Proc.devRef .tc main_arg3) = _
  after_results
theorem at9_main_arg3 (c : Dev nD) : W9 m ρ c (Proc.devRef .tc main_arg3) = W3 m ρ c (Proc.devRef .tc main_arg3) :=
  (step9_main_arg3 m ρ c).trans (at8_main_arg3 m ρ c)
theorem step10_main_arg3 (c : Dev nD) : W10 m ρ c (Proc.devRef .tc main_arg3) = W9 m ρ c (Proc.devRef .tc main_arg3) :=
  W10_of_ne m ρ c main_arg3 (by decide)
theorem at10_main_arg3 (c : Dev nD) : W10 m ρ c (Proc.devRef .tc main_arg3) = W3 m ρ c (Proc.devRef .tc main_arg3) :=
  (step10_main_arg3 m ρ c).trans (at9_main_arg3 m ρ c)
theorem step11_main_arg3 (c : Dev nD) : W11 m ρ c (Proc.devRef .tc main_arg3) = W10 m ρ c (Proc.devRef .tc main_arg3) := by
  show StableHlo.after hostOps4 (W10 m ρ c) (Proc.devRef .tc main_arg3) = _
  after_results
theorem at11_main_arg3 (c : Dev nD) : W11 m ρ c (Proc.devRef .tc main_arg3) = W3 m ρ c (Proc.devRef .tc main_arg3) :=
  (step11_main_arg3 m ρ c).trans (at10_main_arg3 m ρ c)
theorem step12_main_arg3 (c : Dev nD) : W12 m ρ c (Proc.devRef .tc main_arg3) = W11 m ρ c (Proc.devRef .tc main_arg3) :=
  W12_of_ne m ρ c main_arg3 (by decide)
theorem at12_main_arg3 (c : Dev nD) : W12 m ρ c (Proc.devRef .tc main_arg3) = W3 m ρ c (Proc.devRef .tc main_arg3) :=
  (step12_main_arg3 m ρ c).trans (at11_main_arg3 m ρ c)
theorem step13_main_arg3 (c : Dev nD) : W13 m ρ c (Proc.devRef .tc main_arg3) = W12 m ρ c (Proc.devRef .tc main_arg3) := by
  show StableHlo.after hostOps5 (W12 m ρ c) (Proc.devRef .tc main_arg3) = _
  after_results
theorem at13_main_arg3 (c : Dev nD) : W13 m ρ c (Proc.devRef .tc main_arg3) = W3 m ρ c (Proc.devRef .tc main_arg3) :=
  (step13_main_arg3 m ρ c).trans (at12_main_arg3 m ρ c)
theorem step14_main_arg3 (c : Dev nD) : W14 m ρ c (Proc.devRef .tc main_arg3) = W13 m ρ c (Proc.devRef .tc main_arg3) :=
  W14_of_ne m ρ c main_arg3 (by decide)
theorem at14_main_arg3 (c : Dev nD) : W14 m ρ c (Proc.devRef .tc main_arg3) = W3 m ρ c (Proc.devRef .tc main_arg3) :=
  (step14_main_arg3 m ρ c).trans (at13_main_arg3 m ρ c)
theorem step15_main_arg3 (c : Dev nD) : W15 m ρ c (Proc.devRef .tc main_arg3) = W14 m ρ c (Proc.devRef .tc main_arg3) := by
  show StableHlo.after hostOps6 (W14 m ρ c) (Proc.devRef .tc main_arg3) = _
  after_results
theorem at15_main_arg3 (c : Dev nD) : W15 m ρ c (Proc.devRef .tc main_arg3) = W3 m ρ c (Proc.devRef .tc main_arg3) :=
  (step15_main_arg3 m ρ c).trans (at14_main_arg3 m ρ c)
theorem step16_main_arg3 (c : Dev nD) : W16 m ρ c (Proc.devRef .tc main_arg3) = W15 m ρ c (Proc.devRef .tc main_arg3) :=
  W16_of_ne m ρ c main_arg3 (by decide)
theorem at16_main_arg3 (c : Dev nD) : W16 m ρ c (Proc.devRef .tc main_arg3) = W3 m ρ c (Proc.devRef .tc main_arg3) :=
  (step16_main_arg3 m ρ c).trans (at15_main_arg3 m ρ c)
theorem step17_main_arg3 (c : Dev nD) : W17 m ρ c (Proc.devRef .tc main_arg3) = W16 m ρ c (Proc.devRef .tc main_arg3) := by
  show StableHlo.after hostOps7 (W16 m ρ c) (Proc.devRef .tc main_arg3) = _
  after_results
theorem at17_main_arg3 (c : Dev nD) : W17 m ρ c (Proc.devRef .tc main_arg3) = W3 m ρ c (Proc.devRef .tc main_arg3) :=
  (step17_main_arg3 m ρ c).trans (at16_main_arg3 m ρ c)

/-! ### `main_arg4` -/

theorem step4_main_arg4 (c : Dev nD) : W4 m ρ c (Proc.devRef .tc main_arg4) = W3 m ρ c (Proc.devRef .tc main_arg4) :=
  W4_of_ne m ρ c main_arg4 (by decide)
theorem at4_main_arg4 (c : Dev nD) : W4 m ρ c (Proc.devRef .tc main_arg4) = W3 m ρ c (Proc.devRef .tc main_arg4) := step4_main_arg4 m ρ c
theorem step5_main_arg4 (c : Dev nD) : W5 m ρ c (Proc.devRef .tc main_arg4) = W4 m ρ c (Proc.devRef .tc main_arg4) := by
  show StableHlo.after hostOps1 (W4 m ρ c) (Proc.devRef .tc main_arg4) = _
  after_results
theorem at5_main_arg4 (c : Dev nD) : W5 m ρ c (Proc.devRef .tc main_arg4) = W3 m ρ c (Proc.devRef .tc main_arg4) :=
  (step5_main_arg4 m ρ c).trans (at4_main_arg4 m ρ c)
theorem step6_main_arg4 (c : Dev nD) : W6 m ρ c (Proc.devRef .tc main_arg4) = W5 m ρ c (Proc.devRef .tc main_arg4) :=
  W6_of_ne m ρ c main_arg4 (by decide)
theorem at6_main_arg4 (c : Dev nD) : W6 m ρ c (Proc.devRef .tc main_arg4) = W3 m ρ c (Proc.devRef .tc main_arg4) :=
  (step6_main_arg4 m ρ c).trans (at5_main_arg4 m ρ c)
theorem step7_main_arg4 (c : Dev nD) : W7 m ρ c (Proc.devRef .tc main_arg4) = W6 m ρ c (Proc.devRef .tc main_arg4) := by
  show StableHlo.after hostOps2 (W6 m ρ c) (Proc.devRef .tc main_arg4) = _
  after_results
theorem at7_main_arg4 (c : Dev nD) : W7 m ρ c (Proc.devRef .tc main_arg4) = W3 m ρ c (Proc.devRef .tc main_arg4) :=
  (step7_main_arg4 m ρ c).trans (at6_main_arg4 m ρ c)
theorem step8_main_arg4 (c : Dev nD) : W8 m ρ c (Proc.devRef .tc main_arg4) = W7 m ρ c (Proc.devRef .tc main_arg4) :=
  W8_of_ne m ρ c main_arg4 (by decide)
theorem at8_main_arg4 (c : Dev nD) : W8 m ρ c (Proc.devRef .tc main_arg4) = W3 m ρ c (Proc.devRef .tc main_arg4) :=
  (step8_main_arg4 m ρ c).trans (at7_main_arg4 m ρ c)
theorem step9_main_arg4 (c : Dev nD) : W9 m ρ c (Proc.devRef .tc main_arg4) = W8 m ρ c (Proc.devRef .tc main_arg4) := by
  show StableHlo.after hostOps3 (W8 m ρ c) (Proc.devRef .tc main_arg4) = _
  after_results
theorem at9_main_arg4 (c : Dev nD) : W9 m ρ c (Proc.devRef .tc main_arg4) = W3 m ρ c (Proc.devRef .tc main_arg4) :=
  (step9_main_arg4 m ρ c).trans (at8_main_arg4 m ρ c)
theorem step10_main_arg4 (c : Dev nD) : W10 m ρ c (Proc.devRef .tc main_arg4) = W9 m ρ c (Proc.devRef .tc main_arg4) :=
  W10_of_ne m ρ c main_arg4 (by decide)
theorem at10_main_arg4 (c : Dev nD) : W10 m ρ c (Proc.devRef .tc main_arg4) = W3 m ρ c (Proc.devRef .tc main_arg4) :=
  (step10_main_arg4 m ρ c).trans (at9_main_arg4 m ρ c)
theorem step11_main_arg4 (c : Dev nD) : W11 m ρ c (Proc.devRef .tc main_arg4) = W10 m ρ c (Proc.devRef .tc main_arg4) := by
  show StableHlo.after hostOps4 (W10 m ρ c) (Proc.devRef .tc main_arg4) = _
  after_results
theorem at11_main_arg4 (c : Dev nD) : W11 m ρ c (Proc.devRef .tc main_arg4) = W3 m ρ c (Proc.devRef .tc main_arg4) :=
  (step11_main_arg4 m ρ c).trans (at10_main_arg4 m ρ c)
theorem step12_main_arg4 (c : Dev nD) : W12 m ρ c (Proc.devRef .tc main_arg4) = W11 m ρ c (Proc.devRef .tc main_arg4) :=
  W12_of_ne m ρ c main_arg4 (by decide)
theorem at12_main_arg4 (c : Dev nD) : W12 m ρ c (Proc.devRef .tc main_arg4) = W3 m ρ c (Proc.devRef .tc main_arg4) :=
  (step12_main_arg4 m ρ c).trans (at11_main_arg4 m ρ c)
theorem step13_main_arg4 (c : Dev nD) : W13 m ρ c (Proc.devRef .tc main_arg4) = W12 m ρ c (Proc.devRef .tc main_arg4) := by
  show StableHlo.after hostOps5 (W12 m ρ c) (Proc.devRef .tc main_arg4) = _
  after_results
theorem at13_main_arg4 (c : Dev nD) : W13 m ρ c (Proc.devRef .tc main_arg4) = W3 m ρ c (Proc.devRef .tc main_arg4) :=
  (step13_main_arg4 m ρ c).trans (at12_main_arg4 m ρ c)
theorem step14_main_arg4 (c : Dev nD) : W14 m ρ c (Proc.devRef .tc main_arg4) = W13 m ρ c (Proc.devRef .tc main_arg4) :=
  W14_of_ne m ρ c main_arg4 (by decide)
theorem at14_main_arg4 (c : Dev nD) : W14 m ρ c (Proc.devRef .tc main_arg4) = W3 m ρ c (Proc.devRef .tc main_arg4) :=
  (step14_main_arg4 m ρ c).trans (at13_main_arg4 m ρ c)
theorem step15_main_arg4 (c : Dev nD) : W15 m ρ c (Proc.devRef .tc main_arg4) = W14 m ρ c (Proc.devRef .tc main_arg4) := by
  show StableHlo.after hostOps6 (W14 m ρ c) (Proc.devRef .tc main_arg4) = _
  after_results
theorem at15_main_arg4 (c : Dev nD) : W15 m ρ c (Proc.devRef .tc main_arg4) = W3 m ρ c (Proc.devRef .tc main_arg4) :=
  (step15_main_arg4 m ρ c).trans (at14_main_arg4 m ρ c)
theorem step16_main_arg4 (c : Dev nD) : W16 m ρ c (Proc.devRef .tc main_arg4) = W15 m ρ c (Proc.devRef .tc main_arg4) :=
  W16_of_ne m ρ c main_arg4 (by decide)
theorem at16_main_arg4 (c : Dev nD) : W16 m ρ c (Proc.devRef .tc main_arg4) = W3 m ρ c (Proc.devRef .tc main_arg4) :=
  (step16_main_arg4 m ρ c).trans (at15_main_arg4 m ρ c)
theorem step17_main_arg4 (c : Dev nD) : W17 m ρ c (Proc.devRef .tc main_arg4) = W16 m ρ c (Proc.devRef .tc main_arg4) := by
  show StableHlo.after hostOps7 (W16 m ρ c) (Proc.devRef .tc main_arg4) = _
  after_results
theorem at17_main_arg4 (c : Dev nD) : W17 m ρ c (Proc.devRef .tc main_arg4) = W3 m ρ c (Proc.devRef .tc main_arg4) :=
  (step17_main_arg4 m ρ c).trans (at16_main_arg4 m ρ c)

end Cert.KernelIdeal.Carried

end
-- ==== Proof.EntryValues.lean ====
/-
  What the kernel program's buffers hold when its first kernel starts.

  Before its first kernel the program runs three stretches of host operations: from the edge list it builds the source
  and target node lists with one self-loop appended per node, counts each node's incoming edges, takes the reciprocal
  square root of the counts (zero where a count is not positive), multiplies the two factors gathered along the edges,
  and cuts the first weight matrix out of the stack. The reference program performs the same operations in the same
  order, so each of these buffers holds the reference's stage of the same name evaluated at the launch contents of the
  arguments; the arguments themselves are written by no operation and still hold their launch contents.
-/
import proofs.«175188_j21217138442428_1_alg».proof.Proof.Gen.KernelIdeal.Frame
import proofs.«175188_j21217138442428_1_alg».proof.Proof.RefReadP
import Idealize.ShloMosaic.Lib.StableHlo.Run

noncomputable section

namespace Cert.KernelIdeal.Entry

open Cert.KernelIdeal Cert.KernelIdeal.Gen
open Idealize.ShloMosaic Idealize.ShloMosaic.TcCoe Idealize.SL.Sem Idealize.ShloMosaic.StableHlo
open Cert.ReferenceIdeal.ReadP (val_main_v5 val_main_v6 val_main_v12 val_main_v13 val_main_cst_2 val_main_call0_v0 val_main_call0_v1 val_main_v14
  val_main_v29 val_main_v31)

variable (m : (ℓ : Loc nD τ sig) → Buf (Elt Ideal) ℓ) (ρ : Dev nD → PrngReg) (c : Dev nD)

/-! ## The arguments -/

/-- Argument 0 is written by no host operation: it still holds its launch contents. -/
theorem at3_arg0 : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results

/-- Argument 1 is written by no host operation: it still holds its launch contents. -/
theorem at3_arg1 : W3 m ρ c (Proc.devRef .tc main_arg1) = m ((c.tc : Thread nD τ).loc main_arg1) := by
  show StableHlo.after hostOps0_2 (StableHlo.after hostOps0_1 (StableHlo.after hostOps0 (W0 m ρ c))) (Proc.devRef .tc main_arg1) = _
  after_results

/-- Argument 2 is written by no host operation: it still holds its launch contents. -/
theorem at3_arg2 : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  after_results

/-- Argument 3 is written by no host operation: it still holds its launch contents. -/
theorem at3_arg3 : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  after_results

/-- Argument 4 is written by no host operation: it still holds its launch contents. -/
theorem at3_arg4 : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results

/-! ## After the first stretch -/

/-- After the first stretch: the source node list with one self-loop appended per node. -/
theorem at1_v5 : W1 m ρ c (Proc.devRef .tc main_v5) = val_main_v5 (F := Ideal) (m ((c.tc : Thread nD τ).loc main_arg5)) := by
  show StableHlo.after hostOps0 (W0 m ρ c) (Proc.devRef .tc main_v5) = _
  after_results
  rfl

/-- After the first stretch: the target node list with one self-loop appended per node. -/
theorem at1_v6 : W1 m ρ c (Proc.devRef .tc main_v6) = val_main_v6 (F := Ideal) (m ((c.tc : Thread nD τ).loc main_arg5)) := by
  show StableHlo.after hostOps0 (W0 m ρ c) (Proc.devRef .tc main_v6) = _
  after_results
  rfl

/-- After the first stretch: which nodes have a positive incoming-edge count. -/
theorem at1_v12 : W1 m ρ c (Proc.devRef .tc main_v12) = val_main_v12 (F := Ideal) (m ((c.tc : Thread nD τ).loc main_arg5)) := by
  show StableHlo.after hostOps0 (W0 m ρ c) (Proc.devRef .tc main_v12) = _
  after_results
  rfl

/-- After the first stretch: the reciprocal square root of each node's incoming-edge count. -/
theorem at1_v13 : W1 m ρ c (Proc.devRef .tc main_v13) = val_main_v13 (F := Ideal) (m ((c.tc : Thread nD τ).loc main_arg5)) := by
  show StableHlo.after hostOps0 (W0 m ρ c) (Proc.devRef .tc main_v13) = _
  after_results
  rfl

/-- After the first stretch: the zero the selection falls back to. -/
theorem at1_cst_2 : W1 m ρ c (Proc.devRef .tc main_cst_2) = val_main_cst_2 (F := Ideal) := by
  show StableHlo.after hostOps0 (W0 m ρ c) (Proc.devRef .tc main_cst_2) = _
  after_results
  rfl

/-! ## After the second stretch -/

/-- The selection with its operands moved to their buffers' types and back: the moves are along equations that hold by
    computation, so they change nothing. -/
theorem select_moved (A : (⟨Cert.ReferenceIdeal.S100000, .i1⟩ : BufTy).Contents (Elt Ideal)) (B : (⟨Cert.ReferenceIdeal.S100000, .f32⟩ : BufTy).Contents (Elt Ideal)) (C : (⟨Cert.ReferenceIdeal.S_, .f32⟩ : BufTy).Contents (Elt Ideal)) :
    (StableHlo.TRef.of main_v14 : StableHlo.TRef sig ⟨S100000, .f32⟩).toBuf (select ((StableHlo.TRef.of main_v12 : StableHlo.TRef sig ⟨S100000, .i1⟩).ofBuf A) ((StableHlo.TRef.of main_v13 : StableHlo.TRef sig ⟨S100000, .f32⟩).ofBuf B)
      ((StableHlo.TRef.of main_call0_v1 : StableHlo.TRef sig ⟨S100000, .f32⟩).ofBuf ((StableHlo.TRef.of main_call0_v1 : StableHlo.TRef sig ⟨S100000, .f32⟩).toBuf (broadcastInDim S100000 ![] bcast_S_S100000
        ((StableHlo.TRef.of main_call0_v0 : StableHlo.TRef sig ⟨S_, .f32⟩).ofBuf ((StableHlo.TRef.of main_call0_v0 : StableHlo.TRef sig ⟨S_, .f32⟩).toBuf (id ((StableHlo.TRef.of main_cst_2 : StableHlo.TRef sig ⟨S_, .f32⟩).ofBuf C))))))))
      = select A B (broadcastInDim Cert.ReferenceIdeal.S100000 ![] Cert.ReferenceIdeal.Gen.bcast_S_S100000 (id C)) := rfl

/-- After the second stretch: the reciprocal square roots, zero where the count is not positive. -/
theorem at2_v14 : W2 m ρ c (Proc.devRef .tc main_v14) = val_main_v14 (F := Ideal) (m ((c.tc : Thread nD τ).loc main_arg5)) := by
  have h12 := at1_v12 m ρ c
  have h13 := at1_v13 m ρ c
  have hc := at1_cst_2 m ρ c
  show StableHlo.after hostOps0_1 (W1 m ρ c) (Proc.devRef .tc main_v14) = _
  generalize W1 m ρ c = V at h12 h13 hc ⊢
  after_results
  rw [h12, h13, hc]
  unfold val_main_v14 val_main_call0_v1 val_main_call0_v0
  exact select_moved _ _ _

/-- The second stretch leaves the source node list as it was. -/
theorem at2_v5 : W2 m ρ c (Proc.devRef .tc main_v5) = val_main_v5 (F := Ideal) (m ((c.tc : Thread nD τ).loc main_arg5)) := by
  have h5 := at1_v5 m ρ c
  show StableHlo.after hostOps0_1 (W1 m ρ c) (Proc.devRef .tc main_v5) = _
  generalize W1 m ρ c = V at h5 ⊢
  after_results
  exact h5

/-- The second stretch leaves the target node list as it was. -/
theorem at2_v6 : W2 m ρ c (Proc.devRef .tc main_v6) = val_main_v6 (F := Ideal) (m ((c.tc : Thread nD τ).loc main_arg5)) := by
  have h6 := at1_v6 m ρ c
  show StableHlo.after hostOps0_1 (W1 m ρ c) (Proc.devRef .tc main_v6) = _
  generalize W1 m ρ c = V at h6 ⊢
  after_results
  exact h6

/-! ## At the first kernel's entry -/

/-- The source node list with one self-loop appended per node. -/
theorem at3_v5 : W3 m ρ c (Proc.devRef .tc main_v5) = val_main_v5 (F := Ideal) (m ((c.tc : Thread nD τ).loc main_arg5)) := by
  show StableHlo.after hostOps0_2 (StableHlo.after hostOps0_1 (StableHlo.after hostOps0 (W0 m ρ c))) (Proc.devRef .tc main_v5) = _
  after_results
  rfl

/-- The target node list with one self-loop appended per node. -/
theorem at3_v6 : W3 m ρ c (Proc.devRef .tc main_v6) = val_main_v6 (F := Ideal) (m ((c.tc : Thread nD τ).loc main_arg5)) := by
  show StableHlo.after hostOps0_2 (StableHlo.after hostOps0_1 (StableHlo.after hostOps0 (W0 m ρ c))) (Proc.devRef .tc main_v6) = _
  after_results
  rfl

/-- The edge weights: the product of the two endpoints' reciprocal square roots of the incoming-edge counts. The third
    stretch reads the node lists and the reciprocal square roots as the second stretch left them. -/
theorem at3_v29 : W3 m ρ c (Proc.devRef .tc main_v29) = val_main_v29 (F := Ideal) (m ((c.tc : Thread nD τ).loc main_arg5)) := by
  have k5 := at2_v5 m ρ c
  have k6 := at2_v6 m ρ c
  have k14 := at2_v14 m ρ c
  show StableHlo.after hostOps0_2 (W2 m ρ c) (Proc.devRef .tc main_v29) = _
  generalize W2 m ρ c = V at k5 k6 k14 ⊢
  after_results_simp
  rw [k5, k6, k14]
  rfl

/-- The first layer's weight matrix, cut out of the stack. -/
theorem at3_v31 : W3 m ρ c (Proc.devRef .tc main_v31) = val_main_v31 (F := Ideal) (m ((c.tc : Thread nD τ).loc main_arg1)) := by
  show StableHlo.after hostOps0_2 (StableHlo.after hostOps0_1 (StableHlo.after hostOps0 (W0 m ρ c))) (Proc.devRef .tc main_v31) = _
  after_results
  rfl

end Cert.KernelIdeal.Entry

end
-- ==== Proof.LayerSpec.lean ====
/-
  One layer of the graph encoder, entry by entry, on the extended reals.

  A node's aggregated feature row `a` (128 entries) gets the layer's bias row added and is rectified:
  `v k = max (a k + b k) 0`.  The row is then normalized: with `μ = (Σ v k) / 128` and
  `σ² = (Σ (v k - μ)²) / 128`, entry `q` of the result is `((v q - μ) · (σ² + ε)^(-1/2)) · g q + β q`.
  The width `128`, the floor `ε` and the rectifier's `0` are kept as the float words both programs print;
  they are never evaluated.  Before that, a layer multiplies the node features by a square weight matrix:
  entry `(p, q)` of the product is `Σ k, h (p, k) · w (k, q)`.
-/
import Idealize.ShloMosaic.PureOps.Ideal
import Idealize.ShloMosaic.Lib.ValueIdx

noncomputable section

open scoped BigOperators

namespace Cert.Gcn

open Idealize.ShloMosaic Idealize.ShloMosaic.ValueIdx

/-- The row width as the float both programs divide by (the word of 128.0). -/
def width : EReal := Ideal.ofBits .f32 0x43000000#32

/-- The floor both programs add to the variance before the reciprocal square root. -/
def varFloor : EReal := Ideal.ofBits .f32 0x3727C5AC#32

/-- A feature row after the bias and the rectifier: entry `k` is `max (a k + b k) 0`. -/
def rectified (a b : Fin 128 → EReal) (k : Fin 128) : EReal :=
  max (a k + b k) (Ideal.ofBits .f32 0x00000000#32)

/-- The mean of a row: the sum of its entries over the width. -/
def rowMean (v : Fin 128 → EReal) : EReal := Ideal.div (∑ k : Fin 128, v k) width

/-- The mean squared deviation of a row from its mean. -/
def rowVar (v : Fin 128 → EReal) : EReal :=
  Ideal.div (∑ k : Fin 128, (v k - rowMean v) * (v k - rowMean v)) width

/-- Entry `q` of the normalized row, scaled by `g` and shifted by `β`. -/
def normalized (v g β : Fin 128 → EReal) (q : Fin 128) : EReal :=
  (v q - rowMean v) * Ideal.rsqrt (rowVar v + varFloor) * g q + β q

/-- Entry `(p, q)` of a layer's output, from the aggregated features and the layer's three parameter rows. -/
def layerEntry {n : Nat} (agg : (⟨2, ![n, 128]⟩ : Shape).Idx → EReal) (b g β : Fin 128 → EReal)
    (p : Fin n) (q : Fin 128) : EReal :=
  normalized (rectified (fun k => agg (ix2 p k)) b) g β q

/-- Entry `(p, q)` of the product of a feature matrix with a square weight matrix. -/
def productEntry {n : Nat} (h : (⟨2, ![n, 128]⟩ : Shape).Idx → EReal) (w : (⟨2, ![128, 128]⟩ : Shape).Idx → EReal)
    (p : Fin n) (q : Fin 128) : EReal :=
  ∑ k : Fin 128, h (ix2 p k) * w (ix2 k q)

end Cert.Gcn

end
-- ==== Proof.LibMosaicRows.lean ====
/-
  Four readings of a kernel's row-wise vector operations at one entry, at the ideal instance, for any sizes.

  * col_repeated: a one-column matrix [a, 1] broadcast to [a, b] reads, at (p, c), the column's entry p — a row's
    maximum or sum, or a per-row scale, spread over the row.
  * rowSum_at: the sum reduction of a matrix [a, b] over its columns, from the zero word, reads at row p the sum over
    the b columns of the row's entries.
  * rowMax_at: the maximum reduction over the columns, from the word of -∞, reads at row p the fold of max from that
    word's value over the row's entries.
  * exp_at: the exponential of a vector reads, at an index, the exponential of the entry.
-/
import Idealize.ShloMosaic.PureOps.Ideal.Laws
import Idealize.ShloMosaic.Lib.ValueIdx
import Idealize.ShloMosaic.Lib.Pipeline.Value

noncomputable section

namespace Cert.Lib.MosaicRows

open Idealize.ShloMosaic Idealize.ShloMosaic.ValueIdx

/-- A one-column matrix broadcast across b columns reads, at (p, c), the column's entry p. -/
theorem col_repeated {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of row p with column k put back is (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  match c with
  | ⟨0, _⟩ => rfl
  | ⟨1, _⟩ => rfl

/-- The sum over the columns, from the zero word, at row p: the sum of the row's entries. -/
theorem rowSum_at {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

/-- The maximum over the columns, from the word of -∞, at row p: the fold of max from -∞ over the row's entries. -/
theorem rowMax_at {a b : ℕ} (src : FVec Ideal ⟨2, ![a, b]⟩ .f32)
    (h : (⟨2, ![a, b]⟩ : Shape).Reduces [1] (⟨1, ![a]⟩ : Shape)) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  have hf : (src ∘ h.lift (ix1 p)) = fun k : Fin b => src (ix2 p k) := funext fun k => congrArg src (lift_row h p k)
  exact congrArg (fun f => Finset.fold max (Ideal.ofBits .f32 0xFF800000#32) f (Finset.univ : Finset (Fin b))) hf

/-- The exponential of a vector at an index is the exponential of the entry. -/
theorem exp_at {s : Shape} (v : FVec Ideal s .f32) (i : s.Idx) : exp v i = Ideal.exp (v i) := rfl

end Cert.Lib.MosaicRows

end
-- ==== Proof.LibColumns.lean ====
/-
  Two layout readings used by every stage: a vector recast as a one-column matrix read at `(p, 0)`, and a scalar
  broadcast to any shape read at any index.
-/
import Idealize.ShloMosaic.Lib.ValueIdx
import Idealize.ShloMosaic.Lib.Pipeline.Value

noncomputable section

namespace Cert.Sage.Layout

open Idealize.ShloMosaic Idealize.ShloMosaic.ValueIdx

/-- An `[n]` array cast to `[n, 1]` reads, at `(p, 0)`, the operand at `p`. -/
theorem shapeCast_n_n1_apply {α : Type} {n : ℕ} (x : (⟨1, ![n]⟩ : Shape).Idx → α) (h : (⟨1, ![n]⟩ : Shape).ShapeCasts ⟨2, ![n, 1]⟩)
    (p : Fin n) : shapeCast ⟨2, ![n, 1]⟩ x h (ix2 p (0 : Fin 1)) = x (ix1 p) :=
  shapeCast_apply x h _ _ (by
    rw [Shape.rowMajor_val_one, Shape.rowMajor_val_two]
    show p.val = p.val * 1 + 0
    omega)

/-- A scalar broadcast to a shape reads, at every index, the scalar. -/
theorem broadcastInDim_scalar_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

end Cert.Sage.Layout

end
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.PayloadAt.lean ====
/-
  The two kinds of kernel body, read at one entry of their result, on the extended reals.

  A normalization body adds the bias row to the aggregated features, rectifies, and normalizes each row of 128
  entries: with the row's mean `μ` and mean squared deviation `σ²` it returns `((v q - μ) · (σ² + ε)^(-1/2)) · g q + β q`.
  Read at entry `(p, q)` this is the layer's entry of the specification.  The steps: the rectified matrix at an
  entry; a row's sum over the width, kept as a one-column matrix, at a row; the centred matrix at an entry; the
  reciprocal deviation at a row; the whole body.  Each layout operation (identity cast, row broadcast, column
  broadcast, vector to one-column matrix) is read at `(p, q)` by one lemma.

  A product body multiplies the feature matrix by a square weight matrix into a zero accumulator; the narrowing of
  the operands is the identity on the extended reals, so entry `(p, q)` is `Σ k, h (p, k) · w (k, q)`.
-/
import proofs.«175188_j21217138442428_1_alg».proof.Proof.Gen.KernelIdeal.Skeleton
import proofs.«175188_j21217138442428_1_alg».proof.Proof.LayerSpec
import proofs.«175188_j21217138442428_1_alg».proof.Proof.LibMosaicRows
import proofs.«175188_j21217138442428_1_alg».proof.Proof.LibColumns
import proofs.«175188_j21217138442428_1_alg».proof.Proof.LibSplitContraction
import Idealize.ShloMosaic.Lib.ValueLayout

noncomputable section

open scoped BigOperators

namespace Cert.KernelIdeal.PayloadAt

open Idealize.ShloMosaic Idealize.ShloMosaic.ValueIdx Cert.KernelIdeal Cert.KernelIdeal.Gen Cert.Gcn

/-! ## The normalization body -/

/-- The aggregated features with the bias row added, rectified. -/
def rect (x : FVec Ideal S5000x128 .f32) (b : FVec Ideal S1x128 .f32) : FVec Ideal S5000x128 .f32 :=
  maximumf (addf (shapeCast S5000x128 x shapeCasts_S5000x128_S5000x128)
      (broadcastTo S5000x128 (shapeCast S1x128 b shapeCasts_S1x128_S1x128) broadcasts_S1x128_S5000x128))
    (broadcast S5000x128 (Scalar.ofBits .f32 0x00000000#32))

/-- Each row's sum over the width, divided by the width, as a one-column matrix. -/
def colMean (v : FVec Ideal S5000x128 .f32) : FVec Ideal S5000x1 .f32 :=
  divf (shapeCast S5000x1 (multiReduction (F := Ideal) .add [1] S5000 v 0x00000000#32 reduces_S5000x128_S5000 (.inl rfl) rfl)
      shapeCasts_S5000_S5000x1)
    (broadcast S5000x1 (Scalar.ofBits .f32 0x43000000#32))

/-- Each entry minus its row's mean. -/
def centered (v : FVec Ideal S5000x128 .f32) : FVec Ideal S5000x128 .f32 :=
  subf v (broadcastTo S5000x128 (colMean v) broadcasts_S5000x1_S5000x128)

/-- Each row's reciprocal square root of its mean squared deviation plus the floor, as a one-column matrix. -/
def invDev (v : FVec Ideal S5000x128 .f32) : FVec Ideal S5000x1 .f32 :=
  rsqrt (addf (colMean (mulf (centered v) (centered v))) (broadcast S5000x1 (Scalar.ofBits .f32 0x3727C5AC#32)))

/-- The rows normalized, scaled by the row `g` and shifted by the row `β`. -/
def normRows (v : FVec Ideal S5000x128 .f32) (g β : FVec Ideal S1x128 .f32) : FVec Ideal S5000x128 .f32 :=
  addf (mulf (mulf (centered v) (broadcastTo S5000x128 (invDev v) broadcasts_S5000x1_S5000x128))
      (broadcastTo S5000x128 (shapeCast S1x128 g shapeCasts_S1x128_S1x128) broadcasts_S1x128_S5000x128))
    (broadcastTo S5000x128 (shapeCast S1x128 β shapeCasts_S1x128_S1x128) broadcasts_S1x128_S5000x128)

/-- The rectified matrix at `(p, k)`: the specification's rectified row of node `p` at `k`. -/
theorem rect_at (x : FVec Ideal S5000x128 .f32) (b : FVec Ideal S1x128 .f32) (p : Fin 5000) (k : Fin 128) :
    rect x b (ix2 p k) = rectified (fun k => x (ix2 p k)) (fun k => b (ix2 (0 : Fin 1) k)) k := by
  unfold rect
  rw [shapeCast_self, shapeCast_self]
  show max (x (ix2 p k) + broadcastTo S5000x128 b broadcasts_S1x128_S5000x128 (ix2 p k)) _ = _
  rw [broadcastTo_1b_ab_apply b broadcasts_S1x128_S5000x128 p k]
  rfl

/-- The column of row means at row `p`: the row's sum over the width. -/
theorem colMean_at (v : FVec Ideal S5000x128 .f32) (p : Fin 5000) :
    colMean v (ix2 p (0 : Fin 1)) = Ideal.div (∑ k : Fin 128, v (ix2 p k)) width := by
  unfold colMean
  show Ideal.div (shapeCast S5000x1 _ shapeCasts_S5000_S5000x1 (ix2 p (0 : Fin 1))) _ = _
  rw [Cert.Sage.Layout.shapeCast_n_n1_apply, Cert.Lib.MosaicRows.rowSum_at]
  rfl

/-- The centred matrix at `(p, k)`: the entry minus the row's mean. -/
theorem centered_at (v : FVec Ideal S5000x128 .f32) (p : Fin 5000) (k : Fin 128) :
    centered v (ix2 p k) = v (ix2 p k) - rowMean (fun k => v (ix2 p k)) := by
  show v (ix2 p k) - broadcastTo S5000x128 (colMean v) broadcasts_S5000x1_S5000x128 (ix2 p k) = _
  rw [Cert.Lib.MosaicRows.col_repeated (colMean v) broadcasts_S5000x1_S5000x128 p k, colMean_at]
  rfl

/-- The column of reciprocal deviations at row `p`. -/
theorem invDev_at (v : FVec Ideal S5000x128 .f32) (p : Fin 5000) :
    invDev v (ix2 p (0 : Fin 1)) = Ideal.rsqrt (rowVar (fun k => v (ix2 p k)) + varFloor) := by
  show Ideal.rsqrt (colMean (mulf (centered v) (centered v)) (ix2 p (0 : Fin 1)) + _) = _
  rw [colMean_at]
  refine congrArg (fun s => Ideal.rsqrt (Ideal.div s width + varFloor)) (Finset.sum_congr rfl fun k _ => ?_)
  show centered v (ix2 p k) * centered v (ix2 p k) = _
  rw [centered_at]

/-- The normalized rows at `(p, q)`: the specification's normalized row of node `p` at `q`. -/
theorem normRows_at (v : FVec Ideal S5000x128 .f32) (g β : FVec Ideal S1x128 .f32) (p : Fin 5000) (q : Fin 128) :
    normRows v g β (ix2 p q)
      = normalized (fun k => v (ix2 p k)) (fun k => g (ix2 (0 : Fin 1) k)) (fun k => β (ix2 (0 : Fin 1) k)) q := by
  unfold normRows
  rw [shapeCast_self, shapeCast_self]
  show centered v (ix2 p q) * broadcastTo S5000x128 (invDev v) broadcasts_S5000x1_S5000x128 (ix2 p q)
        * broadcastTo S5000x128 g broadcasts_S1x128_S5000x128 (ix2 p q)
      + broadcastTo S5000x128 β broadcasts_S1x128_S5000x128 (ix2 p q) = _
  rw [centered_at, Cert.Lib.MosaicRows.col_repeated (invDev v) broadcasts_S5000x1_S5000x128 p q, invDev_at,
    broadcastTo_1b_ab_apply g broadcasts_S1x128_S5000x128 p q, broadcastTo_1b_ab_apply β broadcasts_S1x128_S5000x128 p q]
  rfl

/-- The normalization body at `(p, q)`: the layer's entry. -/
theorem ln_at (x0 : FVec Ideal S5000x128 .f32) (x1 x2 x3 : FVec Ideal S1x128 .f32) (p : Fin 5000) (q : Fin 128) :
    normRows (rect x0 x1) x2 x3 (ix2 p q)
      = layerEntry x0 (fun k => x1 (ix2 (0 : Fin 1) k)) (fun k => x2 (ix2 (0 : Fin 1) k)) (fun k => x3 (ix2 (0 : Fin 1) k)) p q := by
  rw [normRows_at]
  unfold layerEntry
  exact congrArg (fun v => normalized v _ _ q) (funext fun k => rect_at x0 x1 p k)

theorem ln_at_1 (x0 : Vec Ideal S5000x128 .f32) (x1 x2 x3 : Vec Ideal S1x128 .f32) (p : Fin 5000) (q : Fin 128) :
    Gen.k1_pay1 (F := Ideal) x0 x1 x2 x3 (ix2 p q)
      = Cert.Gcn.layerEntry x0 (fun k => x1 (ix2 (0 : Fin 1) k)) (fun k => x2 (ix2 (0 : Fin 1) k)) (fun k => x3 (ix2 (0 : Fin 1) k)) p q :=
  ln_at x0 x1 x2 x3 p q

theorem ln_at_3 (x0 : Vec Ideal S5000x128 .f32) (x1 x2 x3 : Vec Ideal S1x128 .f32) (p : Fin 5000) (q : Fin 128) :
    Gen.k3_pay1 (F := Ideal) x0 x1 x2 x3 (ix2 p q)
      = Cert.Gcn.layerEntry x0 (fun k => x1 (ix2 (0 : Fin 1) k)) (fun k => x2 (ix2 (0 : Fin 1) k)) (fun k => x3 (ix2 (0 : Fin 1) k)) p q :=
  ln_at x0 x1 x2 x3 p q

theorem ln_at_5 (x0 : Vec Ideal S5000x128 .f32) (x1 x2 x3 : Vec Ideal S1x128 .f32) (p : Fin 5000) (q : Fin 128) :
    Gen.k5_pay1 (F := Ideal) x0 x1 x2 x3 (ix2 p q)
      = Cert.Gcn.layerEntry x0 (fun k => x1 (ix2 (0 : Fin 1) k)) (fun k => x2 (ix2 (0 : Fin 1) k)) (fun k => x3 (ix2 (0 : Fin 1) k)) p q :=
  ln_at x0 x1 x2 x3 p q

theorem ln_at_7 (x0 : Vec Ideal S5000x128 .f32) (x1 x2 x3 : Vec Ideal S1x128 .f32) (p : Fin 5000) (q : Fin 128) :
    Gen.k7_pay1 (F := Ideal) x0 x1 x2 x3 (ix2 p q)
      = Cert.Gcn.layerEntry x0 (fun k => x1 (ix2 (0 : Fin 1) k)) (fun k => x2 (ix2 (0 : Fin 1) k)) (fun k => x3 (ix2 (0 : Fin 1) k)) p q :=
  ln_at x0 x1 x2 x3 p q

/-! ## The product body -/

/-- The feature matrix times the weight matrix, both narrowed, into the zero accumulator. -/
def product (h : FVec Ideal S5000x128 .f32) (w : FVec Ideal S128x128 .f32) : FVec Ideal S5000x128 .f32 :=
  matmul dot_S5000x128_S128x128_S5000x128_1_0_0_1_n_n none (truncf .bf16 h bitsLt_bf16_f32)
    (truncf .bf16 (shapeCast S128x128 w shapeCasts_S128x128_S128x128) bitsLt_bf16_f32)
    (constant (F := Ideal) S5000x128 .f32 0x00000000#32)

/-- The left operand's row coordinate is the output's row. -/
theorem lhs_row (j : S5000x128.Idx) (c : dot_S5000x128_S128x128_S5000x128_1_0_0_1_n_n.contr.Idx) :
    (dot_S5000x128_S128x128_S5000x128_1_0_0_1_n_n.lhsIdx j c 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The right operand's column coordinate is the output's column. -/
theorem rhs_col (j : S5000x128.Idx) (c : dot_S5000x128_S128x128_S5000x128_1_0_0_1_n_n.contr.Idx) :
    (dot_S5000x128_S128x128_S5000x128_1_0_0_1_n_n.rhsIdx j c 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The product at `(p, q)`: the sum over the contracted axis. -/
theorem product_at (h : FVec Ideal S5000x128 .f32) (w : FVec Ideal S128x128 .f32) (p : Fin 5000) (q : Fin 128) :
    product h w (ix2 p q) = productEntry h w p q := by
  unfold product
  rw [shapeCast_self]
  exact Cert.Lib.SplitContraction.matmul_zero_at dot_S5000x128_S128x128_S5000x128_1_0_0_1_n_n rfl rfl lhs_row
    (fun j c => dot_S5000x128_S128x128_S5000x128_1_0_0_1_n_n.lhsIdx_val_of_single rfl j c)
    (fun j c => dot_S5000x128_S128x128_S5000x128_1_0_0_1_n_n.rhsIdx_val_of_single rfl j c) rhs_col none
    (truncf .bf16 h bitsLt_bf16_f32) (truncf .bf16 w bitsLt_bf16_f32) p q

theorem mm_at_0 (x0 : Vec Ideal S5000x128 .f32) (x1 : Vec Ideal S128x128 .f32) (p : Fin 5000) (q : Fin 128) :
    Gen.k0_pay1 (F := Ideal) x0 x1 (ix2 p q) = Cert.Gcn.productEntry x0 x1 p q :=
  product_at x0 x1 p q

/-- The later product bodies pass the features through an identity cast first. -/
theorem product_cast_at (h : FVec Ideal S5000x128 .f32) (w : FVec Ideal S128x128 .f32) (p : Fin 5000) (q : Fin 128) :
    product (shapeCast S5000x128 h shapeCasts_S5000x128_S5000x128) w (ix2 p q) = productEntry h w p q := by
  rw [shapeCast_self]
  exact product_at h w p q

theorem mm_at_2 (x0 : Vec Ideal S5000x128 .f32) (x1 : Vec Ideal S128x128 .f32) (p : Fin 5000) (q : Fin 128) :
    Gen.k2_pay1 (F := Ideal) x0 x1 (ix2 p q) = Cert.Gcn.productEntry x0 x1 p q :=
  product_cast_at x0 x1 p q

theorem mm_at_4 (x0 : Vec Ideal S5000x128 .f32) (x1 : Vec Ideal S128x128 .f32) (p : Fin 5000) (q : Fin 128) :
    Gen.k4_pay1 (F := Ideal) x0 x1 (ix2 p q) = Cert.Gcn.productEntry x0 x1 p q :=
  product_cast_at x0 x1 p q

theorem mm_at_6 (x0 : Vec Ideal S5000x128 .f32) (x1 : Vec Ideal S128x128 .f32) (p : Fin 5000) (q : Fin 128) :
    Gen.k6_pay1 (F := Ideal) x0 x1 (ix2 p q) = Cert.Gcn.productEntry x0 x1 p q :=
  product_cast_at x0 x1 p q

end Cert.KernelIdeal.PayloadAt

end
-- ==== Proof.Blocks.lean ====
/-
  What each launch's output array holds after its twenty grid points, as one function of the contents the arrays
  have when the launch starts.

  A launch walks twenty points; point `t` reads rows `5000 t … 5000 t + 4999` of its first input (and the small
  parameter arrays whole), runs the body on that block, and writes the result back to the same rows of the output.
  So the output array ends holding, at row `r`, the body's row `r mod 5000` at point `r / 5000`; and the body at an
  entry only looks at that row of its block.  For a product launch the array is the product of the feature array with
  the weight array; for a normalization launch it is the layer's entry at every `(r, q)`.

  Per launch: the index maps of the windows, decided over the twenty points; the body at an entry of a block, given
  which rows of the arrays the blocks are; what point `t` writes back; which indices a block covers; the twenty
  blocks fill the array; the array at the end.
-/
import proofs.«175188_j21217138442428_1_alg».proof.Proof.Gen.KernelIdeal.Frame
import proofs.«175188_j21217138442428_1_alg».proof.Proof.LayerSpec
import proofs.«175188_j21217138442428_1_alg».proof.Proof.PayloadAt
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- A block's offsets inside its staging buffer are zero. -/
theorem hz : (![0, 0] : Fin 2 → Nat) = fun _ => 0 := funext fun a => by fin_cases a <;> rfl

/-! ## A product launch -/

/-- The product of a feature array with a weight array, entry by entry. -/
def productArray (h : S100000x128.Idx → EReal) (w : S128x128.Idx → EReal) : S100000x128.Idx → EReal :=
  fun i => Cert.Gcn.productEntry h w ⟨(i 0).val, idx2_lt0 i⟩ ⟨(i 1).val, idx2_lt1 i⟩

/-- The printed index maps, decided over the grid: the feature and output windows are at block row `t`, the weight
    window at its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body on block `T` of the features and the whole weights, at entry `j`: the product array at row
    `5000 T + j 0`, column `j 1`. -/
theorem point0 (x0 : Vec Ideal S5000x128 .f32) (x1 : Vec Ideal S128x128 .f32)
    (h : S100000x128.Idx → EReal) (w : S128x128.Idx → EReal) (T : Nat) (hT : T < 20)
    (hx0 : ∀ (p : Fin 5000) (k : Fin 128), x0 (ix2 p k) = h (ix2 (⟨T * 5000 + p.val, by have := p.isLt; omega⟩ : Fin 100000) k))
    (hx1 : ∀ (a b : Fin 128), x1 (ix2 a b) = w (ix2 a b))
    (j : S5000x128.Idx) (i : S100000x128.Idx) (hi0 : (i 0).val = T * 5000 + (j 0).val) (hi1 : (i 1).val = (j 1).val) :
    Gen.k0_pay1 (F := Ideal) x0 x1 j = productArray h w i := by
  obtain ⟨p, q, rfl⟩ : ∃ (p : Fin 5000) (q : Fin 128), j = ix2 p q := ⟨j 0, j 1, eq_ix2 j⟩
  rw [Cert.KernelIdeal.PayloadAt.mm_at_0]
  unfold productArray Cert.Gcn.productEntry
  refine Finset.sum_congr rfl fun k _ => ?_
  rw [hx0, hx1]
  have e0 : (⟨T * 5000 + p.val, by have := p.isLt; omega⟩ : Fin 100000) = ⟨(i 0).val, idx2_lt0 i⟩ := Fin.ext hi0.symm
  have e1 : q = (⟨(i 1).val, idx2_lt1 i⟩ : Fin 128) := Fin.ext hi1.symm
  rw [e0, ← e1]

/-- What point `t` writes back is block `t` of the product array of the entry contents. -/
theorem flushed0_eq (c : Dev nD) (t : Fin cfg0.N) :
    (dat0 V c).flushed 2 t = ((cfg0.win 2).blk t).view.read (Elt Ideal) (productArray (V c main_arg0) (V c main_v31)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts0 t
  funext j
  have ht : t.val < 20 := by have hN : cfg0.N = 20 := Gen.N_0; have := t.isLt; omega
  show k0_pay1 (F := Ideal) (iblk0 V c 0 t) (iblk0 V c 1 t) j
      = productArray (V c main_arg0) (V c main_v31) (((cfg0.win 2).blk t).view.emb j)
  refine point0 (iblk0 V c 0 t) (iblk0 V c 1 t) (V c main_arg0) (V c main_v31) t.val ht ?_ ?_ j _ ?_ ?_
  · intro p k
    unfold iblk0
    rw [View.read_apply]
    show V c main_arg0 _ = V c main_arg0 _
    refine congrArg (V c main_arg0) (funext fun a => Fin.ext ?_)
    match a with
    | ⟨0, _⟩ => show win0_0.index t (0 : Fin 2) * 5000 + 1 * p.val = t.val * 5000 + p.val; rw [e0]; omega
    | ⟨1, _⟩ => show win0_0.index t (1 : Fin 2) * 128 + 1 * k.val = k.val; rw [e1]; omega
  · intro a b
    unfold iblk0
    rw [View.read_apply]
    show V c main_v31 _ = V c main_v31 _
    refine congrArg (V c main_v31) (funext fun d => Fin.ext ?_)
    match d with
    | ⟨0, _⟩ => show win0_1.index t (0 : Fin 2) * 128 + 1 * a.val = a.val; rw [e2]; omega
    | ⟨1, _⟩ => show win0_1.index t (1 : Fin 2) * 128 + 1 * b.val = b.val; rw [e3]; omega
  · show win0_2.index t (0 : Fin 2) * 5000 + 1 * (j 0).val = t.val * 5000 + (j 0).val
    rw [e4]; omega
  · show win0_2.index t (1 : Fin 2) * 128 + 1 * (j 1).val = (j 1).val
    rw [e5]; omega

/-- An index of the array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Row `r` of the array lies in the block of point `r / 5000`: the twenty blocks of 5000 rows fill the array. -/
theorem cover0 (i : S100000x128.Idx) :
    ∃ t : Fin cfg0.N, (cfg0.win 2).flush t = true ∧ i ∈ ((cfg0.win 2).blk t).view.set := by
  have hN : cfg0.N = 20 := Gen.N_0
  have hi0 : (i 0).val < 100000 := idx2_lt0 i
  have hi1 : (i 1).val < 128 := idx2_lt1 i
  have hq : (i 0).val / 5000 < cfg0.N := by omega
  obtain ⟨e0, e1, e2, e3, e4, e5⟩ := idx_facts0 ⟨(i 0).val / 5000, hq⟩
  refine ⟨⟨(i 0).val / 5000, hq⟩, flush0_2 _, ?_⟩
  rw [mem_blk0]
  intro a
  match a with
  | ⟨0, _⟩ =>
    show win0_2.index ⟨(i 0).val / 5000, hq⟩ (0 : Fin 2) * 5000 ≤ (i 0).val
      ∧ (i 0).val < win0_2.index ⟨(i 0).val / 5000, hq⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hq⟩ (1 : Fin 2) * 128 ≤ (i 1).val
      ∧ (i 1).val < win0_2.index ⟨(i 0).val / 5000, hq⟩ (1 : Fin 2) * 128 + 128
    rw [e5]; omega

/-- The product launch's output array after all twenty points: the product of the entry contents of the feature
    array and the weight array, entry by entry. -/
theorem final0 (c : Dev nD) : (Gen.dat0 V c).arrAt 2 cfg0.N = productArray (V c main_arg0) (V c main_v31) :=
  (dat0 V c).arrAt_eq_of_cover 2 _ (fun t _ => flushed0_eq V c t) cover0

/-! ## A normalization launch -/

/-- The layer's entry at every index, from the aggregated features and the three parameter rows. -/
def layerArray (a : S100000x128.Idx → EReal) (b g β : S1x128.Idx → EReal) : S100000x128.Idx → EReal :=
  fun i => Cert.Gcn.layerEntry a (fun k => b (ix2 (0 : Fin 1) k)) (fun k => g (ix2 (0 : Fin 1) k)) (fun k => β (ix2 (0 : Fin 1) k))
    ⟨(i 0).val, idx2_lt0 i⟩ ⟨(i 1).val, idx2_lt1 i⟩

/-- The printed index maps, decided over the grid: the feature and output windows are at block row `t`, each
    parameter window at its one block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The body on block `T` of the features and the three whole parameter rows, at entry `j`: the layer array at row
    `5000 T + j 0`, column `j 1`. -/
theorem point1 (x0 : Vec Ideal S5000x128 .f32) (x1 x2 x3 : Vec Ideal S1x128 .f32)
    (a : S100000x128.Idx → EReal) (b g β : S1x128.Idx → EReal) (T : Nat) (hT : T < 20)
    (hx0 : ∀ (p : Fin 5000) (k : Fin 128), x0 (ix2 p k) = a (ix2 (⟨T * 5000 + p.val, by have := p.isLt; omega⟩ : Fin 100000) k))
    (hx1 : ∀ k : Fin 128, x1 (ix2 (0 : Fin 1) k) = b (ix2 (0 : Fin 1) k))
    (hx2 : ∀ k : Fin 128, x2 (ix2 (0 : Fin 1) k) = g (ix2 (0 : Fin 1) k))
    (hx3 : ∀ k : Fin 128, x3 (ix2 (0 : Fin 1) k) = β (ix2 (0 : Fin 1) k))
    (j : S5000x128.Idx) (i : S100000x128.Idx) (hi0 : (i 0).val = T * 5000 + (j 0).val) (hi1 : (i 1).val = (j 1).val) :
    Gen.k1_pay1 (F := Ideal) x0 x1 x2 x3 j = layerArray a b g β i := by
  obtain ⟨p, q, rfl⟩ : ∃ (p : Fin 5000) (q : Fin 128), j = ix2 p q := ⟨j 0, j 1, eq_ix2 j⟩
  rw [Cert.KernelIdeal.PayloadAt.ln_at_1]
  have e0 : (⟨T * 5000 + p.val, by have := p.isLt; omega⟩ : Fin 100000) = ⟨(i 0).val, idx2_lt0 i⟩ := Fin.ext hi0.symm
  have e1 : q = (⟨(i 1).val, idx2_lt1 i⟩ : Fin 128) := Fin.ext hi1.symm
  have h0 : (fun k => x0 (ix2 p k)) = fun k => a (ix2 (⟨(i 0).val, idx2_lt0 i⟩ : Fin 100000) k) :=
    funext fun k => by rw [hx0, e0]
  unfold layerArray Cert.Gcn.layerEntry
  rw [h0, funext hx1, funext hx2, funext hx3, ← e1]

/-- What point `t` writes back is block `t` of the layer array of the entry contents. -/
theorem flushed1_eq (c : Dev nD) (t : Fin cfg1.N) :
    (dat1 V c).flushed 4 t = ((cfg1.win 4).blk t).view.read (Elt Ideal)
      (layerArray (V c main_v45) (V c main_v52) (V c main_v53) (V c main_v54)) := by
  show (cfg1.win 4).cut (grid1.coords t) ((dat1 V c).after 4 t) = _
  rw [after1_4]
  unfold out1_4
  rw [View.canon_unit_zero hz]
  simp only [View.ld_unit_zero (S := S5000x128) hz, View.ld_unit_zero (S := S1x128) hz]
  obtain ⟨e0, e1, e2, e3, e4, e5, e6, e7, e8, e9⟩ := idx_facts1 t
  funext j
  have ht : t.val < 20 := by have hN : cfg1.N = 20 := Gen.N_1; have := t.isLt; omega
  show k1_pay1 (F := Ideal) (iblk1 V c 0 t) (iblk1 V c 1 t) (iblk1 V c 2 t) (iblk1 V c 3 t) j
      = layerArray (V c main_v45) (V c main_v52) (V c main_v53) (V c main_v54) (((cfg1.win 4).blk t).view.emb j)
  refine point1 (iblk1 V c 0 t) (iblk1 V c 1 t) (iblk1 V c 2 t) (iblk1 V c 3 t)
    (V c main_v45) (V c main_v52) (V c main_v53) (V c main_v54) t.val ht ?_ ?_ ?_ ?_ j _ ?_ ?_
  · intro p k
    unfold iblk1
    rw [View.read_apply]
    show V c main_v45 _ = V c main_v45 _
    refine congrArg (V c main_v45) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · intro k
    unfold iblk1
    rw [View.read_apply]
    show V c main_v52 _ = V c main_v52 _
    refine congrArg (V c main_v52) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  · intro k
    unfold iblk1
    rw [View.read_apply]
    show V c main_v53 _ = V c main_v53 _
    refine congrArg (V c main_v53) (funext fun a => Fin.ext ?_)
    match a with
    | ⟨0, _⟩ => show win1_2.index t (0 : Fin 2) * 1 + 1 * 0 = 0; omega
    | ⟨1, _⟩ => show win1_2.index t (1 : Fin 2) * 128 + 1 * k.val = k.val; omega
  · intro k
    unfold iblk1
    rw [View.read_apply]
    show V c main_v54 _ = V c main_v54 _
    refine congrArg (V c main_v54) (funext fun a => Fin.ext ?_)
    match a with
    | ⟨0, _⟩ => show win1_3.index t (0 : Fin 2) * 1 + 1 * 0 = 0; omega
    | ⟨1, _⟩ => show win1_3.index t (1 : Fin 2) * 128 + 1 * k.val = k.val; omega
  · show win1_4.index t (0 : Fin 2) * 5000 + 1 * (j 0).val = t.val * 5000 + (j 0).val
    omega
  · show win1_4.index t (1 : Fin 2) * 128 + 1 * (j 1).val = (j 1).val
    omega

/-- An index of the array is in point `t`'s block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v55).slice (win1_4.rect t)).set ↔ _
  rw [View.set_slice_whole, Rect.mem_set_unit]
  exact Iff.rfl

/-- Row `r` of the array lies in the block of point `r / 5000`: the twenty blocks of 5000 rows fill the array. -/
theorem cover1 (i : S100000x128.Idx) :
    ∃ t : Fin cfg1.N, (cfg1.win 4).flush t = true ∧ i ∈ ((cfg1.win 4).blk t).view.set := by
  have hN : cfg1.N = 20 := Gen.N_1
  have hi0 : (i 0).val < 100000 := idx2_lt0 i
  have hi1 : (i 1).val < 128 := idx2_lt1 i
  have hq : (i 0).val / 5000 < cfg1.N := by omega
  obtain ⟨e0, e1, e2, e3, e4, e5, e6, e7, e8, e9⟩ := idx_facts1 ⟨(i 0).val / 5000, hq⟩
  refine ⟨⟨(i 0).val / 5000, hq⟩, flush1_4 _, ?_⟩
  rw [mem_blk1]
  intro a
  match a with
  | ⟨0, _⟩ =>
    show win1_4.index ⟨(i 0).val / 5000, hq⟩ (0 : Fin 2) * 5000 ≤ (i 0).val
      ∧ (i 0).val < win1_4.index ⟨(i 0).val / 5000, hq⟩ (0 : Fin 2) * 5000 + 5000
    rw [e8]; show (i 0).val / 5000 * 5000 ≤ (i 0).val ∧ (i 0).val < (i 0).val / 5000 * 5000 + 5000; omega
  | ⟨1, _⟩ =>
    show win1_4.index ⟨(i 0).val / 5000, hq⟩ (1 : Fin 2) * 128 ≤ (i 1).val
      ∧ (i 1).val < win1_4.index ⟨(i 0).val / 5000, hq⟩ (1 : Fin 2) * 128 + 128
    rw [e9]; omega

/-- The normalization launch's output array after all twenty points: the layer's entry of the entry contents of the
    aggregated features and the three parameter rows, at every index. -/
theorem final1 (c : Dev nD) : (Gen.dat1 V c).arrAt 4 cfg1.N
    = layerArray (V c main_v45) (V c main_v52) (V c main_v53) (V c main_v54) :=
  (dat1 V c).arrAt_eq_of_cover 4 _ (fun t _ => flushed1_eq V c t) cover1

end Cert.KernelIdeal.Blocks

end
-- ==== Proof.BlocksProducts.lean ====
/-
  The later product launches' output arrays.

  The second, third and fourth product launches are the first one again on other buffers: the features are the
  previous layer's output array and the weights that layer's slice.  Each ends with the product of the entry
  contents of its feature array and its weight array, entry by entry.
-/
import proofs.«175188_j21217138442428_1_alg».proof.Proof.Blocks

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Product launch of layer 2 -/

/-- The printed index maps, decided over the grid: the feature and output windows are at block row `t`, the weight
    window at its one block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body on block `T` of the features and the whole weights, at entry `j`: the product array at row
    `5000 T + j 0`, column `j 1`. -/
theorem point2 (x0 : Vec Ideal S5000x128 .f32) (x1 : Vec Ideal S128x128 .f32)
    (h : S100000x128.Idx → EReal) (w : S128x128.Idx → EReal) (T : Nat) (hT : T < 20)
    (hx0 : ∀ (p : Fin 5000) (k : Fin 128), x0 (ix2 p k) = h (ix2 (⟨T * 5000 + p.val, by have := p.isLt; omega⟩ : Fin 100000) k))
    (hx1 : ∀ (a b : Fin 128), x1 (ix2 a b) = w (ix2 a b))
    (j : S5000x128.Idx) (i : S100000x128.Idx) (hi0 : (i 0).val = T * 5000 + (j 0).val) (hi1 : (i 1).val = (j 1).val) :
    Gen.k2_pay1 (F := Ideal) x0 x1 j = productArray h w i := by
  obtain ⟨p, q, rfl⟩ : ∃ (p : Fin 5000) (q : Fin 128), j = ix2 p q := ⟨j 0, j 1, eq_ix2 j⟩
  rw [Cert.KernelIdeal.PayloadAt.mm_at_2]
  unfold productArray Cert.Gcn.productEntry
  refine Finset.sum_congr rfl fun k _ => ?_
  rw [hx0, hx1]
  have e0 : (⟨T * 5000 + p.val, by have := p.isLt; omega⟩ : Fin 100000) = ⟨(i 0).val, idx2_lt0 i⟩ := Fin.ext hi0.symm
  have e1 : q = (⟨(i 1).val, idx2_lt1 i⟩ : Fin 128) := Fin.ext hi1.symm
  rw [e0, ← e1]

/-- What point `t` writes back is block `t` of the product array of the entry contents. -/
theorem flushed2_eq (c : Dev nD) (t : Fin cfg2.N) :
    (dat2 V c).flushed 2 t = ((cfg2.win 2).blk t).view.read (Elt Ideal) (productArray (V c main_v55) (V c main_v57)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts2 t
  funext j
  have ht : t.val < 20 := by have hN : cfg2.N = 20 := Gen.N_2; have := t.isLt; omega
  show k2_pay1 (F := Ideal) (iblk2 V c 0 t) (iblk2 V c 1 t) j
      = productArray (V c main_v55) (V c main_v57) (((cfg2.win 2).blk t).view.emb j)
  refine point2 (iblk2 V c 0 t) (iblk2 V c 1 t) (V c main_v55) (V c main_v57) t.val ht ?_ ?_ j _ ?_ ?_
  · intro p k
    unfold iblk2
    rw [View.read_apply]
    show V c main_v55 _ = V c main_v55 _
    refine congrArg (V c main_v55) (funext fun a => Fin.ext ?_)
    match a with
    | ⟨0, _⟩ => show win2_0.index t (0 : Fin 2) * 5000 + 1 * p.val = t.val * 5000 + p.val; rw [e0]; omega
    | ⟨1, _⟩ => show win2_0.index t (1 : Fin 2) * 128 + 1 * k.val = k.val; rw [e1]; omega
  · intro a b
    unfold iblk2
    rw [View.read_apply]
    show V c main_v57 _ = V c main_v57 _
    refine congrArg (V c main_v57) (funext fun d => Fin.ext ?_)
    match d with
    | ⟨0, _⟩ => show win2_1.index t (0 : Fin 2) * 128 + 1 * a.val = a.val; rw [e2]; omega
    | ⟨1, _⟩ => show win2_1.index t (1 : Fin 2) * 128 + 1 * b.val = b.val; rw [e3]; omega
  · show win2_2.index t (0 : Fin 2) * 5000 + 1 * (j 0).val = t.val * 5000 + (j 0).val
    rw [e4]; omega
  · show win2_2.index t (1 : Fin 2) * 128 + 1 * (j 1).val = (j 1).val
    rw [e5]; omega

/-- An index of the array is in point `t`'s block iff each coordinate is in the block's range on its axis. -/
theorem mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v58).slice (win2_2.rect t)).set ↔ _
  rw [View.set_slice_whole, Rect.mem_set_unit]
  exact Iff.rfl

/-- Row `r` of the array lies in the block of point `r / 5000`: the twenty blocks of 5000 rows fill the array. -/
theorem cover2 (i : S100000x128.Idx) :
    ∃ t : Fin cfg2.N, (cfg2.win 2).flush t = true ∧ i ∈ ((cfg2.win 2).blk t).view.set := by
  have hN : cfg2.N = 20 := Gen.N_2
  have hi0 : (i 0).val < 100000 := idx2_lt0 i
  have hi1 : (i 1).val < 128 := idx2_lt1 i
  have hq : (i 0).val / 5000 < cfg2.N := by omega
  obtain ⟨e0, e1, e2, e3, e4, e5⟩ := idx_facts2 ⟨(i 0).val / 5000, hq⟩
  refine ⟨⟨(i 0).val / 5000, hq⟩, flush2_2 _, ?_⟩
  rw [mem_blk2]
  intro a
  match a with
  | ⟨0, _⟩ =>
    show win2_2.index ⟨(i 0).val / 5000, hq⟩ (0 : Fin 2) * 5000 ≤ (i 0).val
      ∧ (i 0).val < win2_2.index ⟨(i 0).val / 5000, hq⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, hq⟩ (1 : Fin 2) * 128 ≤ (i 1).val
      ∧ (i 1).val < win2_2.index ⟨(i 0).val / 5000, hq⟩ (1 : Fin 2) * 128 + 128
    rw [e5]; omega

/-- The product launch's output array after all twenty points: the product of the entry contents of the feature
    array and the weight array, entry by entry. -/
theorem final2 (c : Dev nD) : (Gen.dat2 V c).arrAt 2 cfg2.N = productArray (V c main_v55) (V c main_v57) :=
  (dat2 V c).arrAt_eq_of_cover 2 _ (fun t _ => flushed2_eq V c t) cover2

/-! ## Product launch of layer 3 -/

/-- The printed index maps, decided over the grid: the feature and output windows are at block row `t`, the weight
    window at its one block. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The body on block `T` of the features and the whole weights, at entry `j`: the product array at row
    `5000 T + j 0`, column `j 1`. -/
theorem point4 (x0 : Vec Ideal S5000x128 .f32) (x1 : Vec Ideal S128x128 .f32)
    (h : S100000x128.Idx → EReal) (w : S128x128.Idx → EReal) (T : Nat) (hT : T < 20)
    (hx0 : ∀ (p : Fin 5000) (k : Fin 128), x0 (ix2 p k) = h (ix2 (⟨T * 5000 + p.val, by have := p.isLt; omega⟩ : Fin 100000) k))
    (hx1 : ∀ (a b : Fin 128), x1 (ix2 a b) = w (ix2 a b))
    (j : S5000x128.Idx) (i : S100000x128.Idx) (hi0 : (i 0).val = T * 5000 + (j 0).val) (hi1 : (i 1).val = (j 1).val) :
    Gen.k4_pay1 (F := Ideal) x0 x1 j = productArray h w i := by
  obtain ⟨p, q, rfl⟩ : ∃ (p : Fin 5000) (q : Fin 128), j = ix2 p q := ⟨j 0, j 1, eq_ix2 j⟩
  rw [Cert.KernelIdeal.PayloadAt.mm_at_4]
  unfold productArray Cert.Gcn.productEntry
  refine Finset.sum_congr rfl fun k _ => ?_
  rw [hx0, hx1]
  have e0 : (⟨T * 5000 + p.val, by have := p.isLt; omega⟩ : Fin 100000) = ⟨(i 0).val, idx2_lt0 i⟩ := Fin.ext hi0.symm
  have e1 : q = (⟨(i 1).val, idx2_lt1 i⟩ : Fin 128) := Fin.ext hi1.symm
  rw [e0, ← e1]

/-- What point `t` writes back is block `t` of the product array of the entry contents. -/
theorem flushed4_eq (c : Dev nD) (t : Fin cfg4.N) :
    (dat4 V c).flushed 2 t = ((cfg4.win 2).blk t).view.read (Elt Ideal) (productArray (V c main_v81) (V c main_v83)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x128) hz]
  obtain ⟨e0, e1, e2, e3, e4, e5⟩ := idx_facts4 t
  funext j
  have ht : t.val < 20 := by have hN : cfg4.N = 20 := Gen.N_4; have := t.isLt; omega
  show k4_pay1 (F := Ideal) (iblk4 V c 0 t) (iblk4 V c 1 t) j
      = productArray (V c main_v81) (V c main_v83) (((cfg4.win 2).blk t).view.emb j)
  refine point4 (iblk4 V c 0 t) (iblk4 V c 1 t) (V c main_v81) (V c main_v83) t.val ht ?_ ?_ j _ ?_ ?_
  · intro p k
    unfold iblk4
    rw [View.read_apply]
    show V c main_v81 _ = V c main_v81 _
    refine congrArg (V c main_v81) (funext fun a => Fin.ext ?_)
    match a with
    | ⟨0, _⟩ => show win4_0.index t (0 : Fin 2) * 5000 + 1 * p.val = t.val * 5000 + p.val; rw [e0]; omega
    | ⟨1, _⟩ => show win4_0.index t (1 : Fin 2) * 128 + 1 * k.val = k.val; rw [e1]; omega
  · intro a b
    unfold iblk4
    rw [View.read_apply]
    show V c main_v83 _ = V c main_v83 _
    refine congrArg (V c main_v83) (funext fun d => Fin.ext ?_)
    match d with
    | ⟨0, _⟩ => show win4_1.index t (0 : Fin 2) * 128 + 1 * a.val = a.val; rw [e2]; omega
    | ⟨1, _⟩ => show win4_1.index t (1 : Fin 2) * 128 + 1 * b.val = b.val; rw [e3]; omega
  · show win4_2.index t (0 : Fin 2) * 5000 + 1 * (j 0).val = t.val * 5000 + (j 0).val
    rw [e4]; omega
  · show win4_2.index t (1 : Fin 2) * 128 + 1 * (j 1).val = (j 1).val
    rw [e5]; omega

/-- An index of the array is in point `t`'s block iff each coordinate is in the block's range on its axis. -/
theorem mem_blk4 (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v84).slice (win4_2.rect t)).set ↔ _
  rw [View.set_slice_whole, Rect.mem_set_unit]
  exact Iff.rfl

/-- Row `r` of the array lies in the block of point `r / 5000`: the twenty blocks of 5000 rows fill the array. -/
theorem cover4 (i : S100000x128.Idx) :
    ∃ t : Fin cfg4.N, (cfg4.win 2).flush t = true ∧ i ∈ ((cfg4.win 2).blk t).view.set := by
  have hN : cfg4.N = 20 := Gen.N_4
  have hi0 : (i 0).val < 100000 := idx2_lt0 i
  have hi1 : (i 1).val < 128 := idx2_lt1 i
  have hq : (i 0).val / 5000 < cfg4.N := by omega
  obtain ⟨e0, e1, e2, e3, e4, e5⟩ := idx_facts4 ⟨(i 0).val / 5000, hq⟩
  refine ⟨⟨(i 0).val / 5000, hq⟩, flush4_2 _, ?_⟩
  rw [mem_blk4]
  intro a
  match a with
  | ⟨0, _⟩ =>
    show win4_2.index ⟨(i 0).val / 5000, hq⟩ (0 : Fin 2) * 5000 ≤ (i 0).val
      ∧ (i 0).val < win4_2.index ⟨(i 0).val / 5000, hq⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, hq⟩ (1 : Fin 2) * 128 ≤ (i 1).val
      ∧ (i 1).val < win4_2.index ⟨(i 0).val / 5000, hq⟩ (1 : Fin 2) * 128 + 128
    rw [e5]; omega

/-- The product launch's output array after all twenty points: the product of the entry contents of the feature
    array and the weight array, entry by entry. -/
theorem final4 (c : Dev nD) : (Gen.dat4 V c).arrAt 2 cfg4.N = productArray (V c main_v81) (V c main_v83) :=
  (dat4 V c).arrAt_eq_of_cover 2 _ (fun t _ => flushed4_eq V c t) cover4

/-! ## Product launch of layer 4 -/

/-- The printed index maps, decided over the grid: the feature and output windows are at block row `t`, the weight
    window at its one block. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The body on block `T` of the features and the whole weights, at entry `j`: the product array at row
    `5000 T + j 0`, column `j 1`. -/
theorem point6 (x0 : Vec Ideal S5000x128 .f32) (x1 : Vec Ideal S128x128 .f32)
    (h : S100000x128.Idx → EReal) (w : S128x128.Idx → EReal) (T : Nat) (hT : T < 20)
    (hx0 : ∀ (p : Fin 5000) (k : Fin 128), x0 (ix2 p k) = h (ix2 (⟨T * 5000 + p.val, by have := p.isLt; omega⟩ : Fin 100000) k))
    (hx1 : ∀ (a b : Fin 128), x1 (ix2 a b) = w (ix2 a b))
    (j : S5000x128.Idx) (i : S100000x128.Idx) (hi0 : (i 0).val = T * 5000 + (j 0).val) (hi1 : (i 1).val = (j 1).val) :
    Gen.k6_pay1 (F := Ideal) x0 x1 j = productArray h w i := by
  obtain ⟨p, q, rfl⟩ : ∃ (p : Fin 5000) (q : Fin 128), j = ix2 p q := ⟨j 0, j 1, eq_ix2 j⟩
  rw [Cert.KernelIdeal.PayloadAt.mm_at_6]
  unfold productArray Cert.Gcn.productEntry
  refine Finset.sum_congr rfl fun k _ => ?_
  rw [hx0, hx1]
  have e0 : (⟨T * 5000 + p.val, by have := p.isLt; omega⟩ : Fin 100000) = ⟨(i 0).val, idx2_lt0 i⟩ := Fin.ext hi0.symm
  have e1 : q = (⟨(i 1).val, idx2_lt1 i⟩ : Fin 128) := Fin.ext hi1.symm
  rw [e0, ← e1]

/-- What point `t` writes back is block `t` of the product array of the entry contents. -/
theorem flushed6_eq (c : Dev nD) (t : Fin cfg6.N) :
    (dat6 V c).flushed 2 t = ((cfg6.win 2).blk t).view.read (Elt Ideal) (productArray (V c main_v107) (V c main_v109)) := by
  show (cfg6.win 2).cut (grid6.coords t) ((dat6 V c).after 2 t) = _
  rw [after6_2]
  unfold out6_2
  rw [View.canon_unit_zero hz]
  simp only [View.ld_unit_zero (S := S5000x128) hz, View.ld_unit_zero (S := S128x128) hz]
  obtain ⟨e0, e1, e2, e3, e4, e5⟩ := idx_facts6 t
  funext j
  have ht : t.val < 20 := by have hN : cfg6.N = 20 := Gen.N_6; have := t.isLt; omega
  show k6_pay1 (F := Ideal) (iblk6 V c 0 t) (iblk6 V c 1 t) j
      = productArray (V c main_v107) (V c main_v109) (((cfg6.win 2).blk t).view.emb j)
  refine point6 (iblk6 V c 0 t) (iblk6 V c 1 t) (V c main_v107) (V c main_v109) t.val ht ?_ ?_ j _ ?_ ?_
  · intro p k
    unfold iblk6
    rw [View.read_apply]
    show V c main_v107 _ = V c main_v107 _
    refine congrArg (V c main_v107) (funext fun a => Fin.ext ?_)
    match a with
    | ⟨0, _⟩ => show win6_0.index t (0 : Fin 2) * 5000 + 1 * p.val = t.val * 5000 + p.val; rw [e0]; omega
    | ⟨1, _⟩ => show win6_0.index t (1 : Fin 2) * 128 + 1 * k.val = k.val; rw [e1]; omega
  · intro a b
    unfold iblk6
    rw [View.read_apply]
    show V c main_v109 _ = V c main_v109 _
    refine congrArg (V c main_v109) (funext fun d => Fin.ext ?_)
    match d with
    | ⟨0, _⟩ => show win6_1.index t (0 : Fin 2) * 128 + 1 * a.val = a.val; rw [e2]; omega
    | ⟨1, _⟩ => show win6_1.index t (1 : Fin 2) * 128 + 1 * b.val = b.val; rw [e3]; omega
  · show win6_2.index t (0 : Fin 2) * 5000 + 1 * (j 0).val = t.val * 5000 + (j 0).val
    rw [e4]; omega
  · show win6_2.index t (1 : Fin 2) * 128 + 1 * (j 1).val = (j 1).val
    rw [e5]; omega

/-- An index of the array is in point `t`'s block iff each coordinate is in the block's range on its axis. -/
theorem mem_blk6 (t : Fin cfg6.N) (i : S100000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v110).slice (win6_2.rect t)).set ↔ _
  rw [View.set_slice_whole, Rect.mem_set_unit]
  exact Iff.rfl

/-- Row `r` of the array lies in the block of point `r / 5000`: the twenty blocks of 5000 rows fill the array. -/
theorem cover6 (i : S100000x128.Idx) :
    ∃ t : Fin cfg6.N, (cfg6.win 2).flush t = true ∧ i ∈ ((cfg6.win 2).blk t).view.set := by
  have hN : cfg6.N = 20 := Gen.N_6
  have hi0 : (i 0).val < 100000 := idx2_lt0 i
  have hi1 : (i 1).val < 128 := idx2_lt1 i
  have hq : (i 0).val / 5000 < cfg6.N := by omega
  obtain ⟨e0, e1, e2, e3, e4, e5⟩ := idx_facts6 ⟨(i 0).val / 5000, hq⟩
  refine ⟨⟨(i 0).val / 5000, hq⟩, flush6_2 _, ?_⟩
  rw [mem_blk6]
  intro a
  match a with
  | ⟨0, _⟩ =>
    show win6_2.index ⟨(i 0).val / 5000, hq⟩ (0 : Fin 2) * 5000 ≤ (i 0).val
      ∧ (i 0).val < win6_2.index ⟨(i 0).val / 5000, hq⟩ (0 : Fin 2) * 5000 + 5000
    rw [e4]; show (i 0).val / 5000 * 5000 ≤ (i 0).val ∧ (i 0).val < (i 0).val / 5000 * 5000 + 5000; omega
  | ⟨1, _⟩ =>
    show win6_2.index ⟨(i 0).val / 5000, hq⟩ (1 : Fin 2) * 128 ≤ (i 1).val
      ∧ (i 1).val < win6_2.index ⟨(i 0).val / 5000, hq⟩ (1 : Fin 2) * 128 + 128
    rw [e5]; omega

/-- The product launch's output array after all twenty points: the product of the entry contents of the feature
    array and the weight array, entry by entry. -/
theorem final6 (c : Dev nD) : (Gen.dat6 V c).arrAt 2 cfg6.N = productArray (V c main_v107) (V c main_v109) :=
  (dat6 V c).arrAt_eq_of_cover 2 _ (fun t _ => flushed6_eq V c t) cover6

end Cert.KernelIdeal.Blocks

end
-- ==== Proof.BlocksLayers.lean ====
/-
  The later normalization launches' output arrays.

  The second, third and fourth normalization launches are the first one again on other buffers: the aggregated
  features of the layer and its three parameter rows.  Each ends with the layer's entry at every row and column.
-/
import proofs.«175188_j21217138442428_1_alg».proof.Proof.Blocks

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Normalization launch of layer 2 -/

/-- The printed index maps, decided over the grid: the feature and output windows are at block row `t`, each
    parameter window at its one block. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The body on block `T` of the features and the three whole parameter rows, at entry `j`: the layer array at row
    `5000 T + j 0`, column `j 1`. -/
theorem point3 (x0 : Vec Ideal S5000x128 .f32) (x1 x2 x3 : Vec Ideal S1x128 .f32)
    (a : S100000x128.Idx → EReal) (b g β : S1x128.Idx → EReal) (T : Nat) (hT : T < 20)
    (hx0 : ∀ (p : Fin 5000) (k : Fin 128), x0 (ix2 p k) = a (ix2 (⟨T * 5000 + p.val, by have := p.isLt; omega⟩ : Fin 100000) k))
    (hx1 : ∀ k : Fin 128, x1 (ix2 (0 : Fin 1) k) = b (ix2 (0 : Fin 1) k))
    (hx2 : ∀ k : Fin 128, x2 (ix2 (0 : Fin 1) k) = g (ix2 (0 : Fin 1) k))
    (hx3 : ∀ k : Fin 128, x3 (ix2 (0 : Fin 1) k) = β (ix2 (0 : Fin 1) k))
    (j : S5000x128.Idx) (i : S100000x128.Idx) (hi0 : (i 0).val = T * 5000 + (j 0).val) (hi1 : (i 1).val = (j 1).val) :
    Gen.k3_pay1 (F := Ideal) x0 x1 x2 x3 j = layerArray a b g β i := by
  obtain ⟨p, q, rfl⟩ : ∃ (p : Fin 5000) (q : Fin 128), j = ix2 p q := ⟨j 0, j 1, eq_ix2 j⟩
  rw [Cert.KernelIdeal.PayloadAt.ln_at_3]
  have e0 : (⟨T * 5000 + p.val, by have := p.isLt; omega⟩ : Fin 100000) = ⟨(i 0).val, idx2_lt0 i⟩ := Fin.ext hi0.symm
  have e1 : q = (⟨(i 1).val, idx2_lt1 i⟩ : Fin 128) := Fin.ext hi1.symm
  have h0 : (fun k => x0 (ix2 p k)) = fun k => a (ix2 (⟨(i 0).val, idx2_lt0 i⟩ : Fin 100000) k) :=
    funext fun k => by rw [hx0, e0]
  unfold layerArray Cert.Gcn.layerEntry
  rw [h0, funext hx1, funext hx2, funext hx3, ← e1]

/-- What point `t` writes back is block `t` of the layer array of the entry contents. -/
theorem flushed3_eq (c : Dev nD) (t : Fin cfg3.N) :
    (dat3 V c).flushed 4 t = ((cfg3.win 4).blk t).view.read (Elt Ideal)
      (layerArray (V c main_v71) (V c main_v78) (V c main_v79) (V c main_v80)) := by
  show (cfg3.win 4).cut (grid3.coords t) ((dat3 V c).after 4 t) = _
  rw [after3_4]
  unfold out3_4
  rw [View.canon_unit_zero hz]
  simp only [View.ld_unit_zero (S := S5000x128) hz, View.ld_unit_zero (S := S1x128) hz]
  obtain ⟨e0, e1, e2, e3, e4, e5, e6, e7, e8, e9⟩ := idx_facts3 t
  funext j
  have ht : t.val < 20 := by have hN : cfg3.N = 20 := Gen.N_3; have := t.isLt; omega
  show k3_pay1 (F := Ideal) (iblk3 V c 0 t) (iblk3 V c 1 t) (iblk3 V c 2 t) (iblk3 V c 3 t) j
      = layerArray (V c main_v71) (V c main_v78) (V c main_v79) (V c main_v80) (((cfg3.win 4).blk t).view.emb j)
  refine point3 (iblk3 V c 0 t) (iblk3 V c 1 t) (iblk3 V c 2 t) (iblk3 V c 3 t)
    (V c main_v71) (V c main_v78) (V c main_v79) (V c main_v80) t.val ht ?_ ?_ ?_ ?_ j _ ?_ ?_
  · intro p k
    unfold iblk3
    rw [View.read_apply]
    show V c main_v71 _ = V c main_v71 _
    refine congrArg (V c main_v71) (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * k.val = k.val; omega
  · intro k
    unfold iblk3
    rw [View.read_apply]
    show V c main_v78 _ = V c main_v78 _
    refine congrArg (V c main_v78) (funext fun a => Fin.ext ?_)
    match a with
    | ⟨0, _⟩ => show win3_1.index t (0 : Fin 2) * 1 + 1 * 0 = 0; omega
    | ⟨1, _⟩ => show win3_1.index t (1 : Fin 2) * 128 + 1 * k.val = k.val; omega
  · intro k
    unfold iblk3
    rw [View.read_apply]
    show V c main_v79 _ = V c main_v79 _
    refine congrArg (V c main_v79) (funext fun a => Fin.ext ?_)
    match a with
    | ⟨0, _⟩ => show win3_2.index t (0 : Fin 2) * 1 + 1 * 0 = 0; omega
    | ⟨1, _⟩ => show win3_2.index t (1 : Fin 2) * 128 + 1 * k.val = k.val; omega
  · intro k
    unfold iblk3
    rw [View.read_apply]
    show V c main_v80 _ = V c main_v80 _
    refine congrArg (V c main_v80) (funext fun a => Fin.ext ?_)
    match a with
    | ⟨0, _⟩ => show win3_3.index t (0 : Fin 2) * 1 + 1 * 0 = 0; omega
    | ⟨1, _⟩ => show win3_3.index t (1 : Fin 2) * 128 + 1 * k.val = k.val; omega
  · show win3_4.index t (0 : Fin 2) * 5000 + 1 * (j 0).val = t.val * 5000 + (j 0).val
    omega
  · show win3_4.index t (1 : Fin 2) * 128 + 1 * (j 1).val = (j 1).val
    omega

/-- An index of the array is in point `t`'s block iff each coordinate is in the block's range on its axis. -/
theorem mem_blk3 (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v81).slice (win3_4.rect t)).set ↔ _
  rw [View.set_slice_whole, Rect.mem_set_unit]
  exact Iff.rfl

/-- Row `r` of the array lies in the block of point `r / 5000`: the twenty blocks of 5000 rows fill the array. -/
theorem cover3 (i : S100000x128.Idx) :
    ∃ t : Fin cfg3.N, (cfg3.win 4).flush t = true ∧ i ∈ ((cfg3.win 4).blk t).view.set := by
  have hN : cfg3.N = 20 := Gen.N_3
  have hi0 : (i 0).val < 100000 := idx2_lt0 i
  have hi1 : (i 1).val < 128 := idx2_lt1 i
  have hq : (i 0).val / 5000 < cfg3.N := by omega
  obtain ⟨e0, e1, e2, e3, e4, e5, e6, e7, e8, e9⟩ := idx_facts3 ⟨(i 0).val / 5000, hq⟩
  refine ⟨⟨(i 0).val / 5000, hq⟩, flush3_4 _, ?_⟩
  rw [mem_blk3]
  intro a
  match a with
  | ⟨0, _⟩ =>
    show win3_4.index ⟨(i 0).val / 5000, hq⟩ (0 : Fin 2) * 5000 ≤ (i 0).val
      ∧ (i 0).val < win3_4.index ⟨(i 0).val / 5000, hq⟩ (0 : Fin 2) * 5000 + 5000
    rw [e8]; show (i 0).val / 5000 * 5000 ≤ (i 0).val ∧ (i 0).val < (i 0).val / 5000 * 5000 + 5000; omega
  | ⟨1, _⟩ =>
    show win3_4.index ⟨(i 0).val / 5000, hq⟩ (1 : Fin 2) * 128 ≤ (i 1).val
      ∧ (i 1).val < win3_4.index ⟨(i 0).val / 5000, hq⟩ (1 : Fin 2) * 128 + 128
    rw [e9]; omega

/-- The normalization launch's output array after all twenty points: the layer's entry of the entry contents of the
    aggregated features and the three parameter rows, at every index. -/
theorem final3 (c : Dev nD) : (Gen.dat3 V c).arrAt 4 cfg3.N
    = layerArray (V c main_v71) (V c main_v78) (V c main_v79) (V c main_v80) :=
  (dat3 V c).arrAt_eq_of_cover 4 _ (fun t _ => flushed3_eq V c t) cover3

/-! ## Normalization launch of layer 3 -/

/-- The printed index maps, decided over the grid: the feature and output windows are at block row `t`, each
    parameter window at its one block. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The body on block `T` of the features and the three whole parameter rows, at entry `j`: the layer array at row
    `5000 T + j 0`, column `j 1`. -/
theorem point5 (x0 : Vec Ideal S5000x128 .f32) (x1 x2 x3 : Vec Ideal S1x128 .f32)
    (a : S100000x128.Idx → EReal) (b g β : S1x128.Idx → EReal) (T : Nat) (hT : T < 20)
    (hx0 : ∀ (p : Fin 5000) (k : Fin 128), x0 (ix2 p k) = a (ix2 (⟨T * 5000 + p.val, by have := p.isLt; omega⟩ : Fin 100000) k))
    (hx1 : ∀ k : Fin 128, x1 (ix2 (0 : Fin 1) k) = b (ix2 (0 : Fin 1) k))
    (hx2 : ∀ k : Fin 128, x2 (ix2 (0 : Fin 1) k) = g (ix2 (0 : Fin 1) k))
    (hx3 : ∀ k : Fin 128, x3 (ix2 (0 : Fin 1) k) = β (ix2 (0 : Fin 1) k))
    (j : S5000x128.Idx) (i : S100000x128.Idx) (hi0 : (i 0).val = T * 5000 + (j 0).val) (hi1 : (i 1).val = (j 1).val) :
    Gen.k5_pay1 (F := Ideal) x0 x1 x2 x3 j = layerArray a b g β i := by
  obtain ⟨p, q, rfl⟩ : ∃ (p : Fin 5000) (q : Fin 128), j = ix2 p q := ⟨j 0, j 1, eq_ix2 j⟩
  rw [Cert.KernelIdeal.PayloadAt.ln_at_5]
  have e0 : (⟨T * 5000 + p.val, by have := p.isLt; omega⟩ : Fin 100000) = ⟨(i 0).val, idx2_lt0 i⟩ := Fin.ext hi0.symm
  have e1 : q = (⟨(i 1).val, idx2_lt1 i⟩ : Fin 128) := Fin.ext hi1.symm
  have h0 : (fun k => x0 (ix2 p k)) = fun k => a (ix2 (⟨(i 0).val, idx2_lt0 i⟩ : Fin 100000) k) :=
    funext fun k => by rw [hx0, e0]
  unfold layerArray Cert.Gcn.layerEntry
  rw [h0, funext hx1, funext hx2, funext hx3, ← e1]

/-- What point `t` writes back is block `t` of the layer array of the entry contents. -/
theorem flushed5_eq (c : Dev nD) (t : Fin cfg5.N) :
    (dat5 V c).flushed 4 t = ((cfg5.win 4).blk t).view.read (Elt Ideal)
      (layerArray (V c main_v97) (V c main_v104) (V c main_v105) (V c main_v106)) := by
  show (cfg5.win 4).cut (grid5.coords t) ((dat5 V c).after 4 t) = _
  rw [after5_4]
  unfold out5_4
  rw [View.canon_unit_zero hz]
  simp only [View.ld_unit_zero (S := S5000x128) hz, View.ld_unit_zero (S := S1x128) hz]
  obtain ⟨e0, e1, e2, e3, e4, e5, e6, e7, e8, e9⟩ := idx_facts5 t
  funext j
  have ht : t.val < 20 := by have hN : cfg5.N = 20 := Gen.N_5; have := t.isLt; omega
  show k5_pay1 (F := Ideal) (iblk5 V c 0 t) (iblk5 V c 1 t) (iblk5 V c 2 t) (iblk5 V c 3 t) j
      = layerArray (V c main_v97) (V c main_v104) (V c main_v105) (V c main_v106) (((cfg5.win 4).blk t).view.emb j)
  refine point5 (iblk5 V c 0 t) (iblk5 V c 1 t) (iblk5 V c 2 t) (iblk5 V c 3 t)
    (V c main_v97) (V c main_v104) (V c main_v105) (V c main_v106) t.val ht ?_ ?_ ?_ ?_ j _ ?_ ?_
  · intro p k
    unfold iblk5
    rw [View.read_apply]
    show V c main_v97 _ = V c main_v97 _
    refine congrArg (V c main_v97) (funext fun a => Fin.ext ?_)
    match a with
    | ⟨0, _⟩ => show win5_0.index t (0 : Fin 2) * 5000 + 1 * p.val = t.val * 5000 + p.val; omega
    | ⟨1, _⟩ => show win5_0.index t (1 : Fin 2) * 128 + 1 * k.val = k.val; omega
  · intro k
    unfold iblk5
    rw [View.read_apply]
    show V c main_v104 _ = V c main_v104 _
    refine congrArg (V c main_v104) (funext fun a => Fin.ext ?_)
    match a with
    | ⟨0, _⟩ => show win5_1.index t (0 : Fin 2) * 1 + 1 * 0 = 0; omega
    | ⟨1, _⟩ => show win5_1.index t (1 : Fin 2) * 128 + 1 * k.val = k.val; omega
  · intro k
    unfold iblk5
    rw [View.read_apply]
    show V c main_v105 _ = V c main_v105 _
    refine congrArg (V c main_v105) (funext fun a => Fin.ext ?_)
    match a with
    | ⟨0, _⟩ => show win5_2.index t (0 : Fin 2) * 1 + 1 * 0 = 0; omega
    | ⟨1, _⟩ => show win5_2.index t (1 : Fin 2) * 128 + 1 * k.val = k.val; omega
  · intro k
    unfold iblk5
    rw [View.read_apply]
    show V c main_v106 _ = V c main_v106 _
    refine congrArg (V c main_v106) (funext fun a => Fin.ext ?_)
    match a with
    | ⟨0, _⟩ => show win5_3.index t (0 : Fin 2) * 1 + 1 * 0 = 0; omega
    | ⟨1, _⟩ => show win5_3.index t (1 : Fin 2) * 128 + 1 * k.val = k.val; omega
  · show win5_4.index t (0 : Fin 2) * 5000 + 1 * (j 0).val = t.val * 5000 + (j 0).val
    omega
  · show win5_4.index t (1 : Fin 2) * 128 + 1 * (j 1).val = (j 1).val
    omega

/-- An index of the array is in point `t`'s block iff each coordinate is in the block's range on its axis. -/
theorem mem_blk5 (t : Fin cfg5.N) (i : S100000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v107).slice (win5_4.rect t)).set ↔ _
  rw [View.set_slice_whole, Rect.mem_set_unit]
  exact Iff.rfl

/-- Row `r` of the array lies in the block of point `r / 5000`: the twenty blocks of 5000 rows fill the array. -/
theorem cover5 (i : S100000x128.Idx) :
    ∃ t : Fin cfg5.N, (cfg5.win 4).flush t = true ∧ i ∈ ((cfg5.win 4).blk t).view.set := by
  have hN : cfg5.N = 20 := Gen.N_5
  have hi0 : (i 0).val < 100000 := idx2_lt0 i
  have hi1 : (i 1).val < 128 := idx2_lt1 i
  have hq : (i 0).val / 5000 < cfg5.N := by omega
  obtain ⟨e0, e1, e2, e3, e4, e5, e6, e7, e8, e9⟩ := idx_facts5 ⟨(i 0).val / 5000, hq⟩
  refine ⟨⟨(i 0).val / 5000, hq⟩, flush5_4 _, ?_⟩
  rw [mem_blk5]
  intro a
  match a with
  | ⟨0, _⟩ =>
    show win5_4.index ⟨(i 0).val / 5000, hq⟩ (0 : Fin 2) * 5000 ≤ (i 0).val
      ∧ (i 0).val < win5_4.index ⟨(i 0).val / 5000, hq⟩ (0 : Fin 2) * 5000 + 5000
    rw [e8]; show (i 0).val / 5000 * 5000 ≤ (i 0).val ∧ (i 0).val < (i 0).val / 5000 * 5000 + 5000; omega
  | ⟨1, _⟩ =>
    show win5_4.index ⟨(i 0).val / 5000, hq⟩ (1 : Fin 2) * 128 ≤ (i 1).val
      ∧ (i 1).val < win5_4.index ⟨(i 0).val / 5000, hq⟩ (1 : Fin 2) * 128 + 128
    rw [e9]; omega

/-- The normalization launch's output array after all twenty points: the layer's entry of the entry contents of the
    aggregated features and the three parameter rows, at every index. -/
theorem final5 (c : Dev nD) : (Gen.dat5 V c).arrAt 4 cfg5.N
    = layerArray (V c main_v97) (V c main_v104) (V c main_v105) (V c main_v106) :=
  (dat5 V c).arrAt_eq_of_cover 4 _ (fun t _ => flushed5_eq V c t) cover5

/-! ## Normalization launch of layer 4 -/

/-- The printed index maps, decided over the grid: the feature and output windows are at block row `t`, each
    parameter window at its one block. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- The body on block `T` of the features and the three whole parameter rows, at entry `j`: the layer array at row
    `5000 T + j 0`, column `j 1`. -/
theorem point7 (x0 : Vec Ideal S5000x128 .f32) (x1 x2 x3 : Vec Ideal S1x128 .f32)
    (a : S100000x128.Idx → EReal) (b g β : S1x128.Idx → EReal) (T : Nat) (hT : T < 20)
    (hx0 : ∀ (p : Fin 5000) (k : Fin 128), x0 (ix2 p k) = a (ix2 (⟨T * 5000 + p.val, by have := p.isLt; omega⟩ : Fin 100000) k))
    (hx1 : ∀ k : Fin 128, x1 (ix2 (0 : Fin 1) k) = b (ix2 (0 : Fin 1) k))
    (hx2 : ∀ k : Fin 128, x2 (ix2 (0 : Fin 1) k) = g (ix2 (0 : Fin 1) k))
    (hx3 : ∀ k : Fin 128, x3 (ix2 (0 : Fin 1) k) = β (ix2 (0 : Fin 1) k))
    (j : S5000x128.Idx) (i : S100000x128.Idx) (hi0 : (i 0).val = T * 5000 + (j 0).val) (hi1 : (i 1).val = (j 1).val) :
    Gen.k7_pay1 (F := Ideal) x0 x1 x2 x3 j = layerArray a b g β i := by
  obtain ⟨p, q, rfl⟩ : ∃ (p : Fin 5000) (q : Fin 128), j = ix2 p q := ⟨j 0, j 1, eq_ix2 j⟩
  rw [Cert.KernelIdeal.PayloadAt.ln_at_7]
  have e0 : (⟨T * 5000 + p.val, by have := p.isLt; omega⟩ : Fin 100000) = ⟨(i 0).val, idx2_lt0 i⟩ := Fin.ext hi0.symm
  have e1 : q = (⟨(i 1).val, idx2_lt1 i⟩ : Fin 128) := Fin.ext hi1.symm
  have h0 : (fun k => x0 (ix2 p k)) = fun k => a (ix2 (⟨(i 0).val, idx2_lt0 i⟩ : Fin 100000) k) :=
    funext fun k => by rw [hx0, e0]
  unfold layerArray Cert.Gcn.layerEntry
  rw [h0, funext hx1, funext hx2, funext hx3, ← e1]

/-- What point `t` writes back is block `t` of the layer array of the entry contents. -/
theorem flushed7_eq (c : Dev nD) (t : Fin cfg7.N) :
    (dat7 V c).flushed 4 t = ((cfg7.win 4).blk t).view.read (Elt Ideal)
      (layerArray (V c main_v123) (V c main_v130) (V c main_v131) (V c main_v132)) := by
  show (cfg7.win 4).cut (grid7.coords t) ((dat7 V c).after 4 t) = _
  rw [after7_4]
  unfold out7_4
  rw [View.canon_unit_zero hz]
  simp only [View.ld_unit_zero (S := S5000x128) hz, View.ld_unit_zero (S := S1x128) hz]
  obtain ⟨e0, e1, e2, e3, e4, e5, e6, e7, e8, e9⟩ := idx_facts7 t
  funext j
  have ht : t.val < 20 := by have hN : cfg7.N = 20 := Gen.N_7; have := t.isLt; omega
  show k7_pay1 (F := Ideal) (iblk7 V c 0 t) (iblk7 V c 1 t) (iblk7 V c 2 t) (iblk7 V c 3 t) j
      = layerArray (V c main_v123) (V c main_v130) (V c main_v131) (V c main_v132) (((cfg7.win 4).blk t).view.emb j)
  refine point7 (iblk7 V c 0 t) (iblk7 V c 1 t) (iblk7 V c 2 t) (iblk7 V c 3 t)
    (V c main_v123) (V c main_v130) (V c main_v131) (V c main_v132) t.val ht ?_ ?_ ?_ ?_ j _ ?_ ?_
  · intro p k
    unfold iblk7
    rw [View.read_apply]
    show V c main_v123 _ = V c main_v123 _
    refine congrArg (V c main_v123) (funext fun a => Fin.ext ?_)
    match a with
    | ⟨0, _⟩ => show win7_0.index t (0 : Fin 2) * 5000 + 1 * p.val = t.val * 5000 + p.val; omega
    | ⟨1, _⟩ => show win7_0.index t (1 : Fin 2) * 128 + 1 * k.val = k.val; omega
  · intro k
    unfold iblk7
    rw [View.read_apply]
    show V c main_v130 _ = V c main_v130 _
    refine congrArg (V c main_v130) (funext fun a => Fin.ext ?_)
    match a with
    | ⟨0, _⟩ => show win7_1.index t (0 : Fin 2) * 1 + 1 * 0 = 0; omega
    | ⟨1, _⟩ => show win7_1.index t (1 : Fin 2) * 128 + 1 * k.val = k.val; omega
  · intro k
    unfold iblk7
    rw [View.read_apply]
    show V c main_v131 _ = V c main_v131 _
    refine congrArg (V c main_v131) (funext fun a => Fin.ext ?_)
    match a with
    | ⟨0, _⟩ => show win7_2.index t (0 : Fin 2) * 1 + 1 * 0 = 0; omega
    | ⟨1, _⟩ => show win7_2.index t (1 : Fin 2) * 128 + 1 * k.val = k.val; omega
  · intro k
    unfold iblk7
    rw [View.read_apply]
    show V c main_v132 _ = V c main_v132 _
    refine congrArg (V c main_v132) (funext fun a => Fin.ext ?_)
    match a with
    | ⟨0, _⟩ => show win7_3.index t (0 : Fin 2) * 1 + 1 * 0 = 0; omega
    | ⟨1, _⟩ => show win7_3.index t (1 : Fin 2) * 128 + 1 * k.val = k.val; omega
  · show win7_4.index t (0 : Fin 2) * 5000 + 1 * (j 0).val = t.val * 5000 + (j 0).val
    omega
  · show win7_4.index t (1 : Fin 2) * 128 + 1 * (j 1).val = (j 1).val
    omega

/-- An index of the array is in point `t`'s block iff each coordinate is in the block's range on its axis. -/
theorem mem_blk7 (t : Fin cfg7.N) (i : S100000x128.Idx) :
    i ∈ ((cfg7.win 4).blk t).view.set ↔ ∀ a : Fin 2, win7_4.index t a * S5000x128.size a ≤ (i a).val ∧ (i a).val < win7_4.index t a * S5000x128.size a + S5000x128.size a := by
  show i ∈ ((View.whole main_v133).slice (win7_4.rect t)).set ↔ _
  rw [View.set_slice_whole, Rect.mem_set_unit]
  exact Iff.rfl

/-- Row `r` of the array lies in the block of point `r / 5000`: the twenty blocks of 5000 rows fill the array. -/
theorem cover7 (i : S100000x128.Idx) :
    ∃ t : Fin cfg7.N, (cfg7.win 4).flush t = true ∧ i ∈ ((cfg7.win 4).blk t).view.set := by
  have hN : cfg7.N = 20 := Gen.N_7
  have hi0 : (i 0).val < 100000 := idx2_lt0 i
  have hi1 : (i 1).val < 128 := idx2_lt1 i
  have hq : (i 0).val / 5000 < cfg7.N := by omega
  obtain ⟨e0, e1, e2, e3, e4, e5, e6, e7, e8, e9⟩ := idx_facts7 ⟨(i 0).val / 5000, hq⟩
  refine ⟨⟨(i 0).val / 5000, hq⟩, flush7_4 _, ?_⟩
  rw [mem_blk7]
  intro a
  match a with
  | ⟨0, _⟩ =>
    show win7_4.index ⟨(i 0).val / 5000, hq⟩ (0 : Fin 2) * 5000 ≤ (i 0).val
      ∧ (i 0).val < win7_4.index ⟨(i 0).val / 5000, hq⟩ (0 : Fin 2) * 5000 + 5000
    rw [e8]; show (i 0).val / 5000 * 5000 ≤ (i 0).val ∧ (i 0).val < (i 0).val / 5000 * 5000 + 5000; omega
  | ⟨1, _⟩ =>
    show win7_4.index ⟨(i 0).val / 5000, hq⟩ (1 : Fin 2) * 128 ≤ (i 1).val
      ∧ (i 1).val < win7_4.index ⟨(i 0).val / 5000, hq⟩ (1 : Fin 2) * 128 + 128
    rw [e9]; omega

/-- The normalization launch's output array after all twenty points: the layer's entry of the entry contents of the
    aggregated features and the three parameter rows, at every index. -/
theorem final7 (c : Dev nD) : (Gen.dat7 V c).arrAt 4 cfg7.N
    = layerArray (V c main_v123) (V c main_v130) (V c main_v131) (V c main_v132) :=
  (dat7 V c).arrAt_eq_of_cover 4 _ (fun t _ => flushed7_eq V c t) cover7

end Cert.KernelIdeal.Blocks

end
-- ==== Proof.RefLayers.lean ====
/-
  The reference program's four layers, read one entry at a time on the extended reals.

  Each layer multiplies the node features by a weight matrix, aggregates the product over the edges, and then, row by
  row, adds a bias, rectifies, and normalizes: with `v k = max (a k + b k) 0`, `μ = (Σ v k) / 128` and
  `σ² = (Σ (v k - μ)²) / 128`, entry `q` of the row becomes `((v q - μ) · (σ² + ε)^(-1/2)) · g q + β q`. The
  aggregation `a` is left as it stands; everything after it, and the product before it, is identified here with the
  entrywise formulas. A sum the program starts from the zero word is the bare sum, since that word is the number zero; a
  vector repeated down the rows is read at its column, and a per-row quantity repeated across the columns at its row.
-/
import proofs.«175188_j21217138442428_1_alg».proof.Proof.RefReadP
import proofs.«175188_j21217138442428_1_alg».proof.Proof.LayerSpec

noncomputable section

open scoped BigOperators

namespace Cert.ReferenceIdeal.Layers

open Cert.ReferenceIdeal Cert.ReferenceIdeal.Gen Cert.ReferenceIdeal.ReadP Cert.Gcn
open Idealize.ShloMosaic Idealize.ShloMosaic.TcCoe Idealize.SL.Sem Idealize.ShloMosaic.StableHlo Idealize.ShloMosaic.ValueIdx

variable (x0 : (⟨S100000x128, .f32⟩ : BufTy).Contents (Elt Ideal)) (x1 : (⟨S4x128x128, .f32⟩ : BufTy).Contents (Elt Ideal))
  (x2 x3 x4 : (⟨S4x128, .f32⟩ : BufTy).Contents (Elt Ideal)) (x5 : (⟨S2x600000, .i32⟩ : BufTy).Contents (Elt Ideal))

/-! ## The first layer -/

/-- The first layer's product: entry `(p, q)` is the sum over `k` of the input's `(p, k)` times the weight's `(k, q)`. -/
theorem product_1 (p : Fin 100000) (q : Fin 128) :
    val_main_v34 (F := Ideal) x0 x1 (ix2 p q) = productEntry x0 (val_main_v31 (F := Ideal) x1) p q := by
  unfold productEntry
  rewrite [val_main_v34_apply]
  refine Finset.sum_congr rfl fun k _ => ?_
  have el : lidx_main_v34 (ix2 p q) k = ix2 p k :=
    funext fun a => Fin.ext (by match a with | ⟨0, _⟩ => rfl | ⟨1, _⟩ => rfl)
  have er : ridx_main_v34 (ix2 p q) k = ix2 k q :=
    funext fun a => Fin.ext (by match a with | ⟨0, _⟩ => rfl | ⟨1, _⟩ => rfl)
  rw [el, er]

/-- The bias vector, laid out as one row and repeated down the rows, holds its entry `k` at `(p, k)`. -/
theorem bias_1 (p : Fin 100000) (k : Fin 128) :
    val_main_v49 (F := Ideal) x2 (ix2 p k) = val_main_v33 (F := Ideal) x2 (ix1 k) := by
  have e : idx_main_v48 (idx_main_v49 (ix2 p k)) = ix1 k :=
    funext fun a => Fin.ext (by match a with | ⟨0, _⟩ => rfl)
  rw [val_main_v49_apply, val_main_v48_apply, e]

/-- The scale vector likewise. -/
theorem scale_1 (p : Fin 100000) (k : Fin 128) :
    val_main_v75 (F := Ideal) x3 (ix2 p k) = val_main_v53 (F := Ideal) x3 (ix1 k) := by
  have e : idx_main_v74 (idx_main_v75 (ix2 p k)) = ix1 k :=
    funext fun a => Fin.ext (by match a with | ⟨0, _⟩ => rfl)
  rw [val_main_v75_apply, val_main_v74_apply, e]

/-- The shift vector likewise. -/
theorem shift_1 (p : Fin 100000) (k : Fin 128) :
    val_main_v78 (F := Ideal) x4 (ix2 p k) = val_main_v55 (F := Ideal) x4 (ix1 k) := by
  have e : idx_main_v77 (idx_main_v78 (ix2 p k)) = ix1 k :=
    funext fun a => Fin.ext (by match a with | ⟨0, _⟩ => rfl)
  rw [val_main_v78_apply, val_main_v77_apply, e]

/-- Entry `k` of row `p` after the bias and the rectifier: `max (a k + b k) 0`. -/
theorem rectified_1 (p : Fin 100000) (k : Fin 128) :
    val_main_v51 (F := Ideal) x0 x1 x2 x5 (ix2 p k) = rectified (fun c => val_main_v47 (F := Ideal) x0 x1 x5 (ix2 p c)) (fun c => val_main_v33 (F := Ideal) x2 (ix1 c)) k := by
  rewrite [val_main_v51_apply, val_main_v50_apply, bias_1, val_main_call1_v0_apply, val_main_call1_cst_apply]
  rfl

/-- The sum of the rectified row `p`. The sum starts from the zero word, which is the real number zero. -/
theorem rowSum_1 (p : Fin 100000) :
    val_main_v56 (F := Ideal) x0 x1 x2 x5 (ix1 p) = ∑ k : Fin 128, rectified (fun c => val_main_v47 (F := Ideal) x0 x1 x5 (ix2 p c)) (fun c => val_main_v33 (F := Ideal) x2 (ix1 c)) k := by
  have e : ∀ k : Fin 128, idx_main_v56 (ix1 p) k = ix2 p k := fun k =>
    funext fun a => Fin.ext (by match a with | ⟨0, _⟩ => rfl | ⟨1, _⟩ => rfl)
  rewrite [val_main_v56_apply, val_main_cst_9_apply, Ideal.ofBits_def, Ideal.ofBits_zero_f32, zero_add]
  exact Finset.sum_congr rfl fun k _ => by rw [e k, rectified_1]

/-- The mean of the rectified row `p`, held in a one-column array at `(p, 0)`. -/
theorem mean_1 (p : Fin 100000) :
    val_main_v59 (F := Ideal) x0 x1 x2 x5 (ix2 p (0 : Fin 1)) = rowMean (rectified (fun c => val_main_v47 (F := Ideal) x0 x1 x5 (ix2 p c)) (fun c => val_main_v33 (F := Ideal) x2 (ix1 c))) := by
  have e : idx_main_v57 (ix2 p (0 : Fin 1)) = ix1 p :=
    funext fun a => Fin.ext (by match a with | ⟨0, _⟩ => rfl)
  rewrite [val_main_v59_apply, val_main_v57_apply, e, rowSum_1, val_main_v58_apply, val_main_cst_10_apply]
  rfl

/-- Entry `k` of the rectified row `p` minus the row's mean, as the variance reads it. -/
theorem centered_1 (p : Fin 100000) (k : Fin 128) :
    val_main_v61 (F := Ideal) x0 x1 x2 x5 (ix2 p k) = rectified (fun c => val_main_v47 (F := Ideal) x0 x1 x5 (ix2 p c)) (fun c => val_main_v33 (F := Ideal) x2 (ix1 c)) k - rowMean (rectified (fun c => val_main_v47 (F := Ideal) x0 x1 x5 (ix2 p c)) (fun c => val_main_v33 (F := Ideal) x2 (ix1 c))) := by
  have e : idx_main_v60 (ix2 p k) = ix2 p (0 : Fin 1) :=
    funext fun a => Fin.ext (by match a with | ⟨0, _⟩ => rfl | ⟨1, _⟩ => rfl)
  rewrite [val_main_v61_apply, val_main_v60_apply, e, mean_1, rectified_1]
  rfl

/-- The sum of the squared deviations of row `p` from its mean. -/
theorem sqSum_1 (p : Fin 100000) :
    val_main_v63 (F := Ideal) x0 x1 x2 x5 (ix1 p)
      = ∑ k : Fin 128, (rectified (fun c => val_main_v47 (F := Ideal) x0 x1 x5 (ix2 p c)) (fun c => val_main_v33 (F := Ideal) x2 (ix1 c)) k - rowMean (rectified (fun c => val_main_v47 (F := Ideal) x0 x1 x5 (ix2 p c)) (fun c => val_main_v33 (F := Ideal) x2 (ix1 c)))) * (rectified (fun c => val_main_v47 (F := Ideal) x0 x1 x5 (ix2 p c)) (fun c => val_main_v33 (F := Ideal) x2 (ix1 c)) k - rowMean (rectified (fun c => val_main_v47 (F := Ideal) x0 x1 x5 (ix2 p c)) (fun c => val_main_v33 (F := Ideal) x2 (ix1 c)))) := by
  have e : ∀ k : Fin 128, idx_main_v63 (ix1 p) k = ix2 p k := fun k =>
    funext fun a => Fin.ext (by match a with | ⟨0, _⟩ => rfl | ⟨1, _⟩ => rfl)
  rewrite [val_main_v63_apply, val_main_cst_11_apply, Ideal.ofBits_def, Ideal.ofBits_zero_f32, zero_add]
  refine Finset.sum_congr rfl fun k _ => ?_
  rewrite [e k, val_main_v62_apply, centered_1]
  rfl

/-- The mean squared deviation of row `p`, held in a one-column array at `(p, 0)`. -/
theorem var_1 (p : Fin 100000) :
    val_main_v66 (F := Ideal) x0 x1 x2 x5 (ix2 p (0 : Fin 1)) = rowVar (rectified (fun c => val_main_v47 (F := Ideal) x0 x1 x5 (ix2 p c)) (fun c => val_main_v33 (F := Ideal) x2 (ix1 c))) := by
  have e : idx_main_v64 (ix2 p (0 : Fin 1)) = ix1 p :=
    funext fun a => Fin.ext (by match a with | ⟨0, _⟩ => rfl)
  rewrite [val_main_v66_apply, val_main_v64_apply, e, sqSum_1, val_main_v65_apply, val_main_cst_12_apply]
  rfl

/-- Entry `(p, q)` of the first layer's output: the rectified row `p`, normalized, scaled and shifted, at `q`. -/
theorem layer_1 (p : Fin 100000) (q : Fin 128) :
    val_main_v79 (F := Ideal) x0 x1 x2 x3 x4 x5 (ix2 p q)
      = layerEntry (val_main_v47 (F := Ideal) x0 x1 x5) (fun k => val_main_v33 (F := Ideal) x2 (ix1 k))
          (fun k => val_main_v53 (F := Ideal) x3 (ix1 k)) (fun k => val_main_v55 (F := Ideal) x4 (ix1 k)) p q := by
  have e67 : idx_main_v67 (ix2 p q) = ix2 p (0 : Fin 1) :=
    funext fun a => Fin.ext (by match a with | ⟨0, _⟩ => rfl | ⟨1, _⟩ => rfl)
  have e72 : idx_main_v72 (ix2 p q) = ix2 p (0 : Fin 1) :=
    funext fun a => Fin.ext (by match a with | ⟨0, _⟩ => rfl | ⟨1, _⟩ => rfl)
  rewrite [val_main_v79_apply, val_main_v76_apply, val_main_v73_apply, val_main_v68_apply, val_main_v67_apply, e67,
    mean_1, rectified_1, val_main_v72_apply, e72, val_main_v71_apply, val_main_v70_apply, var_1, val_main_v69_apply,
    val_main_cst_13_apply, scale_1, shift_1]
  rfl

/-! ## The second layer -/

/-- The second layer's product: entry `(p, q)` is the sum over `k` of the input's `(p, k)` times the weight's `(k, q)`. -/
theorem product_2 (p : Fin 100000) (q : Fin 128) :
    val_main_v84 (F := Ideal) x0 x1 x2 x3 x4 x5 (ix2 p q) = productEntry (val_main_v79 (F := Ideal) x0 x1 x2 x3 x4 x5) (val_main_v81 (F := Ideal) x1) p q := by
  unfold productEntry
  rewrite [val_main_v84_apply]
  refine Finset.sum_congr rfl fun k _ => ?_
  have el : lidx_main_v84 (ix2 p q) k = ix2 p k :=
    funext fun a => Fin.ext (by match a with | ⟨0, _⟩ => rfl | ⟨1, _⟩ => rfl)
  have er : ridx_main_v84 (ix2 p q) k = ix2 k q :=
    funext fun a => Fin.ext (by match a with | ⟨0, _⟩ => rfl | ⟨1, _⟩ => rfl)
  rw [el, er]

/-- The bias vector, laid out as one row and repeated down the rows, holds its entry `k` at `(p, k)`. -/
theorem bias_2 (p : Fin 100000) (k : Fin 128) :
    val_main_v99 (F := Ideal) x2 (ix2 p k) = val_main_v83 (F := Ideal) x2 (ix1 k) := by
  have e : idx_main_v98 (idx_main_v99 (ix2 p k)) = ix1 k :=
    funext fun a => Fin.ext (by match a with | ⟨0, _⟩ => rfl)
  rw [val_main_v99_apply, val_main_v98_apply, e]

/-- The scale vector likewise. -/
theorem scale_2 (p : Fin 100000) (k : Fin 128) :
    val_main_v125 (F := Ideal) x3 (ix2 p k) = val_main_v103 (F := Ideal) x3 (ix1 k) := by
  have e : idx_main_v124 (idx_main_v125 (ix2 p k)) = ix1 k :=
    funext fun a => Fin.ext (by match a with | ⟨0, _⟩ => rfl)
  rw [val_main_v125_apply, val_main_v124_apply, e]

/-- The shift vector likewise. -/
theorem shift_2 (p : Fin 100000) (k : Fin 128) :
    val_main_v128 (F := Ideal) x4 (ix2 p k) = val_main_v105 (F := Ideal) x4 (ix1 k) := by
  have e : idx_main_v127 (idx_main_v128 (ix2 p k)) = ix1 k :=
    funext fun a => Fin.ext (by match a with | ⟨0, _⟩ => rfl)
  rw [val_main_v128_apply, val_main_v127_apply, e]

/-- Entry `k` of row `p` after the bias and the rectifier: `max (a k + b k) 0`. -/
theorem rectified_2 (p : Fin 100000) (k : Fin 128) :
    val_main_v101 (F := Ideal) x0 x1 x2 x3 x4 x5 (ix2 p k) = rectified (fun c => val_main_v97 (F := Ideal) x0 x1 x2 x3 x4 x5 (ix2 p c)) (fun c => val_main_v83 (F := Ideal) x2 (ix1 c)) k := by
  rewrite [val_main_v101_apply, val_main_v100_apply, bias_2, val_main_call2_v0_apply, val_main_call2_cst_apply]
  rfl

/-- The sum of the rectified row `p`. The sum starts from the zero word, which is the real number zero. -/
theorem rowSum_2 (p : Fin 100000) :
    val_main_v106 (F := Ideal) x0 x1 x2 x3 x4 x5 (ix1 p) = ∑ k : Fin 128, rectified (fun c => val_main_v97 (F := Ideal) x0 x1 x2 x3 x4 x5 (ix2 p c)) (fun c => val_main_v83 (F := Ideal) x2 (ix1 c)) k := by
  have e : ∀ k : Fin 128, idx_main_v106 (ix1 p) k = ix2 p k := fun k =>
    funext fun a => Fin.ext (by match a with | ⟨0, _⟩ => rfl | ⟨1, _⟩ => rfl)
  rewrite [val_main_v106_apply, val_main_cst_17_apply, Ideal.ofBits_def, Ideal.ofBits_zero_f32, zero_add]
  exact Finset.sum_congr rfl fun k _ => by rw [e k, rectified_2]

/-- The mean of the rectified row `p`, held in a one-column array at `(p, 0)`. -/
theorem mean_2 (p : Fin 100000) :
    val_main_v109 (F := Ideal) x0 x1 x2 x3 x4 x5 (ix2 p (0 : Fin 1)) = rowMean (rectified (fun c => val_main_v97 (F := Ideal) x0 x1 x2 x3 x4 x5 (ix2 p c)) (fun c => val_main_v83 (F := Ideal) x2 (ix1 c))) := by
  have e : idx_main_v107 (ix2 p (0 : Fin 1)) = ix1 p :=
    funext fun a => Fin.ext (by match a with | ⟨0, _⟩ => rfl)
  rewrite [val_main_v109_apply, val_main_v107_apply, e, rowSum_2, val_main_v108_apply, val_main_cst_18_apply]
  rfl

/-- Entry `k` of the rectified row `p` minus the row's mean, as the variance reads it. -/
theorem centered_2 (p : Fin 100000) (k : Fin 128) :
    val_main_v111 (F := Ideal) x0 x1 x2 x3 x4 x5 (ix2 p k) = rectified (fun c => val_main_v97 (F := Ideal) x0 x1 x2 x3 x4 x5 (ix2 p c)) (fun c => val_main_v83 (F := Ideal) x2 (ix1 c)) k - rowMean (rectified (fun c => val_main_v97 (F := Ideal) x0 x1 x2 x3 x4 x5 (ix2 p c)) (fun c => val_main_v83 (F := Ideal) x2 (ix1 c))) := by
  have e : idx_main_v110 (ix2 p k) = ix2 p (0 : Fin 1) :=
    funext fun a => Fin.ext (by match a with | ⟨0, _⟩ => rfl | ⟨1, _⟩ => rfl)
  rewrite [val_main_v111_apply, val_main_v110_apply, e, mean_2, rectified_2]
  rfl

/-- The sum of the squared deviations of row `p` from its mean. -/
theorem sqSum_2 (p : Fin 100000) :
    val_main_v113 (F := Ideal) x0 x1 x2 x3 x4 x5 (ix1 p)
      = ∑ k : Fin 128, (rectified (fun c => val_main_v97 (F := Ideal) x0 x1 x2 x3 x4 x5 (ix2 p c)) (fun c => val_main_v83 (F := Ideal) x2 (ix1 c)) k - rowMean (rectified (fun c => val_main_v97 (F := Ideal) x0 x1 x2 x3 x4 x5 (ix2 p c)) (fun c => val_main_v83 (F := Ideal) x2 (ix1 c)))) * (rectified (fun c => val_main_v97 (F := Ideal) x0 x1 x2 x3 x4 x5 (ix2 p c)) (fun c => val_main_v83 (F := Ideal) x2 (ix1 c)) k - rowMean (rectified (fun c => val_main_v97 (F := Ideal) x0 x1 x2 x3 x4 x5 (ix2 p c)) (fun c => val_main_v83 (F := Ideal) x2 (ix1 c)))) := by
  have e : ∀ k : Fin 128, idx_main_v113 (ix1 p) k = ix2 p k := fun k =>
    funext fun a => Fin.ext (by match a with | ⟨0, _⟩ => rfl | ⟨1, _⟩ => rfl)
  rewrite [val_main_v113_apply, val_main_cst_19_apply, Ideal.ofBits_def, Ideal.ofBits_zero_f32, zero_add]
  refine Finset.sum_congr rfl fun k _ => ?_
  rewrite [e k, val_main_v112_apply, centered_2]
  rfl

/-- The mean squared deviation of row `p`, held in a one-column array at `(p, 0)`. -/
theorem var_2 (p : Fin 100000) :
    val_main_v116 (F := Ideal) x0 x1 x2 x3 x4 x5 (ix2 p (0 : Fin 1)) = rowVar (rectified (fun c => val_main_v97 (F := Ideal) x0 x1 x2 x3 x4 x5 (ix2 p c)) (fun c => val_main_v83 (F := Ideal) x2 (ix1 c))) := by
  have e : idx_main_v114 (ix2 p (0 : Fin 1)) = ix1 p :=
    funext fun a => Fin.ext (by match a with | ⟨0, _⟩ => rfl)
  rewrite [val_main_v116_apply, val_main_v114_apply, e, sqSum_2, val_main_v115_apply, val_main_cst_20_apply]
  rfl

/-- Entry `(p, q)` of the second layer's output: the rectified row `p`, normalized, scaled and shifted, at `q`. -/
theorem layer_2 (p : Fin 100000) (q : Fin 128) :
    val_main_v129 (F := Ideal) x0 x1 x2 x3 x4 x5 (ix2 p q)
      = layerEntry (val_main_v97 (F := Ideal) x0 x1 x2 x3 x4 x5) (fun k => val_main_v83 (F := Ideal) x2 (ix1 k))
          (fun k => val_main_v103 (F := Ideal) x3 (ix1 k)) (fun k => val_main_v105 (F := Ideal) x4 (ix1 k)) p q := by
  have e67 : idx_main_v117 (ix2 p q) = ix2 p (0 : Fin 1) :=
    funext fun a => Fin.ext (by match a with | ⟨0, _⟩ => rfl | ⟨1, _⟩ => rfl)
  have e72 : idx_main_v122 (ix2 p q) = ix2 p (0 : Fin 1) :=
    funext fun a => Fin.ext (by match a with | ⟨0, _⟩ => rfl | ⟨1, _⟩ => rfl)
  rewrite [val_main_v129_apply, val_main_v126_apply, val_main_v123_apply, val_main_v118_apply, val_main_v117_apply, e67,
    mean_2, rectified_2, val_main_v122_apply, e72, val_main_v121_apply, val_main_v120_apply, var_2, val_main_v119_apply,
    val_main_cst_21_apply, scale_2, shift_2]
  rfl

/-! ## The third layer -/

/-- The third layer's product: entry `(p, q)` is the sum over `k` of the input's `(p, k)` times the weight's `(k, q)`. -/
theorem product_3 (p : Fin 100000) (q : Fin 128) :
    val_main_v134 (F := Ideal) x0 x1 x2 x3 x4 x5 (ix2 p q) = productEntry (val_main_v129 (F := Ideal) x0 x1 x2 x3 x4 x5) (val_main_v131 (F := Ideal) x1) p q := by
  unfold productEntry
  rewrite [val_main_v134_apply]
  refine Finset.sum_congr rfl fun k _ => ?_
  have el : lidx_main_v134 (ix2 p q) k = ix2 p k :=
    funext fun a => Fin.ext (by match a with | ⟨0, _⟩ => rfl | ⟨1, _⟩ => rfl)
  have er : ridx_main_v134 (ix2 p q) k = ix2 k q :=
    funext fun a => Fin.ext (by match a with | ⟨0, _⟩ => rfl | ⟨1, _⟩ => rfl)
  rw [el, er]

/-- The bias vector, laid out as one row and repeated down the rows, holds its entry `k` at `(p, k)`. -/
theorem bias_3 (p : Fin 100000) (k : Fin 128) :
    val_main_v149 (F := Ideal) x2 (ix2 p k) = val_main_v133 (F := Ideal) x2 (ix1 k) := by
  have e : idx_main_v148 (idx_main_v149 (ix2 p k)) = ix1 k :=
    funext fun a => Fin.ext (by match a with | ⟨0, _⟩ => rfl)
  rw [val_main_v149_apply, val_main_v148_apply, e]

/-- The scale vector likewise. -/
theorem scale_3 (p : Fin 100000) (k : Fin 128) :
    val_main_v175 (F := Ideal) x3 (ix2 p k) = val_main_v153 (F := Ideal) x3 (ix1 k) := by
  have e : idx_main_v174 (idx_main_v175 (ix2 p k)) = ix1 k :=
    funext fun a => Fin.ext (by match a with | ⟨0, _⟩ => rfl)
  rw [val_main_v175_apply, val_main_v174_apply, e]

/-- The shift vector likewise. -/
theorem shift_3 (p : Fin 100000) (k : Fin 128) :
    val_main_v178 (F := Ideal) x4 (ix2 p k) = val_main_v155 (F := Ideal) x4 (ix1 k) := by
  have e : idx_main_v177 (idx_main_v178 (ix2 p k)) = ix1 k :=
    funext fun a => Fin.ext (by match a with | ⟨0, _⟩ => rfl)
  rw [val_main_v178_apply, val_main_v177_apply, e]

/-- Entry `k` of row `p` after the bias and the rectifier: `max (a k + b k) 0`. -/
theorem rectified_3 (p : Fin 100000) (k : Fin 128) :
    val_main_v151 (F := Ideal) x0 x1 x2 x3 x4 x5 (ix2 p k) = rectified (fun c => val_main_v147 (F := Ideal) x0 x1 x2 x3 x4 x5 (ix2 p c)) (fun c => val_main_v133 (F := Ideal) x2 (ix1 c)) k := by
  rewrite [val_main_v151_apply, val_main_v150_apply, bias_3, val_main_call3_v0_apply, val_main_call3_cst_apply]
  rfl

/-- The sum of the rectified row `p`. The sum starts from the zero word, which is the real number zero. -/
theorem rowSum_3 (p : Fin 100000) :
    val_main_v156 (F := Ideal) x0 x1 x2 x3 x4 x5 (ix1 p) = ∑ k : Fin 128, rectified (fun c => val_main_v147 (F := Ideal) x0 x1 x2 x3 x4 x5 (ix2 p c)) (fun c => val_main_v133 (F := Ideal) x2 (ix1 c)) k := by
  have e : ∀ k : Fin 128, idx_main_v156 (ix1 p) k = ix2 p k := fun k =>
    funext fun a => Fin.ext (by match a with | ⟨0, _⟩ => rfl | ⟨1, _⟩ => rfl)
  rewrite [val_main_v156_apply, val_main_cst_25_apply, Ideal.ofBits_def, Ideal.ofBits_zero_f32, zero_add]
  exact Finset.sum_congr rfl fun k _ => by rw [e k, rectified_3]

/-- The mean of the rectified row `p`, held in a one-column array at `(p, 0)`. -/
theorem mean_3 (p : Fin 100000) :
    val_main_v159 (F := Ideal) x0 x1 x2 x3 x4 x5 (ix2 p (0 : Fin 1)) = rowMean (rectified (fun c => val_main_v147 (F := Ideal) x0 x1 x2 x3 x4 x5 (ix2 p c)) (fun c => val_main_v133 (F := Ideal) x2 (ix1 c))) := by
  have e : idx_main_v157 (ix2 p (0 : Fin 1)) = ix1 p :=
    funext fun a => Fin.ext (by match a with | ⟨0, _⟩ => rfl)
  rewrite [val_main_v159_apply, val_main_v157_apply, e, rowSum_3, val_main_v158_apply, val_main_cst_26_apply]
  rfl

/-- Entry `k` of the rectified row `p` minus the row's mean, as the variance reads it. -/
theorem centered_3 (p : Fin 100000) (k : Fin 128) :
    val_main_v161 (F := Ideal) x0 x1 x2 x3 x4 x5 (ix2 p k) = rectified (fun c => val_main_v147 (F := Ideal) x0 x1 x2 x3 x4 x5 (ix2 p c)) (fun c => val_main_v133 (F := Ideal) x2 (ix1 c)) k - rowMean (rectified (fun c => val_main_v147 (F := Ideal) x0 x1 x2 x3 x4 x5 (ix2 p c)) (fun c => val_main_v133 (F := Ideal) x2 (ix1 c))) := by
  have e : idx_main_v160 (ix2 p k) = ix2 p (0 : Fin 1) :=
    funext fun a => Fin.ext (by match a with | ⟨0, _⟩ => rfl | ⟨1, _⟩ => rfl)
  rewrite [val_main_v161_apply, val_main_v160_apply, e, mean_3, rectified_3]
  rfl

/-- The sum of the squared deviations of row `p` from its mean. -/
theorem sqSum_3 (p : Fin 100000) :
    val_main_v163 (F := Ideal) x0 x1 x2 x3 x4 x5 (ix1 p)
      = ∑ k : Fin 128, (rectified (fun c => val_main_v147 (F := Ideal) x0 x1 x2 x3 x4 x5 (ix2 p c)) (fun c => val_main_v133 (F := Ideal) x2 (ix1 c)) k - rowMean (rectified (fun c => val_main_v147 (F := Ideal) x0 x1 x2 x3 x4 x5 (ix2 p c)) (fun c => val_main_v133 (F := Ideal) x2 (ix1 c)))) * (rectified (fun c => val_main_v147 (F := Ideal) x0 x1 x2 x3 x4 x5 (ix2 p c)) (fun c => val_main_v133 (F := Ideal) x2 (ix1 c)) k - rowMean (rectified (fun c => val_main_v147 (F := Ideal) x0 x1 x2 x3 x4 x5 (ix2 p c)) (fun c => val_main_v133 (F := Ideal) x2 (ix1 c)))) := by
  have e : ∀ k : Fin 128, idx_main_v163 (ix1 p) k = ix2 p k := fun k =>
    funext fun a => Fin.ext (by match a with | ⟨0, _⟩ => rfl | ⟨1, _⟩ => rfl)
  rewrite [val_main_v163_apply, val_main_cst_27_apply, Ideal.ofBits_def, Ideal.ofBits_zero_f32, zero_add]
  refine Finset.sum_congr rfl fun k _ => ?_
  rewrite [e k, val_main_v162_apply, centered_3]
  rfl

/-- The mean squared deviation of row `p`, held in a one-column array at `(p, 0)`. -/
theorem var_3 (p : Fin 100000) :
    val_main_v166 (F := Ideal) x0 x1 x2 x3 x4 x5 (ix2 p (0 : Fin 1)) = rowVar (rectified (fun c => val_main_v147 (F := Ideal) x0 x1 x2 x3 x4 x5 (ix2 p c)) (fun c => val_main_v133 (F := Ideal) x2 (ix1 c))) := by
  have e : idx_main_v164 (ix2 p (0 : Fin 1)) = ix1 p :=
    funext fun a => Fin.ext (by match a with | ⟨0, _⟩ => rfl)
  rewrite [val_main_v166_apply, val_main_v164_apply, e, sqSum_3, val_main_v165_apply, val_main_cst_28_apply]
  rfl

/-- Entry `(p, q)` of the third layer's output: the rectified row `p`, normalized, scaled and shifted, at `q`. -/
theorem layer_3 (p : Fin 100000) (q : Fin 128) :
    val_main_v179 (F := Ideal) x0 x1 x2 x3 x4 x5 (ix2 p q)
      = layerEntry (val_main_v147 (F := Ideal) x0 x1 x2 x3 x4 x5) (fun k => val_main_v133 (F := Ideal) x2 (ix1 k))
          (fun k => val_main_v153 (F := Ideal) x3 (ix1 k)) (fun k => val_main_v155 (F := Ideal) x4 (ix1 k)) p q := by
  have e67 : idx_main_v167 (ix2 p q) = ix2 p (0 : Fin 1) :=
    funext fun a => Fin.ext (by match a with | ⟨0, _⟩ => rfl | ⟨1, _⟩ => rfl)
  have e72 : idx_main_v172 (ix2 p q) = ix2 p (0 : Fin 1) :=
    funext fun a => Fin.ext (by match a with | ⟨0, _⟩ => rfl | ⟨1, _⟩ => rfl)
  rewrite [val_main_v179_apply, val_main_v176_apply, val_main_v173_apply, val_main_v168_apply, val_main_v167_apply, e67,
    mean_3, rectified_3, val_main_v172_apply, e72, val_main_v171_apply, val_main_v170_apply, var_3, val_main_v169_apply,
    val_main_cst_29_apply, scale_3, shift_3]
  rfl

/-! ## The fourth layer -/

/-- The fourth layer's product: entry `(p, q)` is the sum over `k` of the input's `(p, k)` times the weight's `(k, q)`. -/
theorem product_4 (p : Fin 100000) (q : Fin 128) :
    val_main_v184 (F := Ideal) x0 x1 x2 x3 x4 x5 (ix2 p q) = productEntry (val_main_v179 (F := Ideal) x0 x1 x2 x3 x4 x5) (val_main_v181 (F := Ideal) x1) p q := by
  unfold productEntry
  rewrite [val_main_v184_apply]
  refine Finset.sum_congr rfl fun k _ => ?_
  have el : lidx_main_v184 (ix2 p q) k = ix2 p k :=
    funext fun a => Fin.ext (by match a with | ⟨0, _⟩ => rfl | ⟨1, _⟩ => rfl)
  have er : ridx_main_v184 (ix2 p q) k = ix2 k q :=
    funext fun a => Fin.ext (by match a with | ⟨0, _⟩ => rfl | ⟨1, _⟩ => rfl)
  rw [el, er]

/-- The bias vector, laid out as one row and repeated down the rows, holds its entry `k` at `(p, k)`. -/
theorem bias_4 (p : Fin 100000) (k : Fin 128) :
    val_main_v199 (F := Ideal) x2 (ix2 p k) = val_main_v183 (F := Ideal) x2 (ix1 k) := by
  have e : idx_main_v198 (idx_main_v199 (ix2 p k)) = ix1 k :=
    funext fun a => Fin.ext (by match a with | ⟨0, _⟩ => rfl)
  rw [val_main_v199_apply, val_main_v198_apply, e]

/-- The scale vector likewise. -/
theorem scale_4 (p : Fin 100000) (k : Fin 128) :
    val_main_v225 (F := Ideal) x3 (ix2 p k) = val_main_v203 (F := Ideal) x3 (ix1 k) := by
  have e : idx_main_v224 (idx_main_v225 (ix2 p k)) = ix1 k :=
    funext fun a => Fin.ext (by match a with | ⟨0, _⟩ => rfl)
  rw [val_main_v225_apply, val_main_v224_apply, e]

/-- The shift vector likewise. -/
theorem shift_4 (p : Fin 100000) (k : Fin 128) :
    val_main_v228 (F := Ideal) x4 (ix2 p k) = val_main_v205 (F := Ideal) x4 (ix1 k) := by
  have e : idx_main_v227 (idx_main_v228 (ix2 p k)) = ix1 k :=
    funext fun a => Fin.ext (by match a with | ⟨0, _⟩ => rfl)
  rw [val_main_v228_apply, val_main_v227_apply, e]

/-- Entry `k` of row `p` after the bias and the rectifier: `max (a k + b k) 0`. -/
theorem rectified_4 (p : Fin 100000) (k : Fin 128) :
    val_main_v201 (F := Ideal) x0 x1 x2 x3 x4 x5 (ix2 p k) = rectified (fun c => val_main_v197 (F := Ideal) x0 x1 x2 x3 x4 x5 (ix2 p c)) (fun c => val_main_v183 (F := Ideal) x2 (ix1 c)) k := by
  rewrite [val_main_v201_apply, val_main_v200_apply, bias_4, val_main_call4_v0_apply, val_main_call4_cst_apply]
  rfl

/-- The sum of the rectified row `p`. The sum starts from the zero word, which is the real number zero. -/
theorem rowSum_4 (p : Fin 100000) :
    val_main_v206 (F := Ideal) x0 x1 x2 x3 x4 x5 (ix1 p) = ∑ k : Fin 128, rectified (fun c => val_main_v197 (F := Ideal) x0 x1 x2 x3 x4 x5 (ix2 p c)) (fun c => val_main_v183 (F := Ideal) x2 (ix1 c)) k := by
  have e : ∀ k : Fin 128, idx_main_v206 (ix1 p) k = ix2 p k := fun k =>
    funext fun a => Fin.ext (by match a with | ⟨0, _⟩ => rfl | ⟨1, _⟩ => rfl)
  rewrite [val_main_v206_apply, val_main_cst_33_apply, Ideal.ofBits_def, Ideal.ofBits_zero_f32, zero_add]
  exact Finset.sum_congr rfl fun k _ => by rw [e k, rectified_4]

/-- The mean of the rectified row `p`, held in a one-column array at `(p, 0)`. -/
theorem mean_4 (p : Fin 100000) :
    val_main_v209 (F := Ideal) x0 x1 x2 x3 x4 x5 (ix2 p (0 : Fin 1)) = rowMean (rectified (fun c => val_main_v197 (F := Ideal) x0 x1 x2 x3 x4 x5 (ix2 p c)) (fun c => val_main_v183 (F := Ideal) x2 (ix1 c))) := by
  have e : idx_main_v207 (ix2 p (0 : Fin 1)) = ix1 p :=
    funext fun a => Fin.ext (by match a with | ⟨0, _⟩ => rfl)
  rewrite [val_main_v209_apply, val_main_v207_apply, e, rowSum_4, val_main_v208_apply, val_main_cst_34_apply]
  rfl

/-- Entry `k` of the rectified row `p` minus the row's mean, as the variance reads it. -/
theorem centered_4 (p : Fin 100000) (k : Fin 128) :
    val_main_v211 (F := Ideal) x0 x1 x2 x3 x4 x5 (ix2 p k) = rectified (fun c => val_main_v197 (F := Ideal) x0 x1 x2 x3 x4 x5 (ix2 p c)) (fun c => val_main_v183 (F := Ideal) x2 (ix1 c)) k - rowMean (rectified (fun c => val_main_v197 (F := Ideal) x0 x1 x2 x3 x4 x5 (ix2 p c)) (fun c => val_main_v183 (F := Ideal) x2 (ix1 c))) := by
  have e : idx_main_v210 (ix2 p k) = ix2 p (0 : Fin 1) :=
    funext fun a => Fin.ext (by match a with | ⟨0, _⟩ => rfl | ⟨1, _⟩ => rfl)
  rewrite [val_main_v211_apply, val_main_v210_apply, e, mean_4, rectified_4]
  rfl

/-- The sum of the squared deviations of row `p` from its mean. -/
theorem sqSum_4 (p : Fin 100000) :
    val_main_v213 (F := Ideal) x0 x1 x2 x3 x4 x5 (ix1 p)
      = ∑ k : Fin 128, (rectified (fun c => val_main_v197 (F := Ideal) x0 x1 x2 x3 x4 x5 (ix2 p c)) (fun c => val_main_v183 (F := Ideal) x2 (ix1 c)) k - rowMean (rectified (fun c => val_main_v197 (F := Ideal) x0 x1 x2 x3 x4 x5 (ix2 p c)) (fun c => val_main_v183 (F := Ideal) x2 (ix1 c)))) * (rectified (fun c => val_main_v197 (F := Ideal) x0 x1 x2 x3 x4 x5 (ix2 p c)) (fun c => val_main_v183 (F := Ideal) x2 (ix1 c)) k - rowMean (rectified (fun c => val_main_v197 (F := Ideal) x0 x1 x2 x3 x4 x5 (ix2 p c)) (fun c => val_main_v183 (F := Ideal) x2 (ix1 c)))) := by
  have e : ∀ k : Fin 128, idx_main_v213 (ix1 p) k = ix2 p k := fun k =>
    funext fun a => Fin.ext (by match a with | ⟨0, _⟩ => rfl | ⟨1, _⟩ => rfl)
  rewrite [val_main_v213_apply, val_main_cst_35_apply, Ideal.ofBits_def, Ideal.ofBits_zero_f32, zero_add]
  refine Finset.sum_congr rfl fun k _ => ?_
  rewrite [e k, val_main_v212_apply, centered_4]
  rfl

/-- The mean squared deviation of row `p`, held in a one-column array at `(p, 0)`. -/
theorem var_4 (p : Fin 100000) :
    val_main_v216 (F := Ideal) x0 x1 x2 x3 x4 x5 (ix2 p (0 : Fin 1)) = rowVar (rectified (fun c => val_main_v197 (F := Ideal) x0 x1 x2 x3 x4 x5 (ix2 p c)) (fun c => val_main_v183 (F := Ideal) x2 (ix1 c))) := by
  have e : idx_main_v214 (ix2 p (0 : Fin 1)) = ix1 p :=
    funext fun a => Fin.ext (by match a with | ⟨0, _⟩ => rfl)
  rewrite [val_main_v216_apply, val_main_v214_apply, e, sqSum_4, val_main_v215_apply, val_main_cst_36_apply]
  rfl

/-- Entry `(p, q)` of the fourth layer's output: the rectified row `p`, normalized, scaled and shifted, at `q`. -/
theorem layer_4 (p : Fin 100000) (q : Fin 128) :
    val_main_v229 (F := Ideal) x0 x1 x2 x3 x4 x5 (ix2 p q)
      = layerEntry (val_main_v197 (F := Ideal) x0 x1 x2 x3 x4 x5) (fun k => val_main_v183 (F := Ideal) x2 (ix1 k))
          (fun k => val_main_v203 (F := Ideal) x3 (ix1 k)) (fun k => val_main_v205 (F := Ideal) x4 (ix1 k)) p q := by
  have e67 : idx_main_v217 (ix2 p q) = ix2 p (0 : Fin 1) :=
    funext fun a => Fin.ext (by match a with | ⟨0, _⟩ => rfl | ⟨1, _⟩ => rfl)
  have e72 : idx_main_v222 (ix2 p q) = ix2 p (0 : Fin 1) :=
    funext fun a => Fin.ext (by match a with | ⟨0, _⟩ => rfl | ⟨1, _⟩ => rfl)
  rewrite [val_main_v229_apply, val_main_v226_apply, val_main_v223_apply, val_main_v218_apply, val_main_v217_apply, e67,
    mean_4, rectified_4, val_main_v222_apply, e72, val_main_v221_apply, val_main_v220_apply, var_4, val_main_v219_apply,
    val_main_cst_37_apply, scale_4, shift_4]
  rfl

end Cert.ReferenceIdeal.Layers

end
-- ==== Proof.LibRowCast.lean ====
/-
  A vector recast as a one-row matrix, read at an entry.

  Recasting a vector of `n` entries to the shape `[1, n]` moves no entry: the one row's entry `k` is the
  vector's entry `k` (both sit at row-major position `k`).  Any length, any element type.
-/
import Idealize.ShloMosaic.Lib.ValueIdx
import Idealize.ShloMosaic.Lib.Pipeline.Value

noncomputable section

namespace Cert.Lib.RowCast

open Idealize.ShloMosaic Idealize.ShloMosaic.ValueIdx

/-- An `[n]` array cast to `[1, n]` reads, at `(0, k)`, the operand at `k`. -/
theorem shapeCast_n_1n_apply {α : Type} {n : ℕ} (x : (⟨1, ![n]⟩ : Shape).Idx → α)
    (h : (⟨1, ![n]⟩ : Shape).ShapeCasts ⟨2, ![1, n]⟩) (k : Fin n) :
    shapeCast ⟨2, ![1, n]⟩ x h (ix2 (0 : Fin 1) k) = x (ix1 k) :=
  shapeCast_apply x h _ _ (by
    rw [Shape.rowMajor_val_one, Shape.rowMajor_val_two]
    show k.val = 0 * n + k.val
    omega)

end Cert.Lib.RowCast

end
-- ==== Proof.KernelChain.lean ====
/-
  The idealized kernel program's result is the reference's last stage.

  Boundary by boundary through the program's eighteen segments, at the ideal instance.  At the first launch's
  entry the node features are the argument and the two index vectors, the edge weights and the first weight
  matrix are the reference's stages of the arguments.  Then, layer by layer: the product launch's output array
  is the stage of the reference's matrix product (both are, entry by entry, the sum over the contracted axis);
  the host stretch after it gathers, scales and scatter-adds with the SAME operations as the reference, so its
  result is the reference's aggregation stage, and it recasts the layer's three parameter rows; the normalizing
  launch's output array is the stage of the reference's layer output (both are, entry by entry, the rectified,
  normalized, scaled and shifted row).  The buffers written before the first launch pass through every later
  segment untouched.  After the fourth layer the result buffer holds the reference's last stage.
-/
import proofs.«175188_j21217138442428_1_alg».proof.Proof.Gen.KernelIdeal.Frame
import proofs.«175188_j21217138442428_1_alg».proof.Proof.Carried
import proofs.«175188_j21217138442428_1_alg».proof.Proof.EntryValues
import proofs.«175188_j21217138442428_1_alg».proof.Proof.Blocks
import proofs.«175188_j21217138442428_1_alg».proof.Proof.BlocksProducts
import proofs.«175188_j21217138442428_1_alg».proof.Proof.BlocksLayers
import proofs.«175188_j21217138442428_1_alg».proof.Proof.RefReadP
import proofs.«175188_j21217138442428_1_alg».proof.Proof.RefLayers
import proofs.«175188_j21217138442428_1_alg».proof.Proof.LayerSpec
import proofs.«175188_j21217138442428_1_alg».proof.Proof.LibRowCast
import Idealize.ShloMosaic.Lib.StableHlo.Run
import Idealize.ShloMosaic.Lib.ValueIdx

set_option maxRecDepth 16384

noncomputable section

namespace Cert.KernelIdeal.Chain

open Cert.KernelIdeal Cert.KernelIdeal.Gen
open Idealize.ShloMosaic Idealize.ShloMosaic.TcCoe Idealize.ShloMosaic.StableHlo Idealize.ShloMosaic.ValueIdx Idealize.SL.Sem
open Cert.ReferenceIdeal.ReadP (val_main_v5 val_main_v6 val_main_v29 val_main_v31 val_main_v34 val_main_v47 val_main_v33 val_main_v53 val_main_v55 val_main_v79 val_main_v81 val_main_v84 val_main_v97 val_main_v83 val_main_v103 val_main_v105 val_main_v129 val_main_v131 val_main_v134 val_main_v147 val_main_v133 val_main_v153 val_main_v155 val_main_v179 val_main_v181 val_main_v184 val_main_v197 val_main_v183 val_main_v203 val_main_v205 val_main_v229)
open Cert.Gcn (layerEntry productEntry)

/-- Two arrays of rank two are equal when they agree at every pair of coordinates. -/
theorem funext_ix2 {α : Type} {a b : Nat} {f g : (⟨2, ![a, b]⟩ : Shape).Idx → α}
    (h : ∀ (p : Fin a) (q : Fin b), f (ix2 p q) = g (ix2 p q)) : f = g :=
  funext fun i => (congrArg f (eq_ix2 i)).trans ((h (i 0) (i 1)).trans (congrArg g (eq_ix2 i)).symm)

theorem productEntry_congr {n : Nat} {h h' : (⟨2, ![n, 128]⟩ : Shape).Idx → EReal} {w w' : (⟨2, ![128, 128]⟩ : Shape).Idx → EReal}
    (eh : h = h') (ew : w = w') (p : Fin n) (q : Fin 128) : productEntry h w p q = productEntry h' w' p q := by
  rw [eh, ew]

theorem layerEntry_congr {n : Nat} {a a' : (⟨2, ![n, 128]⟩ : Shape).Idx → EReal} {b b' g g' β β' : Fin 128 → EReal}
    (ea : a = a') (eb : b = b') (eg : g = g') (eβ : β = β') (p : Fin n) (q : Fin 128) :
    layerEntry a b g β p q = layerEntry a' b' g' β' p q := by
  rw [ea, eb, eg, eβ]

variable (m : (ℓ : Loc nD τ sig) → Buf (Elt Ideal) ℓ) (ρ : Dev nD → PrngReg) (c : Dev nD)

/-! ## Layer 1 -/

theorem feat1 : W3 m ρ c (Proc.devRef .tc main_arg0) = (m ((c.tc : Thread nD τ).loc main_arg0)) := Entry.at3_arg0 m ρ c
theorem weight1 : W3 m ρ c (Proc.devRef .tc main_v31) = val_main_v31 (F := Ideal) (m ((c.tc : Thread nD τ).loc main_arg1)) := Entry.at3_v31 m ρ c

/-- The product launch leaves the stage of the reference's matrix product. -/
theorem product1 : W4 m ρ c (Proc.devRef .tc main_v32) = val_main_v34 (F := Ideal) (m ((c.tc : Thread nD τ).loc main_arg0)) (m ((c.tc : Thread nD τ).loc main_arg1)) := by
  refine (W4_arr m ρ c 2).trans ?_
  rw [Blocks.final0 (V3 m ρ) c]
  refine funext_ix2 fun p q => ?_
  exact (productEntry_congr (feat1 m ρ c) (weight1 m ρ c) p q).trans
    (Cert.ReferenceIdeal.Layers.product_1 (m ((c.tc : Thread nD τ).loc main_arg0)) (m ((c.tc : Thread nD τ).loc main_arg1)) p q).symm

set_option maxHeartbeats 4000000 in
/-- The host stretch after it gathers, scales and scatter-adds as the reference does. -/
theorem aggregated1 : W5 m ρ c (Proc.devRef .tc main_v45) = val_main_v47 (F := Ideal) (m ((c.tc : Thread nD τ).loc main_arg0)) (m ((c.tc : Thread nD τ).loc main_arg1)) (m ((c.tc : Thread nD τ).loc main_arg5)) := by
  have hp := product1 m ρ c
  have hs := ((Carried.at4_main_v5 m ρ c).trans (Entry.at3_v5 m ρ c))
  have ht := ((Carried.at4_main_v6 m ρ c).trans (Entry.at3_v6 m ρ c))
  have hw := ((Carried.at4_main_v29 m ρ c).trans (Entry.at3_v29 m ρ c))
  show StableHlo.after hostOps1 (W4 m ρ c) (Proc.devRef .tc main_v45) = _
  after_results
  rw [hp, hs, ht, hw]; rfl

theorem bias1 : (fun k : Fin 128 => W5 m ρ c (Proc.devRef .tc main_v52) (ix2 (0 : Fin 1) k)) = fun k => val_main_v33 (F := Ideal) (m ((c.tc : Thread nD τ).loc main_arg2)) (ix1 k) := by
  have ha := ((Carried.at4_main_arg2 m ρ c).trans (Entry.at3_arg2 m ρ c))
  have e : W5 m ρ c (Proc.devRef .tc main_v52) = shapeCast S1x128 (val_main_v33 (F := Ideal) (m ((c.tc : Thread nD τ).loc main_arg2))) shapeCasts_S128_S1x128 := by
    show StableHlo.after hostOps1 (W4 m ρ c) (Proc.devRef .tc main_v52) = _
    after_results
    rw [ha]; rfl
  funext k
  rw [e]
  exact Cert.Lib.RowCast.shapeCast_n_1n_apply _ _ k

theorem scale1 : (fun k : Fin 128 => W5 m ρ c (Proc.devRef .tc main_v53) (ix2 (0 : Fin 1) k)) = fun k => val_main_v53 (F := Ideal) (m ((c.tc : Thread nD τ).loc main_arg3)) (ix1 k) := by
  have ha := ((Carried.at4_main_arg3 m ρ c).trans (Entry.at3_arg3 m ρ c))
  have e : W5 m ρ c (Proc.devRef .tc main_v53) = shapeCast S1x128 (val_main_v53 (F := Ideal) (m ((c.tc : Thread nD τ).loc main_arg3))) shapeCasts_S128_S1x128 := by
    show StableHlo.after hostOps1 (W4 m ρ c) (Proc.devRef .tc main_v53) = _
    after_results
    rw [ha]; rfl
  funext k
  rw [e]
  exact Cert.Lib.RowCast.shapeCast_n_1n_apply _ _ k

theorem shift1 : (fun k : Fin 128 => W5 m ρ c (Proc.devRef .tc main_v54) (ix2 (0 : Fin 1) k)) = fun k => val_main_v55 (F := Ideal) (m ((c.tc : Thread nD τ).loc main_arg4)) (ix1 k) := by
  have ha := ((Carried.at4_main_arg4 m ρ c).trans (Entry.at3_arg4 m ρ c))
  have e : W5 m ρ c (Proc.devRef .tc main_v54) = shapeCast S1x128 (val_main_v55 (F := Ideal) (m ((c.tc : Thread nD τ).loc main_arg4))) shapeCasts_S128_S1x128 := by
    show StableHlo.after hostOps1 (W4 m ρ c) (Proc.devRef .tc main_v54) = _
    after_results
    rw [ha]; rfl
  funext k
  rw [e]
  exact Cert.Lib.RowCast.shapeCast_n_1n_apply _ _ k

/-- The normalizing launch leaves the stage of the reference's layer output. -/
theorem layer1 : W6 m ρ c (Proc.devRef .tc main_v55) = val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W6_arr m ρ c 4).trans ?_
  rw [Blocks.final1 (V5 m ρ) c]
  refine funext_ix2 fun p q => ?_
  exact (layerEntry_congr (aggregated1 m ρ c) (bias1 m ρ c) (scale1 m ρ c) (shift1 m ρ c) p q).trans
    (Cert.ReferenceIdeal.Layers.layer_1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) p q).symm

/-- The short host stretch before the next product launch slices the next weight matrix and leaves the layer's output in place. -/
theorem feat2 : W7 m ρ c (Proc.devRef .tc main_v55) = val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have h := layer1 m ρ c
  show StableHlo.after hostOps2 (W6 m ρ c) (Proc.devRef .tc main_v55) = _
  after_results
  exact h
theorem weight2 : W7 m ρ c (Proc.devRef .tc main_v57) = val_main_v81 (F := Ideal) (m ((c.tc : Thread nD τ).loc main_arg1)) := by
  have ha := ((Carried.at6_main_arg1 m ρ c).trans (Entry.at3_arg1 m ρ c))
  show StableHlo.after hostOps2 (W6 m ρ c) (Proc.devRef .tc main_v57) = _
  after_results
  rw [ha]; rfl

/-! ## Layer 2 -/

/-- The product launch leaves the stage of the reference's matrix product. -/
theorem product2 : W8 m ρ c (Proc.devRef .tc main_v58) = val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W8_arr m ρ c 2).trans ?_
  rw [Blocks.final2 (V7 m ρ) c]
  refine funext_ix2 fun p q => ?_
  exact (productEntry_congr (feat2 m ρ c) (weight2 m ρ c) p q).trans
    (Cert.ReferenceIdeal.Layers.product_2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) p q).symm

set_option maxHeartbeats 4000000 in
/-- The host stretch after it gathers, scales and scatter-adds as the reference does. -/
theorem aggregated2 : W9 m ρ c (Proc.devRef .tc main_v71) = val_main_v97 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have hp := product2 m ρ c
  have hs := ((Carried.at8_main_v5 m ρ c).trans (Entry.at3_v5 m ρ c))
  have ht := ((Carried.at8_main_v6 m ρ c).trans (Entry.at3_v6 m ρ c))
  have hw := ((Carried.at8_main_v29 m ρ c).trans (Entry.at3_v29 m ρ c))
  show StableHlo.after hostOps3 (W8 m ρ c) (Proc.devRef .tc main_v71) = _
  after_results
  rw [hp, hs, ht, hw]; rfl

theorem bias2 : (fun k : Fin 128 => W9 m ρ c (Proc.devRef .tc main_v78) (ix2 (0 : Fin 1) k)) = fun k => val_main_v83 (F := Ideal) (m ((c.tc : Thread nD τ).loc main_arg2)) (ix1 k) := by
  have ha := ((Carried.at8_main_arg2 m ρ c).trans (Entry.at3_arg2 m ρ c))
  have e : W9 m ρ c (Proc.devRef .tc main_v78) = shapeCast S1x128 (val_main_v83 (F := Ideal) (m ((c.tc : Thread nD τ).loc main_arg2))) shapeCasts_S128_S1x128 := by
    show StableHlo.after hostOps3 (W8 m ρ c) (Proc.devRef .tc main_v78) = _
    after_results
    rw [ha]; rfl
  funext k
  rw [e]
  exact Cert.Lib.RowCast.shapeCast_n_1n_apply _ _ k

theorem scale2 : (fun k : Fin 128 => W9 m ρ c (Proc.devRef .tc main_v79) (ix2 (0 : Fin 1) k)) = fun k => val_main_v103 (F := Ideal) (m ((c.tc : Thread nD τ).loc main_arg3)) (ix1 k) := by
  have ha := ((Carried.at8_main_arg3 m ρ c).trans (Entry.at3_arg3 m ρ c))
  have e : W9 m ρ c (Proc.devRef .tc main_v79) = shapeCast S1x128 (val_main_v103 (F := Ideal) (m ((c.tc : Thread nD τ).loc main_arg3))) shapeCasts_S128_S1x128 := by
    show StableHlo.after hostOps3 (W8 m ρ c) (Proc.devRef .tc main_v79) = _
    after_results
    rw [ha]; rfl
  funext k
  rw [e]
  exact Cert.Lib.RowCast.shapeCast_n_1n_apply _ _ k

theorem shift2 : (fun k : Fin 128 => W9 m ρ c (Proc.devRef .tc main_v80) (ix2 (0 : Fin 1) k)) = fun k => val_main_v105 (F := Ideal) (m ((c.tc : Thread nD τ).loc main_arg4)) (ix1 k) := by
  have ha := ((Carried.at8_main_arg4 m ρ c).trans (Entry.at3_arg4 m ρ c))
  have e : W9 m ρ c (Proc.devRef .tc main_v80) = shapeCast S1x128 (val_main_v105 (F := Ideal) (m ((c.tc : Thread nD τ).loc main_arg4))) shapeCasts_S128_S1x128 := by
    show StableHlo.after hostOps3 (W8 m ρ c) (Proc.devRef .tc main_v80) = _
    after_results
    rw [ha]; rfl
  funext k
  rw [e]
  exact Cert.Lib.RowCast.shapeCast_n_1n_apply _ _ k

/-- The normalizing launch leaves the stage of the reference's layer output. -/
theorem layer2 : W10 m ρ c (Proc.devRef .tc main_v81) = val_main_v129 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W10_arr m ρ c 4).trans ?_
  rw [Blocks.final3 (V9 m ρ) c]
  refine funext_ix2 fun p q => ?_
  exact (layerEntry_congr (aggregated2 m ρ c) (bias2 m ρ c) (scale2 m ρ c) (shift2 m ρ c) p q).trans
    (Cert.ReferenceIdeal.Layers.layer_2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) p q).symm

/-- The short host stretch before the next product launch slices the next weight matrix and leaves the layer's output in place. -/
theorem feat3 : W11 m ρ c (Proc.devRef .tc main_v81) = val_main_v129 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have h := layer2 m ρ c
  show StableHlo.after hostOps4 (W10 m ρ c) (Proc.devRef .tc main_v81) = _
  after_results
  exact h
theorem weight3 : W11 m ρ c (Proc.devRef .tc main_v83) = val_main_v131 (F := Ideal) (m ((c.tc : Thread nD τ).loc main_arg1)) := by
  have ha := ((Carried.at10_main_arg1 m ρ c).trans (Entry.at3_arg1 m ρ c))
  show StableHlo.after hostOps4 (W10 m ρ c) (Proc.devRef .tc main_v83) = _
  after_results
  rw [ha]; rfl

/-! ## Layer 3 -/

/-- The product launch leaves the stage of the reference's matrix product. -/
theorem product3 : W12 m ρ c (Proc.devRef .tc main_v84) = val_main_v134 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W12_arr m ρ c 2).trans ?_
  rw [Blocks.final4 (V11 m ρ) c]
  refine funext_ix2 fun p q => ?_
  exact (productEntry_congr (feat3 m ρ c) (weight3 m ρ c) p q).trans
    (Cert.ReferenceIdeal.Layers.product_3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) p q).symm

set_option maxHeartbeats 4000000 in
/-- The host stretch after it gathers, scales and scatter-adds as the reference does. -/
theorem aggregated3 : W13 m ρ c (Proc.devRef .tc main_v97) = val_main_v147 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have hp := product3 m ρ c
  have hs := ((Carried.at12_main_v5 m ρ c).trans (Entry.at3_v5 m ρ c))
  have ht := ((Carried.at12_main_v6 m ρ c).trans (Entry.at3_v6 m ρ c))
  have hw := ((Carried.at12_main_v29 m ρ c).trans (Entry.at3_v29 m ρ c))
  show StableHlo.after hostOps5 (W12 m ρ c) (Proc.devRef .tc main_v97) = _
  after_results
  rw [hp, hs, ht, hw]; rfl

theorem bias3 : (fun k : Fin 128 => W13 m ρ c (Proc.devRef .tc main_v104) (ix2 (0 : Fin 1) k)) = fun k => val_main_v133 (F := Ideal) (m ((c.tc : Thread nD τ).loc main_arg2)) (ix1 k) := by
  have ha := ((Carried.at12_main_arg2 m ρ c).trans (Entry.at3_arg2 m ρ c))
  have e : W13 m ρ c (Proc.devRef .tc main_v104) = shapeCast S1x128 (val_main_v133 (F := Ideal) (m ((c.tc : Thread nD τ).loc main_arg2))) shapeCasts_S128_S1x128 := by
    show StableHlo.after hostOps5 (W12 m ρ c) (Proc.devRef .tc main_v104) = _
    after_results
    rw [ha]; rfl
  funext k
  rw [e]
  exact Cert.Lib.RowCast.shapeCast_n_1n_apply _ _ k

theorem scale3 : (fun k : Fin 128 => W13 m ρ c (Proc.devRef .tc main_v105) (ix2 (0 : Fin 1) k)) = fun k => val_main_v153 (F := Ideal) (m ((c.tc : Thread nD τ).loc main_arg3)) (ix1 k) := by
  have ha := ((Carried.at12_main_arg3 m ρ c).trans (Entry.at3_arg3 m ρ c))
  have e : W13 m ρ c (Proc.devRef .tc main_v105) = shapeCast S1x128 (val_main_v153 (F := Ideal) (m ((c.tc : Thread nD τ).loc main_arg3))) shapeCasts_S128_S1x128 := by
    show StableHlo.after hostOps5 (W12 m ρ c) (Proc.devRef .tc main_v105) = _
    after_results
    rw [ha]; rfl
  funext k
  rw [e]
  exact Cert.Lib.RowCast.shapeCast_n_1n_apply _ _ k

theorem shift3 : (fun k : Fin 128 => W13 m ρ c (Proc.devRef .tc main_v106) (ix2 (0 : Fin 1) k)) = fun k => val_main_v155 (F := Ideal) (m ((c.tc : Thread nD τ).loc main_arg4)) (ix1 k) := by
  have ha := ((Carried.at12_main_arg4 m ρ c).trans (Entry.at3_arg4 m ρ c))
  have e : W13 m ρ c (Proc.devRef .tc main_v106) = shapeCast S1x128 (val_main_v155 (F := Ideal) (m ((c.tc : Thread nD τ).loc main_arg4))) shapeCasts_S128_S1x128 := by
    show StableHlo.after hostOps5 (W12 m ρ c) (Proc.devRef .tc main_v106) = _
    after_results
    rw [ha]; rfl
  funext k
  rw [e]
  exact Cert.Lib.RowCast.shapeCast_n_1n_apply _ _ k

/-- The normalizing launch leaves the stage of the reference's layer output. -/
theorem layer3 : W14 m ρ c (Proc.devRef .tc main_v107) = val_main_v179 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W14_arr m ρ c 4).trans ?_
  rw [Blocks.final5 (V13 m ρ) c]
  refine funext_ix2 fun p q => ?_
  exact (layerEntry_congr (aggregated3 m ρ c) (bias3 m ρ c) (scale3 m ρ c) (shift3 m ρ c) p q).trans
    (Cert.ReferenceIdeal.Layers.layer_3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) p q).symm

/-- The short host stretch before the next product launch slices the next weight matrix and leaves the layer's output in place. -/
theorem feat4 : W15 m ρ c (Proc.devRef .tc main_v107) = val_main_v179 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have h := layer3 m ρ c
  show StableHlo.after hostOps6 (W14 m ρ c) (Proc.devRef .tc main_v107) = _
  after_results
  exact h
theorem weight4 : W15 m ρ c (Proc.devRef .tc main_v109) = val_main_v181 (F := Ideal) (m ((c.tc : Thread nD τ).loc main_arg1)) := by
  have ha := ((Carried.at14_main_arg1 m ρ c).trans (Entry.at3_arg1 m ρ c))
  show StableHlo.after hostOps6 (W14 m ρ c) (Proc.devRef .tc main_v109) = _
  after_results
  rw [ha]; rfl

/-! ## Layer 4 -/

/-- The product launch leaves the stage of the reference's matrix product. -/
theorem product4 : W16 m ρ c (Proc.devRef .tc main_v110) = val_main_v184 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W16_arr m ρ c 2).trans ?_
  rw [Blocks.final6 (V15 m ρ) c]
  refine funext_ix2 fun p q => ?_
  exact (productEntry_congr (feat4 m ρ c) (weight4 m ρ c) p q).trans
    (Cert.ReferenceIdeal.Layers.product_4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) p q).symm

set_option maxHeartbeats 4000000 in
/-- The host stretch after it gathers, scales and scatter-adds as the reference does. -/
theorem aggregated4 : W17 m ρ c (Proc.devRef .tc main_v123) = val_main_v197 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have hp := product4 m ρ c
  have hs := ((Carried.at16_main_v5 m ρ c).trans (Entry.at3_v5 m ρ c))
  have ht := ((Carried.at16_main_v6 m ρ c).trans (Entry.at3_v6 m ρ c))
  have hw := ((Carried.at16_main_v29 m ρ c).trans (Entry.at3_v29 m ρ c))
  show StableHlo.after hostOps7 (W16 m ρ c) (Proc.devRef .tc main_v123) = _
  after_results
  rw [hp, hs, ht, hw]; rfl

theorem bias4 : (fun k : Fin 128 => W17 m ρ c (Proc.devRef .tc main_v130) (ix2 (0 : Fin 1) k)) = fun k => val_main_v183 (F := Ideal) (m ((c.tc : Thread nD τ).loc main_arg2)) (ix1 k) := by
  have ha := ((Carried.at16_main_arg2 m ρ c).trans (Entry.at3_arg2 m ρ c))
  have e : W17 m ρ c (Proc.devRef .tc main_v130) = shapeCast S1x128 (val_main_v183 (F := Ideal) (m ((c.tc : Thread nD τ).loc main_arg2))) shapeCasts_S128_S1x128 := by
    show StableHlo.after hostOps7 (W16 m ρ c) (Proc.devRef .tc main_v130) = _
    after_results
    rw [ha]; rfl
  funext k
  rw [e]
  exact Cert.Lib.RowCast.shapeCast_n_1n_apply _ _ k

theorem scale4 : (fun k : Fin 128 => W17 m ρ c (Proc.devRef .tc main_v131) (ix2 (0 : Fin 1) k)) = fun k => val_main_v203 (F := Ideal) (m ((c.tc : Thread nD τ).loc main_arg3)) (ix1 k) := by
  have ha := ((Carried.at16_main_arg3 m ρ c).trans (Entry.at3_arg3 m ρ c))
  have e : W17 m ρ c (Proc.devRef .tc main_v131) = shapeCast S1x128 (val_main_v203 (F := Ideal) (m ((c.tc : Thread nD τ).loc main_arg3))) shapeCasts_S128_S1x128 := by
    show StableHlo.after hostOps7 (W16 m ρ c) (Proc.devRef .tc main_v131) = _
    after_results
    rw [ha]; rfl
  funext k
  rw [e]
  exact Cert.Lib.RowCast.shapeCast_n_1n_apply _ _ k

theorem shift4 : (fun k : Fin 128 => W17 m ρ c (Proc.devRef .tc main_v132) (ix2 (0 : Fin 1) k)) = fun k => val_main_v205 (F := Ideal) (m ((c.tc : Thread nD τ).loc main_arg4)) (ix1 k) := by
  have ha := ((Carried.at16_main_arg4 m ρ c).trans (Entry.at3_arg4 m ρ c))
  have e : W17 m ρ c (Proc.devRef .tc main_v132) = shapeCast S1x128 (val_main_v205 (F := Ideal) (m ((c.tc : Thread nD τ).loc main_arg4))) shapeCasts_S128_S1x128 := by
    show StableHlo.after hostOps7 (W16 m ρ c) (Proc.devRef .tc main_v132) = _
    after_results
    rw [ha]; rfl
  funext k
  rw [e]
  exact Cert.Lib.RowCast.shapeCast_n_1n_apply _ _ k

/-- The normalizing launch leaves the stage of the reference's layer output. -/
theorem layer4 : W18 m ρ c (Proc.devRef .tc main_v133) = val_main_v229 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W18_arr m ρ c 4).trans ?_
  rw [Blocks.final7 (V17 m ρ) c]
  refine funext_ix2 fun p q => ?_
  exact (layerEntry_congr (aggregated4 m ρ c) (bias4 m ρ c) (scale4 m ρ c) (shift4 m ρ c) p q).trans
    (Cert.ReferenceIdeal.Layers.layer_4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) p q).symm

/-- The result buffer at the last boundary is the reference's last stage of the arguments. -/
theorem result : W18 m ρ c (Proc.devRef .tc main_v133) = val_main_v229 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := layer4 m ρ c

end Cert.KernelIdeal.Chain

end
-- ==== Proof.RefPieces.lean ====
/-
  The reference's line of host operations, cut in fifteen.

  The reference program is one line of 280 host operations (the functions it calls inlined at their call
  sites).  Here the same operations, in the same order and as printed, are listed as fifteen consecutive pieces, cut
  where a value is about to be used several times and around each inlined call (the selection of the node
  weights, each layer's rectifier): in each layer before the rectifier, after it, and after the layer's output.  That the fifteen
  pieces in order are the line itself is checked, not assumed.
-/
import proofs.«175188_j21217138442428_1_alg».proof.Proof.RefOpsP

noncomputable section

namespace Cert.ReferenceIdeal.RefRun

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- From the edge list to each node's count of incoming edges: the two index vectors with the self-loops appended, the counts, their positivity and their reciprocal square roots. -/
abbrev pieceA1 : List (HloOp τ sig (Elt F)) :=
  [ unary main_arg5 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg5 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_v4 (iotaInDim S100000 32 0),
    binary main_v1 main_v4 main_v5 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    binary main_v3 main_v4 main_v6 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    nullary main_cst (constant S_ .f32 0x3F800000#32),
    unary main_cst main_v7 (broadcastInDim S700000 ![] bcast_S_S700000 : (⟨S_, .f32⟩ : BufTy).Contents (Elt F) → (⟨S700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S700000x1 ![0] bcast_S700000_S700000x1_0 : (⟨S700000, .i32⟩ : BufTy).Contents (Elt F) → (⟨S700000x1, .i32⟩ : BufTy).Contents (Elt F)),
    ternary main_v8 main_v9 main_v7 main_v10 ((fun x i u => Host.scatterAdd scatter_S100000_S700000x1_S700000_n_0_0_1 x i u) : (⟨S100000, .f32⟩ : BufTy).Contents (Elt F) → (⟨S700000x1, .i32⟩ : BufTy).Contents (Elt F) → (⟨S700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- The node weights: the reciprocal square root where the count is positive, zero elsewhere (the inlined selection). -/
abbrev pieceAw : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- The edge weights: the node weight of each edge's source times that of its target. -/
abbrev pieceA2 : List (HloOp τ sig (Elt F)) :=
  [ nullary main_c (constantI S_ 32 0#32),
    unary main_c main_v15 (broadcastInDim S700000 ![] bcast_S_S700000 : (⟨S_, .i32⟩ : BufTy).Contents (Elt F) → (⟨S700000, .i32⟩ : BufTy).Contents (Elt F)),
    binary main_v5 main_v15 main_v16 (cmpi .slt : (⟨S700000, .i32⟩ : BufTy).Contents (Elt F) → (⟨S700000, .i32⟩ : BufTy).Contents (Elt F) → (⟨S700000, .i1⟩ : BufTy).Contents (Elt F)),
    nullary main_c_3 (constantI S_ 32 100000#32),
    unary main_c_3 main_v17 (broadcastInDim S700000 ![] bcast_S_S700000 : (⟨S_, .i32⟩ : BufTy).Contents (Elt F) → (⟨S700000, .i32⟩ : BufTy).Contents (Elt F)),
    binary main_v5 main_v17 main_v18 (addi : (⟨S700000, .i32⟩ : BufTy).Contents (Elt F) → (⟨S700000, .i32⟩ : BufTy).Contents (Elt F) → (⟨S700000, .i32⟩ : BufTy).Contents (Elt F)),
    ternary main_v16 main_v18 main_v5 main_v19 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v19 main_v20 (broadcastInDim S700000x1 ![0] bcast_S700000_S700000x1_0 : (⟨S700000, .i32⟩ : BufTy).Contents (Elt F) → (⟨S700000x1, .i32⟩ : BufTy).Contents (Elt F)),
    binary main_v14 main_v20 main_v21 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    nullary main_c_4 (constantI S_ 32 0#32),
    unary main_c_4 main_v22 (broadcastInDim S700000 ![] bcast_S_S700000 : (⟨S_, .i32⟩ : BufTy).Contents (Elt F) → (⟨S700000, .i32⟩ : BufTy).Contents (Elt F)),
    binary main_v6 main_v22 main_v23 (cmpi .slt : (⟨S700000, .i32⟩ : BufTy).Contents (Elt F) → (⟨S700000, .i32⟩ : BufTy).Contents (Elt F) → (⟨S700000, .i1⟩ : BufTy).Contents (Elt F)),
    nullary main_c_5 (constantI S_ 32 100000#32),
    unary main_c_5 main_v24 (broadcastInDim S700000 ![] bcast_S_S700000 : (⟨S_, .i32⟩ : BufTy).Contents (Elt F) → (⟨S700000, .i32⟩ : BufTy).Contents (Elt F)),
    binary main_v6 main_v24 main_v25 (addi : (⟨S700000, .i32⟩ : BufTy).Contents (Elt F) → (⟨S700000, .i32⟩ : BufTy).Contents (Elt F) → (⟨S700000, .i32⟩ : BufTy).Contents (Elt F)),
    ternary main_v23 main_v25 main_v6 main_v26 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v26 main_v27 (broadcastInDim S700000x1 ![0] bcast_S700000_S700000x1_0 : (⟨S700000, .i32⟩ : BufTy).Contents (Elt F) → (⟨S700000x1, .i32⟩ : BufTy).Contents (Elt F)),
    binary main_v14 main_v27 main_v28 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    binary main_v21 main_v28 main_v29 (mulf : (⟨S700000, .f32⟩ : BufTy).Contents (Elt F) → (⟨S700000, .f32⟩ : BufTy).Contents (Elt F) → (⟨S700000, .f32⟩ : BufTy).Contents (Elt F)) ]

/-- Layer 1: the product with the layer's weight matrix, the gather, scaling and scatter-add over the edges, the bias. -/
abbrev pieceL1a : List (HloOp τ sig (Elt F)) :=
  [ unary main_arg1 main_v30 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v30 main_v31 rfl shapeCasts_S1x128x128_S128x128,
    unary main_arg2 main_v32 ((extractStridedSlice S1x128 ![0, 0] · slices_S4x128_S1x128_0_0) : (⟨S4x128, .f32⟩ : BufTy).Contents (Elt F) → (⟨S1x128, .f32⟩ : BufTy).Contents (Elt F)),
    reshape main_v32 main_v33 rfl shapeCasts_S1x128_S128,
    binary main_arg0 main_v31 main_v34 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v35 (broadcastInDim S700000 ![] bcast_S_S700000 : (⟨S_, .i32⟩ : BufTy).Contents (Elt F) → (⟨S700000, .i32⟩ : BufTy).Contents (Elt F)),
    binary main_v5 main_v35 main_v36 (cmpi .slt : (⟨S700000, .i32⟩ : BufTy).Contents (Elt F) → (⟨S700000, .i32⟩ : BufTy).Contents (Elt F) → (⟨S700000, .i1⟩ : BufTy).Contents (Elt F)),
    nullary main_c_7 (constantI S_ 32 100000#32),
    unary main_c_7 main_v37 (broadcastInDim S700000 ![] bcast_S_S700000 : (⟨S_, .i32⟩ : BufTy).Contents (Elt F) → (⟨S700000, .i32⟩ : BufTy).Contents (Elt F)),
    binary main_v5 main_v37 main_v38 (addi : (⟨S700000, .i32⟩ : BufTy).Contents (Elt F) → (⟨S700000, .i32⟩ : BufTy).Contents (Elt F) → (⟨S700000, .i32⟩ : BufTy).Contents (Elt F)),
    ternary main_v36 main_v38 main_v5 main_v39 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v39 main_v40 (broadcastInDim S700000x1 ![0] bcast_S700000_S700000x1_0 : (⟨S700000, .i32⟩ : BufTy).Contents (Elt F) → (⟨S700000x1, .i32⟩ : BufTy).Contents (Elt F)),
    binary main_v34 main_v40 main_v41 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v29 main_v42 (broadcastInDim S700000x1 ![0] bcast_S700000_S700000x1_0 : (⟨S700000, .f32⟩ : BufTy).Contents (Elt F) → (⟨S700000x1, .f32⟩ : BufTy).Contents (Elt F)),
    unary main_v42 main_v43 (broadcastInDim S700000x128 ![0, 1] bcast_S700000x1_S700000x128_0_1 : (⟨S700000x1, .f32⟩ : BufTy).Contents (Elt F) → (⟨S700000x128, .f32⟩ : BufTy).Contents (Elt F)),
    binary main_v41 main_v43 main_v44 (mulf : (⟨S700000x128, .f32⟩ : BufTy).Contents (Elt F) → (⟨S700000x128, .f32⟩ : BufTy).Contents (Elt F) → (⟨S700000x128, .f32⟩ : BufTy).Contents (Elt F)),
    nullary main_cst_8 (constant S_ .f32 0x00000000#32),
    unary main_cst_8 main_v45 (broadcastInDim S100000x128 ![] bcast_S_S100000x128 : (⟨S_, .f32⟩ : BufTy).Contents (Elt F) → (⟨S100000x128, .f32⟩ : BufTy).Contents (Elt F)),
    unary main_v6 main_v46 (broadcastInDim S700000x1 ![0] bcast_S700000_S700000x1_0 : (⟨S700000, .i32⟩ : BufTy).Contents (Elt F) → (⟨S700000x1, .i32⟩ : BufTy).Contents (Elt F)),
    ternary main_v45 main_v46 main_v44 main_v47 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)),
    unary main_v33 main_v48 (broadcastInDim S1x128 ![1] bcast_S128_S1x128_1 : (⟨S128, .f32⟩ : BufTy).Contents (Elt F) → (⟨S1x128, .f32⟩ : BufTy).Contents (Elt F)),
    unary main_v48 main_v49 (broadcastInDim S100000x128 ![0, 1] bcast_S1x128_S100000x128_0_1 : (⟨S1x128, .f32⟩ : BufTy).Contents (Elt F) → (⟨S100000x128, .f32⟩ : BufTy).Contents (Elt F)),
    binary main_v47 main_v49 main_v50 (addf : (⟨S100000x128, .f32⟩ : BufTy).Contents (Elt F) → (⟨S100000x128, .f32⟩ : BufTy).Contents (Elt F) → (⟨S100000x128, .f32⟩ : BufTy).Contents (Elt F)) ]

/-- Layer 1: the rectifier (inlined). -/
abbrev pieceL1r : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v50) (TRef.of (T := ⟨S100000x128, .f32⟩) main_call1_v0) (TRef.of (T := ⟨S100000x128, .f32⟩) main_v51) maximumf ]

/-- Layer 1: each row's mean and variance, the normalization, the scale and the shift. -/
abbrev pieceL1b : List (HloOp τ sig (Elt F)) :=
  [ unary main_arg3 main_v52 ((extractStridedSlice S1x128 ![0, 0] · slices_S4x128_S1x128_0_0) : (⟨S4x128, .f32⟩ : BufTy).Contents (Elt F) → (⟨S1x128, .f32⟩ : BufTy).Contents (Elt F)),
    reshape main_v52 main_v53 rfl shapeCasts_S1x128_S128,
    unary main_arg4 main_v54 ((extractStridedSlice S1x128 ![0, 0] · slices_S4x128_S1x128_0_0) : (⟨S4x128, .f32⟩ : BufTy).Contents (Elt F) → (⟨S1x128, .f32⟩ : BufTy).Contents (Elt F)),
    reshape main_v54 main_v55 rfl shapeCasts_S1x128_S128,
    nullary main_cst_9 (constant S_ .f32 0x00000000#32),
    binary main_v51 main_cst_9 main_v56 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v56 main_v57 (broadcastInDim S100000x1 ![0] bcast_S100000_S100000x1_0 : (⟨S100000, .f32⟩ : BufTy).Contents (Elt F) → (⟨S100000x1, .f32⟩ : BufTy).Contents (Elt F)),
    nullary main_cst_10 (constant S_ .f32 0x43000000#32),
    unary main_cst_10 main_v58 (broadcastInDim S100000x1 ![] bcast_S_S100000x1 : (⟨S_, .f32⟩ : BufTy).Contents (Elt F) → (⟨S100000x1, .f32⟩ : BufTy).Contents (Elt F)),
    binary main_v57 main_v58 main_v59 (Host.divf : (⟨S100000x1, .f32⟩ : BufTy).Contents (Elt F) → (⟨S100000x1, .f32⟩ : BufTy).Contents (Elt F) → (⟨S100000x1, .f32⟩ : BufTy).Contents (Elt F)),
    unary main_v59 main_v60 (broadcastInDim S100000x128 ![0, 1] bcast_S100000x1_S100000x128_0_1 : (⟨S100000x1, .f32⟩ : BufTy).Contents (Elt F) → (⟨S100000x128, .f32⟩ : BufTy).Contents (Elt F)),
    binary main_v51 main_v60 main_v61 (subf : (⟨S100000x128, .f32⟩ : BufTy).Contents (Elt F) → (⟨S100000x128, .f32⟩ : BufTy).Contents (Elt F) → (⟨S100000x128, .f32⟩ : BufTy).Contents (Elt F)),
    binary main_v61 main_v61 main_v62 (mulf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x00000000#32),
    binary main_v62 main_cst_11 main_v63 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v63 main_v64 (broadcastInDim S100000x1 ![0] bcast_S100000_S100000x1_0 : (⟨S100000, .f32⟩ : BufTy).Contents (Elt F) → (⟨S100000x1, .f32⟩ : BufTy).Contents (Elt F)),
    nullary main_cst_12 (constant S_ .f32 0x43000000#32),
    unary main_cst_12 main_v65 (broadcastInDim S100000x1 ![] bcast_S_S100000x1 : (⟨S_, .f32⟩ : BufTy).Contents (Elt F) → (⟨S100000x1, .f32⟩ : BufTy).Contents (Elt F)),
    binary main_v64 main_v65 main_v66 (Host.divf : (⟨S100000x1, .f32⟩ : BufTy).Contents (Elt F) → (⟨S100000x1, .f32⟩ : BufTy).Contents (Elt F) → (⟨S100000x1, .f32⟩ : BufTy).Contents (Elt F)),
    unary main_v59 main_v67 (broadcastInDim S100000x128 ![0, 1] bcast_S100000x1_S100000x128_0_1 : (⟨S100000x1, .f32⟩ : BufTy).Contents (Elt F) → (⟨S100000x128, .f32⟩ : BufTy).Contents (Elt F)),
    binary main_v51 main_v67 main_v68 (subf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x3727C5AC#32),
    unary main_cst_13 main_v69 (broadcastInDim S100000x1 ![] bcast_S_S100000x1 : (⟨S_, .f32⟩ : BufTy).Contents (Elt F) → (⟨S100000x1, .f32⟩ : BufTy).Contents (Elt F)),
    binary main_v66 main_v69 main_v70 (addf : (⟨S100000x1, .f32⟩ : BufTy).Contents (Elt F) → (⟨S100000x1, .f32⟩ : BufTy).Contents (Elt F) → (⟨S100000x1, .f32⟩ : BufTy).Contents (Elt F)),
    unary main_v70 main_v71 (Host.rsqrt : (⟨S100000x1, .f32⟩ : BufTy).Contents (Elt F) → (⟨S100000x1, .f32⟩ : BufTy).Contents (Elt F)),
    unary main_v71 main_v72 (broadcastInDim S100000x128 ![0, 1] bcast_S100000x1_S100000x128_0_1 : (⟨S100000x1, .f32⟩ : BufTy).Contents (Elt F) → (⟨S100000x128, .f32⟩ : BufTy).Contents (Elt F)),
    binary main_v68 main_v72 main_v73 (mulf : (⟨S100000x128, .f32⟩ : BufTy).Contents (Elt F) → (⟨S100000x128, .f32⟩ : BufTy).Contents (Elt F) → (⟨S100000x128, .f32⟩ : BufTy).Contents (Elt F)),
    unary main_v53 main_v74 (broadcastInDim S1x128 ![1] bcast_S128_S1x128_1 : (⟨S128, .f32⟩ : BufTy).Contents (Elt F) → (⟨S1x128, .f32⟩ : BufTy).Contents (Elt F)),
    unary main_v74 main_v75 (broadcastInDim S100000x128 ![0, 1] bcast_S1x128_S100000x128_0_1 : (⟨S1x128, .f32⟩ : BufTy).Contents (Elt F) → (⟨S100000x128, .f32⟩ : BufTy).Contents (Elt F)),
    binary main_v73 main_v75 main_v76 (mulf : (⟨S100000x128, .f32⟩ : BufTy).Contents (Elt F) → (⟨S100000x128, .f32⟩ : BufTy).Contents (Elt F) → (⟨S100000x128, .f32⟩ : BufTy).Contents (Elt F)),
    unary main_v55 main_v77 (broadcastInDim S1x128 ![1] bcast_S128_S1x128_1 : (⟨S128, .f32⟩ : BufTy).Contents (Elt F) → (⟨S1x128, .f32⟩ : BufTy).Contents (Elt F)),
    unary main_v77 main_v78 (broadcastInDim S100000x128 ![0, 1] bcast_S1x128_S100000x128_0_1 : (⟨S1x128, .f32⟩ : BufTy).Contents (Elt F) → (⟨S100000x128, .f32⟩ : BufTy).Contents (Elt F)),
    binary main_v76 main_v78 main_v79 (addf : (⟨S100000x128, .f32⟩ : BufTy).Contents (Elt F) → (⟨S100000x128, .f32⟩ : BufTy).Contents (Elt F) → (⟨S100000x128, .f32⟩ : BufTy).Contents (Elt F)) ]

/-- Layer 2: the product with the layer's weight matrix, the gather, scaling and scatter-add over the edges, the bias. -/
abbrev pieceL2a : List (HloOp τ sig (Elt F)) :=
  [ unary main_arg1 main_v80 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v80 main_v81 rfl shapeCasts_S1x128x128_S128x128,
    unary main_arg2 main_v82 ((extractStridedSlice S1x128 ![1, 0] · slices_S4x128_S1x128_1_0) : (⟨S4x128, .f32⟩ : BufTy).Contents (Elt F) → (⟨S1x128, .f32⟩ : BufTy).Contents (Elt F)),
    reshape main_v82 main_v83 rfl shapeCasts_S1x128_S128,
    binary main_v79 main_v81 main_v84 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_14 (constantI S_ 32 0#32),
    unary main_c_14 main_v85 (broadcastInDim S700000 ![] bcast_S_S700000 : (⟨S_, .i32⟩ : BufTy).Contents (Elt F) → (⟨S700000, .i32⟩ : BufTy).Contents (Elt F)),
    binary main_v5 main_v85 main_v86 (cmpi .slt : (⟨S700000, .i32⟩ : BufTy).Contents (Elt F) → (⟨S700000, .i32⟩ : BufTy).Contents (Elt F) → (⟨S700000, .i1⟩ : BufTy).Contents (Elt F)),
    nullary main_c_15 (constantI S_ 32 100000#32),
    unary main_c_15 main_v87 (broadcastInDim S700000 ![] bcast_S_S700000 : (⟨S_, .i32⟩ : BufTy).Contents (Elt F) → (⟨S700000, .i32⟩ : BufTy).Contents (Elt F)),
    binary main_v5 main_v87 main_v88 (addi : (⟨S700000, .i32⟩ : BufTy).Contents (Elt F) → (⟨S700000, .i32⟩ : BufTy).Contents (Elt F) → (⟨S700000, .i32⟩ : BufTy).Contents (Elt F)),
    ternary main_v86 main_v88 main_v5 main_v89 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v89 main_v90 (broadcastInDim S700000x1 ![0] bcast_S700000_S700000x1_0 : (⟨S700000, .i32⟩ : BufTy).Contents (Elt F) → (⟨S700000x1, .i32⟩ : BufTy).Contents (Elt F)),
    binary main_v84 main_v90 main_v91 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v29 main_v92 (broadcastInDim S700000x1 ![0] bcast_S700000_S700000x1_0 : (⟨S700000, .f32⟩ : BufTy).Contents (Elt F) → (⟨S700000x1, .f32⟩ : BufTy).Contents (Elt F)),
    unary main_v92 main_v93 (broadcastInDim S700000x128 ![0, 1] bcast_S700000x1_S700000x128_0_1 : (⟨S700000x1, .f32⟩ : BufTy).Contents (Elt F) → (⟨S700000x128, .f32⟩ : BufTy).Contents (Elt F)),
    binary main_v91 main_v93 main_v94 (mulf : (⟨S700000x128, .f32⟩ : BufTy).Contents (Elt F) → (⟨S700000x128, .f32⟩ : BufTy).Contents (Elt F) → (⟨S700000x128, .f32⟩ : BufTy).Contents (Elt F)),
    nullary main_cst_16 (constant S_ .f32 0x00000000#32),
    unary main_cst_16 main_v95 (broadcastInDim S100000x128 ![] bcast_S_S100000x128 : (⟨S_, .f32⟩ : BufTy).Contents (Elt F) → (⟨S100000x128, .f32⟩ : BufTy).Contents (Elt F)),
    unary main_v6 main_v96 (broadcastInDim S700000x1 ![0] bcast_S700000_S700000x1_0 : (⟨S700000, .i32⟩ : BufTy).Contents (Elt F) → (⟨S700000x1, .i32⟩ : BufTy).Contents (Elt F)),
    ternary main_v95 main_v96 main_v94 main_v97 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)),
    unary main_v83 main_v98 (broadcastInDim S1x128 ![1] bcast_S128_S1x128_1 : (⟨S128, .f32⟩ : BufTy).Contents (Elt F) → (⟨S1x128, .f32⟩ : BufTy).Contents (Elt F)),
    unary main_v98 main_v99 (broadcastInDim S100000x128 ![0, 1] bcast_S1x128_S100000x128_0_1 : (⟨S1x128, .f32⟩ : BufTy).Contents (Elt F) → (⟨S100000x128, .f32⟩ : BufTy).Contents (Elt F)),
    binary main_v97 main_v99 main_v100 (addf : (⟨S100000x128, .f32⟩ : BufTy).Contents (Elt F) → (⟨S100000x128, .f32⟩ : BufTy).Contents (Elt F) → (⟨S100000x128, .f32⟩ : BufTy).Contents (Elt F)) ]

/-- Layer 2: the rectifier (inlined). -/
abbrev pieceL2r : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v100) (TRef.of (T := ⟨S100000x128, .f32⟩) main_call2_v0) (TRef.of (T := ⟨S100000x128, .f32⟩) main_v101) maximumf ]

/-- Layer 2: each row's mean and variance, the normalization, the scale and the shift. -/
abbrev pieceL2b : List (HloOp τ sig (Elt F)) :=
  [ unary main_arg3 main_v102 ((extractStridedSlice S1x128 ![1, 0] · slices_S4x128_S1x128_1_0) : (⟨S4x128, .f32⟩ : BufTy).Contents (Elt F) → (⟨S1x128, .f32⟩ : BufTy).Contents (Elt F)),
    reshape main_v102 main_v103 rfl shapeCasts_S1x128_S128,
    unary main_arg4 main_v104 ((extractStridedSlice S1x128 ![1, 0] · slices_S4x128_S1x128_1_0) : (⟨S4x128, .f32⟩ : BufTy).Contents (Elt F) → (⟨S1x128, .f32⟩ : BufTy).Contents (Elt F)),
    reshape main_v104 main_v105 rfl shapeCasts_S1x128_S128,
    nullary main_cst_17 (constant S_ .f32 0x00000000#32),
    binary main_v101 main_cst_17 main_v106 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v106 main_v107 (broadcastInDim S100000x1 ![0] bcast_S100000_S100000x1_0 : (⟨S100000, .f32⟩ : BufTy).Contents (Elt F) → (⟨S100000x1, .f32⟩ : BufTy).Contents (Elt F)),
    nullary main_cst_18 (constant S_ .f32 0x43000000#32),
    unary main_cst_18 main_v108 (broadcastInDim S100000x1 ![] bcast_S_S100000x1 : (⟨S_, .f32⟩ : BufTy).Contents (Elt F) → (⟨S100000x1, .f32⟩ : BufTy).Contents (Elt F)),
    binary main_v107 main_v108 main_v109 (Host.divf : (⟨S100000x1, .f32⟩ : BufTy).Contents (Elt F) → (⟨S100000x1, .f32⟩ : BufTy).Contents (Elt F) → (⟨S100000x1, .f32⟩ : BufTy).Contents (Elt F)),
    unary main_v109 main_v110 (broadcastInDim S100000x128 ![0, 1] bcast_S100000x1_S100000x128_0_1 : (⟨S100000x1, .f32⟩ : BufTy).Contents (Elt F) → (⟨S100000x128, .f32⟩ : BufTy).Contents (Elt F)),
    binary main_v101 main_v110 main_v111 (subf : (⟨S100000x128, .f32⟩ : BufTy).Contents (Elt F) → (⟨S100000x128, .f32⟩ : BufTy).Contents (Elt F) → (⟨S100000x128, .f32⟩ : BufTy).Contents (Elt F)),
    binary main_v111 main_v111 main_v112 (mulf : (⟨S100000x128, .f32⟩ : BufTy).Contents (Elt F) → (⟨S100000x128, .f32⟩ : BufTy).Contents (Elt F) → (⟨S100000x128, .f32⟩ : BufTy).Contents (Elt F)),
    nullary main_cst_19 (constant S_ .f32 0x00000000#32),
    binary main_v112 main_cst_19 main_v113 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v113 main_v114 (broadcastInDim S100000x1 ![0] bcast_S100000_S100000x1_0 : (⟨S100000, .f32⟩ : BufTy).Contents (Elt F) → (⟨S100000x1, .f32⟩ : BufTy).Contents (Elt F)),
    nullary main_cst_20 (constant S_ .f32 0x43000000#32),
    unary main_cst_20 main_v115 (broadcastInDim S100000x1 ![] bcast_S_S100000x1 : (⟨S_, .f32⟩ : BufTy).Contents (Elt F) → (⟨S100000x1, .f32⟩ : BufTy).Contents (Elt F)),
    binary main_v114 main_v115 main_v116 (Host.divf : (⟨S100000x1, .f32⟩ : BufTy).Contents (Elt F) → (⟨S100000x1, .f32⟩ : BufTy).Contents (Elt F) → (⟨S100000x1, .f32⟩ : BufTy).Contents (Elt F)),
    unary main_v109 main_v117 (broadcastInDim S100000x128 ![0, 1] bcast_S100000x1_S100000x128_0_1 : (⟨S100000x1, .f32⟩ : BufTy).Contents (Elt F) → (⟨S100000x128, .f32⟩ : BufTy).Contents (Elt F)),
    binary main_v101 main_v117 main_v118 (subf : (⟨S100000x128, .f32⟩ : BufTy).Contents (Elt F) → (⟨S100000x128, .f32⟩ : BufTy).Contents (Elt F) → (⟨S100000x128, .f32⟩ : BufTy).Contents (Elt F)),
    nullary main_cst_21 (constant S_ .f32 0x3727C5AC#32),
    unary main_cst_21 main_v119 (broadcastInDim S100000x1 ![] bcast_S_S100000x1 : (⟨S_, .f32⟩ : BufTy).Contents (Elt F) → (⟨S100000x1, .f32⟩ : BufTy).Contents (Elt F)),
    binary main_v116 main_v119 main_v120 (addf : (⟨S100000x1, .f32⟩ : BufTy).Contents (Elt F) → (⟨S100000x1, .f32⟩ : BufTy).Contents (Elt F) → (⟨S100000x1, .f32⟩ : BufTy).Contents (Elt F)),
    unary main_v120 main_v121 (Host.rsqrt : (⟨S100000x1, .f32⟩ : BufTy).Contents (Elt F) → (⟨S100000x1, .f32⟩ : BufTy).Contents (Elt F)),
    unary main_v121 main_v122 (broadcastInDim S100000x128 ![0, 1] bcast_S100000x1_S100000x128_0_1 : (⟨S100000x1, .f32⟩ : BufTy).Contents (Elt F) → (⟨S100000x128, .f32⟩ : BufTy).Contents (Elt F)),
    binary main_v118 main_v122 main_v123 (mulf : (⟨S100000x128, .f32⟩ : BufTy).Contents (Elt F) → (⟨S100000x128, .f32⟩ : BufTy).Contents (Elt F) → (⟨S100000x128, .f32⟩ : BufTy).Contents (Elt F)),
    unary main_v103 main_v124 (broadcastInDim S1x128 ![1] bcast_S128_S1x128_1 : (⟨S128, .f32⟩ : BufTy).Contents (Elt F) → (⟨S1x128, .f32⟩ : BufTy).Contents (Elt F)),
    unary main_v124 main_v125 (broadcastInDim S100000x128 ![0, 1] bcast_S1x128_S100000x128_0_1 : (⟨S1x128, .f32⟩ : BufTy).Contents (Elt F) → (⟨S100000x128, .f32⟩ : BufTy).Contents (Elt F)),
    binary main_v123 main_v125 main_v126 (mulf : (⟨S100000x128, .f32⟩ : BufTy).Contents (Elt F) → (⟨S100000x128, .f32⟩ : BufTy).Contents (Elt F) → (⟨S100000x128, .f32⟩ : BufTy).Contents (Elt F)),
    unary main_v105 main_v127 (broadcastInDim S1x128 ![1] bcast_S128_S1x128_1 : (⟨S128, .f32⟩ : BufTy).Contents (Elt F) → (⟨S1x128, .f32⟩ : BufTy).Contents (Elt F)),
    unary main_v127 main_v128 (broadcastInDim S100000x128 ![0, 1] bcast_S1x128_S100000x128_0_1 : (⟨S1x128, .f32⟩ : BufTy).Contents (Elt F) → (⟨S100000x128, .f32⟩ : BufTy).Contents (Elt F)),
    binary main_v126 main_v128 main_v129 (addf : (⟨S100000x128, .f32⟩ : BufTy).Contents (Elt F) → (⟨S100000x128, .f32⟩ : BufTy).Contents (Elt F) → (⟨S100000x128, .f32⟩ : BufTy).Contents (Elt F)) ]

/-- Layer 3: the product with the layer's weight matrix, the gather, scaling and scatter-add over the edges, the bias. -/
abbrev pieceL3a : List (HloOp τ sig (Elt F)) :=
  [ unary main_arg1 main_v130 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v130 main_v131 rfl shapeCasts_S1x128x128_S128x128,
    unary main_arg2 main_v132 ((extractStridedSlice S1x128 ![2, 0] · slices_S4x128_S1x128_2_0) : (⟨S4x128, .f32⟩ : BufTy).Contents (Elt F) → (⟨S1x128, .f32⟩ : BufTy).Contents (Elt F)),
    reshape main_v132 main_v133 rfl shapeCasts_S1x128_S128,
    binary main_v129 main_v131 main_v134 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_22 (constantI S_ 32 0#32),
    unary main_c_22 main_v135 (broadcastInDim S700000 ![] bcast_S_S700000 : (⟨S_, .i32⟩ : BufTy).Contents (Elt F) → (⟨S700000, .i32⟩ : BufTy).Contents (Elt F)),
    binary main_v5 main_v135 main_v136 (cmpi .slt : (⟨S700000, .i32⟩ : BufTy).Contents (Elt F) → (⟨S700000, .i32⟩ : BufTy).Contents (Elt F) → (⟨S700000, .i1⟩ : BufTy).Contents (Elt F)),
    nullary main_c_23 (constantI S_ 32 100000#32),
    unary main_c_23 main_v137 (broadcastInDim S700000 ![] bcast_S_S700000 : (⟨S_, .i32⟩ : BufTy).Contents (Elt F) → (⟨S700000, .i32⟩ : BufTy).Contents (Elt F)),
    binary main_v5 main_v137 main_v138 (addi : (⟨S700000, .i32⟩ : BufTy).Contents (Elt F) → (⟨S700000, .i32⟩ : BufTy).Contents (Elt F) → (⟨S700000, .i32⟩ : BufTy).Contents (Elt F)),
    ternary main_v136 main_v138 main_v5 main_v139 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v139 main_v140 (broadcastInDim S700000x1 ![0] bcast_S700000_S700000x1_0 : (⟨S700000, .i32⟩ : BufTy).Contents (Elt F) → (⟨S700000x1, .i32⟩ : BufTy).Contents (Elt F)),
    binary main_v134 main_v140 main_v141 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v29 main_v142 (broadcastInDim S700000x1 ![0] bcast_S700000_S700000x1_0 : (⟨S700000, .f32⟩ : BufTy).Contents (Elt F) → (⟨S700000x1, .f32⟩ : BufTy).Contents (Elt F)),
    unary main_v142 main_v143 (broadcastInDim S700000x128 ![0, 1] bcast_S700000x1_S700000x128_0_1 : (⟨S700000x1, .f32⟩ : BufTy).Contents (Elt F) → (⟨S700000x128, .f32⟩ : BufTy).Contents (Elt F)),
    binary main_v141 main_v143 main_v144 (mulf : (⟨S700000x128, .f32⟩ : BufTy).Contents (Elt F) → (⟨S700000x128, .f32⟩ : BufTy).Contents (Elt F) → (⟨S700000x128, .f32⟩ : BufTy).Contents (Elt F)),
    nullary main_cst_24 (constant S_ .f32 0x00000000#32),
    unary main_cst_24 main_v145 (broadcastInDim S100000x128 ![] bcast_S_S100000x128 : (⟨S_, .f32⟩ : BufTy).Contents (Elt F) → (⟨S100000x128, .f32⟩ : BufTy).Contents (Elt F)),
    unary main_v6 main_v146 (broadcastInDim S700000x1 ![0] bcast_S700000_S700000x1_0 : (⟨S700000, .i32⟩ : BufTy).Contents (Elt F) → (⟨S700000x1, .i32⟩ : BufTy).Contents (Elt F)),
    ternary main_v145 main_v146 main_v144 main_v147 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)),
    unary main_v133 main_v148 (broadcastInDim S1x128 ![1] bcast_S128_S1x128_1 : (⟨S128, .f32⟩ : BufTy).Contents (Elt F) → (⟨S1x128, .f32⟩ : BufTy).Contents (Elt F)),
    unary main_v148 main_v149 (broadcastInDim S100000x128 ![0, 1] bcast_S1x128_S100000x128_0_1 : (⟨S1x128, .f32⟩ : BufTy).Contents (Elt F) → (⟨S100000x128, .f32⟩ : BufTy).Contents (Elt F)),
    binary main_v147 main_v149 main_v150 (addf : (⟨S100000x128, .f32⟩ : BufTy).Contents (Elt F) → (⟨S100000x128, .f32⟩ : BufTy).Contents (Elt F) → (⟨S100000x128, .f32⟩ : BufTy).Contents (Elt F)) ]

/-- Layer 3: the rectifier (inlined). -/
abbrev pieceL3r : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v150) (TRef.of (T := ⟨S100000x128, .f32⟩) main_call3_v0) (TRef.of (T := ⟨S100000x128, .f32⟩) main_v151) maximumf ]

/-- Layer 3: each row's mean and variance, the normalization, the scale and the shift. -/
abbrev pieceL3b : List (HloOp τ sig (Elt F)) :=
  [ unary main_arg3 main_v152 ((extractStridedSlice S1x128 ![2, 0] · slices_S4x128_S1x128_2_0) : (⟨S4x128, .f32⟩ : BufTy).Contents (Elt F) → (⟨S1x128, .f32⟩ : BufTy).Contents (Elt F)),
    reshape main_v152 main_v153 rfl shapeCasts_S1x128_S128,
    unary main_arg4 main_v154 ((extractStridedSlice S1x128 ![2, 0] · slices_S4x128_S1x128_2_0) : (⟨S4x128, .f32⟩ : BufTy).Contents (Elt F) → (⟨S1x128, .f32⟩ : BufTy).Contents (Elt F)),
    reshape main_v154 main_v155 rfl shapeCasts_S1x128_S128,
    nullary main_cst_25 (constant S_ .f32 0x00000000#32),
    binary main_v151 main_cst_25 main_v156 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v156 main_v157 (broadcastInDim S100000x1 ![0] bcast_S100000_S100000x1_0 : (⟨S100000, .f32⟩ : BufTy).Contents (Elt F) → (⟨S100000x1, .f32⟩ : BufTy).Contents (Elt F)),
    nullary main_cst_26 (constant S_ .f32 0x43000000#32),
    unary main_cst_26 main_v158 (broadcastInDim S100000x1 ![] bcast_S_S100000x1 : (⟨S_, .f32⟩ : BufTy).Contents (Elt F) → (⟨S100000x1, .f32⟩ : BufTy).Contents (Elt F)),
    binary main_v157 main_v158 main_v159 (Host.divf : (⟨S100000x1, .f32⟩ : BufTy).Contents (Elt F) → (⟨S100000x1, .f32⟩ : BufTy).Contents (Elt F) → (⟨S100000x1, .f32⟩ : BufTy).Contents (Elt F)),
    unary main_v159 main_v160 (broadcastInDim S100000x128 ![0, 1] bcast_S100000x1_S100000x128_0_1 : (⟨S100000x1, .f32⟩ : BufTy).Contents (Elt F) → (⟨S100000x128, .f32⟩ : BufTy).Contents (Elt F)),
    binary main_v151 main_v160 main_v161 (subf : (⟨S100000x128, .f32⟩ : BufTy).Contents (Elt F) → (⟨S100000x128, .f32⟩ : BufTy).Contents (Elt F) → (⟨S100000x128, .f32⟩ : BufTy).Contents (Elt F)),
    binary main_v161 main_v161 main_v162 (mulf : (⟨S100000x128, .f32⟩ : BufTy).Contents (Elt F) → (⟨S100000x128, .f32⟩ : BufTy).Contents (Elt F) → (⟨S100000x128, .f32⟩ : BufTy).Contents (Elt F)),
    nullary main_cst_27 (constant S_ .f32 0x00000000#32),
    binary main_v162 main_cst_27 main_v163 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v163 main_v164 (broadcastInDim S100000x1 ![0] bcast_S100000_S100000x1_0 : (⟨S100000, .f32⟩ : BufTy).Contents (Elt F) → (⟨S100000x1, .f32⟩ : BufTy).Contents (Elt F)),
    nullary main_cst_28 (constant S_ .f32 0x43000000#32),
    unary main_cst_28 main_v165 (broadcastInDim S100000x1 ![] bcast_S_S100000x1 : (⟨S_, .f32⟩ : BufTy).Contents (Elt F) → (⟨S100000x1, .f32⟩ : BufTy).Contents (Elt F)),
    binary main_v164 main_v165 main_v166 (Host.divf : (⟨S100000x1, .f32⟩ : BufTy).Contents (Elt F) → (⟨S100000x1, .f32⟩ : BufTy).Contents (Elt F) → (⟨S100000x1, .f32⟩ : BufTy).Contents (Elt F)),
    unary main_v159 main_v167 (broadcastInDim S100000x128 ![0, 1] bcast_S100000x1_S100000x128_0_1 : (⟨S100000x1, .f32⟩ : BufTy).Contents (Elt F) → (⟨S100000x128, .f32⟩ : BufTy).Contents (Elt F)),
    binary main_v151 main_v167 main_v168 (subf : (⟨S100000x128, .f32⟩ : BufTy).Contents (Elt F) → (⟨S100000x128, .f32⟩ : BufTy).Contents (Elt F) → (⟨S100000x128, .f32⟩ : BufTy).Contents (Elt F)),
    nullary main_cst_29 (constant S_ .f32 0x3727C5AC#32),
    unary main_cst_29 main_v169 (broadcastInDim S100000x1 ![] bcast_S_S100000x1 : (⟨S_, .f32⟩ : BufTy).Contents (Elt F) → (⟨S100000x1, .f32⟩ : BufTy).Contents (Elt F)),
    binary main_v166 main_v169 main_v170 (addf : (⟨S100000x1, .f32⟩ : BufTy).Contents (Elt F) → (⟨S100000x1, .f32⟩ : BufTy).Contents (Elt F) → (⟨S100000x1, .f32⟩ : BufTy).Contents (Elt F)),
    unary main_v170 main_v171 (Host.rsqrt : (⟨S100000x1, .f32⟩ : BufTy).Contents (Elt F) → (⟨S100000x1, .f32⟩ : BufTy).Contents (Elt F)),
    unary main_v171 main_v172 (broadcastInDim S100000x128 ![0, 1] bcast_S100000x1_S100000x128_0_1 : (⟨S100000x1, .f32⟩ : BufTy).Contents (Elt F) → (⟨S100000x128, .f32⟩ : BufTy).Contents (Elt F)),
    binary main_v168 main_v172 main_v173 (mulf : (⟨S100000x128, .f32⟩ : BufTy).Contents (Elt F) → (⟨S100000x128, .f32⟩ : BufTy).Contents (Elt F) → (⟨S100000x128, .f32⟩ : BufTy).Contents (Elt F)),
    unary main_v153 main_v174 (broadcastInDim S1x128 ![1] bcast_S128_S1x128_1 : (⟨S128, .f32⟩ : BufTy).Contents (Elt F) → (⟨S1x128, .f32⟩ : BufTy).Contents (Elt F)),
    unary main_v174 main_v175 (broadcastInDim S100000x128 ![0, 1] bcast_S1x128_S100000x128_0_1 : (⟨S1x128, .f32⟩ : BufTy).Contents (Elt F) → (⟨S100000x128, .f32⟩ : BufTy).Contents (Elt F)),
    binary main_v173 main_v175 main_v176 (mulf : (⟨S100000x128, .f32⟩ : BufTy).Contents (Elt F) → (⟨S100000x128, .f32⟩ : BufTy).Contents (Elt F) → (⟨S100000x128, .f32⟩ : BufTy).Contents (Elt F)),
    unary main_v155 main_v177 (broadcastInDim S1x128 ![1] bcast_S128_S1x128_1 : (⟨S128, .f32⟩ : BufTy).Contents (Elt F) → (⟨S1x128, .f32⟩ : BufTy).Contents (Elt F)),
    unary main_v177 main_v178 (broadcastInDim S100000x128 ![0, 1] bcast_S1x128_S100000x128_0_1 : (⟨S1x128, .f32⟩ : BufTy).Contents (Elt F) → (⟨S100000x128, .f32⟩ : BufTy).Contents (Elt F)),
    binary main_v176 main_v178 main_v179 (addf : (⟨S100000x128, .f32⟩ : BufTy).Contents (Elt F) → (⟨S100000x128, .f32⟩ : BufTy).Contents (Elt F) → (⟨S100000x128, .f32⟩ : BufTy).Contents (Elt F)) ]

/-- Layer 4: the product with the layer's weight matrix, the gather, scaling and scatter-add over the edges, the bias. -/
abbrev pieceL4a : List (HloOp τ sig (Elt F)) :=
  [ unary main_arg1 main_v180 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v180 main_v181 rfl shapeCasts_S1x128x128_S128x128,
    unary main_arg2 main_v182 ((extractStridedSlice S1x128 ![3, 0] · slices_S4x128_S1x128_3_0) : (⟨S4x128, .f32⟩ : BufTy).Contents (Elt F) → (⟨S1x128, .f32⟩ : BufTy).Contents (Elt F)),
    reshape main_v182 main_v183 rfl shapeCasts_S1x128_S128,
    binary main_v179 main_v181 main_v184 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_30 (constantI S_ 32 0#32),
    unary main_c_30 main_v185 (broadcastInDim S700000 ![] bcast_S_S700000 : (⟨S_, .i32⟩ : BufTy).Contents (Elt F) → (⟨S700000, .i32⟩ : BufTy).Contents (Elt F)),
    binary main_v5 main_v185 main_v186 (cmpi .slt : (⟨S700000, .i32⟩ : BufTy).Contents (Elt F) → (⟨S700000, .i32⟩ : BufTy).Contents (Elt F) → (⟨S700000, .i1⟩ : BufTy).Contents (Elt F)),
    nullary main_c_31 (constantI S_ 32 100000#32),
    unary main_c_31 main_v187 (broadcastInDim S700000 ![] bcast_S_S700000 : (⟨S_, .i32⟩ : BufTy).Contents (Elt F) → (⟨S700000, .i32⟩ : BufTy).Contents (Elt F)),
    binary main_v5 main_v187 main_v188 (addi : (⟨S700000, .i32⟩ : BufTy).Contents (Elt F) → (⟨S700000, .i32⟩ : BufTy).Contents (Elt F) → (⟨S700000, .i32⟩ : BufTy).Contents (Elt F)),
    ternary main_v186 main_v188 main_v5 main_v189 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v189 main_v190 (broadcastInDim S700000x1 ![0] bcast_S700000_S700000x1_0 : (⟨S700000, .i32⟩ : BufTy).Contents (Elt F) → (⟨S700000x1, .i32⟩ : BufTy).Contents (Elt F)),
    binary main_v184 main_v190 main_v191 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v29 main_v192 (broadcastInDim S700000x1 ![0] bcast_S700000_S700000x1_0 : (⟨S700000, .f32⟩ : BufTy).Contents (Elt F) → (⟨S700000x1, .f32⟩ : BufTy).Contents (Elt F)),
    unary main_v192 main_v193 (broadcastInDim S700000x128 ![0, 1] bcast_S700000x1_S700000x128_0_1 : (⟨S700000x1, .f32⟩ : BufTy).Contents (Elt F) → (⟨S700000x128, .f32⟩ : BufTy).Contents (Elt F)),
    binary main_v191 main_v193 main_v194 (mulf : (⟨S700000x128, .f32⟩ : BufTy).Contents (Elt F) → (⟨S700000x128, .f32⟩ : BufTy).Contents (Elt F) → (⟨S700000x128, .f32⟩ : BufTy).Contents (Elt F)),
    nullary main_cst_32 (constant S_ .f32 0x00000000#32),
    unary main_cst_32 main_v195 (broadcastInDim S100000x128 ![] bcast_S_S100000x128 : (⟨S_, .f32⟩ : BufTy).Contents (Elt F) → (⟨S100000x128, .f32⟩ : BufTy).Contents (Elt F)),
    unary main_v6 main_v196 (broadcastInDim S700000x1 ![0] bcast_S700000_S700000x1_0 : (⟨S700000, .i32⟩ : BufTy).Contents (Elt F) → (⟨S700000x1, .i32⟩ : BufTy).Contents (Elt F)),
    ternary main_v195 main_v196 main_v194 main_v197 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)),
    unary main_v183 main_v198 (broadcastInDim S1x128 ![1] bcast_S128_S1x128_1 : (⟨S128, .f32⟩ : BufTy).Contents (Elt F) → (⟨S1x128, .f32⟩ : BufTy).Contents (Elt F)),
    unary main_v198 main_v199 (broadcastInDim S100000x128 ![0, 1] bcast_S1x128_S100000x128_0_1 : (⟨S1x128, .f32⟩ : BufTy).Contents (Elt F) → (⟨S100000x128, .f32⟩ : BufTy).Contents (Elt F)),
    binary main_v197 main_v199 main_v200 (addf : (⟨S100000x128, .f32⟩ : BufTy).Contents (Elt F) → (⟨S100000x128, .f32⟩ : BufTy).Contents (Elt F) → (⟨S100000x128, .f32⟩ : BufTy).Contents (Elt F)) ]

/-- Layer 4: the rectifier (inlined). -/
abbrev pieceL4r : List (HloOp τ sig (Elt F)) :=
  [ TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v200) (TRef.of (T := ⟨S100000x128, .f32⟩) main_call4_v0) (TRef.of (T := ⟨S100000x128, .f32⟩) main_v201) maximumf ]

/-- Layer 4: each row's mean and variance, the normalization, the scale and the shift. -/
abbrev pieceL4b : List (HloOp τ sig (Elt F)) :=
  [ unary main_arg3 main_v202 ((extractStridedSlice S1x128 ![3, 0] · slices_S4x128_S1x128_3_0) : (⟨S4x128, .f32⟩ : BufTy).Contents (Elt F) → (⟨S1x128, .f32⟩ : BufTy).Contents (Elt F)),
    reshape main_v202 main_v203 rfl shapeCasts_S1x128_S128,
    unary main_arg4 main_v204 ((extractStridedSlice S1x128 ![3, 0] · slices_S4x128_S1x128_3_0) : (⟨S4x128, .f32⟩ : BufTy).Contents (Elt F) → (⟨S1x128, .f32⟩ : BufTy).Contents (Elt F)),
    reshape main_v204 main_v205 rfl shapeCasts_S1x128_S128,
    nullary main_cst_33 (constant S_ .f32 0x00000000#32),
    binary main_v201 main_cst_33 main_v206 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v206 main_v207 (broadcastInDim S100000x1 ![0] bcast_S100000_S100000x1_0 : (⟨S100000, .f32⟩ : BufTy).Contents (Elt F) → (⟨S100000x1, .f32⟩ : BufTy).Contents (Elt F)),
    nullary main_cst_34 (constant S_ .f32 0x43000000#32),
    unary main_cst_34 main_v208 (broadcastInDim S100000x1 ![] bcast_S_S100000x1 : (⟨S_, .f32⟩ : BufTy).Contents (Elt F) → (⟨S100000x1, .f32⟩ : BufTy).Contents (Elt F)),
    binary main_v207 main_v208 main_v209 (Host.divf : (⟨S100000x1, .f32⟩ : BufTy).Contents (Elt F) → (⟨S100000x1, .f32⟩ : BufTy).Contents (Elt F) → (⟨S100000x1, .f32⟩ : BufTy).Contents (Elt F)),
    unary main_v209 main_v210 (broadcastInDim S100000x128 ![0, 1] bcast_S100000x1_S100000x128_0_1 : (⟨S100000x1, .f32⟩ : BufTy).Contents (Elt F) → (⟨S100000x128, .f32⟩ : BufTy).Contents (Elt F)),
    binary main_v201 main_v210 main_v211 (subf : (⟨S100000x128, .f32⟩ : BufTy).Contents (Elt F) → (⟨S100000x128, .f32⟩ : BufTy).Contents (Elt F) → (⟨S100000x128, .f32⟩ : BufTy).Contents (Elt F)),
    binary main_v211 main_v211 main_v212 (mulf : (⟨S100000x128, .f32⟩ : BufTy).Contents (Elt F) → (⟨S100000x128, .f32⟩ : BufTy).Contents (Elt F) → (⟨S100000x128, .f32⟩ : BufTy).Contents (Elt F)),
    nullary main_cst_35 (constant S_ .f32 0x00000000#32),
    binary main_v212 main_cst_35 main_v213 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v213 main_v214 (broadcastInDim S100000x1 ![0] bcast_S100000_S100000x1_0 : (⟨S100000, .f32⟩ : BufTy).Contents (Elt F) → (⟨S100000x1, .f32⟩ : BufTy).Contents (Elt F)),
    nullary main_cst_36 (constant S_ .f32 0x43000000#32),
    unary main_cst_36 main_v215 (broadcastInDim S100000x1 ![] bcast_S_S100000x1 : (⟨S_, .f32⟩ : BufTy).Contents (Elt F) → (⟨S100000x1, .f32⟩ : BufTy).Contents (Elt F)),
    binary main_v214 main_v215 main_v216 (Host.divf : (⟨S100000x1, .f32⟩ : BufTy).Contents (Elt F) → (⟨S100000x1, .f32⟩ : BufTy).Contents (Elt F) → (⟨S100000x1, .f32⟩ : BufTy).Contents (Elt F)),
    unary main_v209 main_v217 (broadcastInDim S100000x128 ![0, 1] bcast_S100000x1_S100000x128_0_1 : (⟨S100000x1, .f32⟩ : BufTy).Contents (Elt F) → (⟨S100000x128, .f32⟩ : BufTy).Contents (Elt F)),
    binary main_v201 main_v217 main_v218 (subf : (⟨S100000x128, .f32⟩ : BufTy).Contents (Elt F) → (⟨S100000x128, .f32⟩ : BufTy).Contents (Elt F) → (⟨S100000x128, .f32⟩ : BufTy).Contents (Elt F)),
    nullary main_cst_37 (constant S_ .f32 0x3727C5AC#32),
    unary main_cst_37 main_v219 (broadcastInDim S100000x1 ![] bcast_S_S100000x1 : (⟨S_, .f32⟩ : BufTy).Contents (Elt F) → (⟨S100000x1, .f32⟩ : BufTy).Contents (Elt F)),
    binary main_v216 main_v219 main_v220 (addf : (⟨S100000x1, .f32⟩ : BufTy).Contents (Elt F) → (⟨S100000x1, .f32⟩ : BufTy).Contents (Elt F) → (⟨S100000x1, .f32⟩ : BufTy).Contents (Elt F)),
    unary main_v220 main_v221 (Host.rsqrt : (⟨S100000x1, .f32⟩ : BufTy).Contents (Elt F) → (⟨S100000x1, .f32⟩ : BufTy).Contents (Elt F)),
    unary main_v221 main_v222 (broadcastInDim S100000x128 ![0, 1] bcast_S100000x1_S100000x128_0_1 : (⟨S100000x1, .f32⟩ : BufTy).Contents (Elt F) → (⟨S100000x128, .f32⟩ : BufTy).Contents (Elt F)),
    binary main_v218 main_v222 main_v223 (mulf : (⟨S100000x128, .f32⟩ : BufTy).Contents (Elt F) → (⟨S100000x128, .f32⟩ : BufTy).Contents (Elt F) → (⟨S100000x128, .f32⟩ : BufTy).Contents (Elt F)),
    unary main_v203 main_v224 (broadcastInDim S1x128 ![1] bcast_S128_S1x128_1 : (⟨S128, .f32⟩ : BufTy).Contents (Elt F) → (⟨S1x128, .f32⟩ : BufTy).Contents (Elt F)),
    unary main_v224 main_v225 (broadcastInDim S100000x128 ![0, 1] bcast_S1x128_S100000x128_0_1 : (⟨S1x128, .f32⟩ : BufTy).Contents (Elt F) → (⟨S100000x128, .f32⟩ : BufTy).Contents (Elt F)),
    binary main_v223 main_v225 main_v226 (mulf : (⟨S100000x128, .f32⟩ : BufTy).Contents (Elt F) → (⟨S100000x128, .f32⟩ : BufTy).Contents (Elt F) → (⟨S100000x128, .f32⟩ : BufTy).Contents (Elt F)),
    unary main_v205 main_v227 (broadcastInDim S1x128 ![1] bcast_S128_S1x128_1 : (⟨S128, .f32⟩ : BufTy).Contents (Elt F) → (⟨S1x128, .f32⟩ : BufTy).Contents (Elt F)),
    unary main_v227 main_v228 (broadcastInDim S100000x128 ![0, 1] bcast_S1x128_S100000x128_0_1 : (⟨S1x128, .f32⟩ : BufTy).Contents (Elt F) → (⟨S100000x128, .f32⟩ : BufTy).Contents (Elt F)),
    binary main_v226 main_v228 main_v229 (addf : (⟨S100000x128, .f32⟩ : BufTy).Contents (Elt F) → (⟨S100000x128, .f32⟩ : BufTy).Contents (Elt F) → (⟨S100000x128, .f32⟩ : BufTy).Contents (Elt F)) ]

/-- The fifteen pieces in order are the reference's line of operations. -/
theorem ops_pieces : (ops : List (HloOp τ sig (Elt F))) = pieceA1 ++ (pieceAw ++ (pieceA2 ++ (pieceL1a ++ (pieceL1r ++ (pieceL1b ++ (pieceL2a ++ (pieceL2r ++ (pieceL2b ++ (pieceL3a ++ (pieceL3r ++ (pieceL3b ++ (pieceL4a ++ (pieceL4r ++ (pieceL4b)))))))))))))) := rfl

end Cert.ReferenceIdeal.RefRun

end
-- ==== Proof.RefMoved.lean ====
/-
  The reference's inlined calls, read at their result.

  Five stretches of the reference's host operations are the bodies of functions inlined at their call sites: the
  selection that keeps a node's reciprocal square root where its incoming-edge count is positive and puts zero
  elsewhere, and each layer's rectifier. Inside such a body every value is moved from its buffer's type to the
  value's own type and back; these moves are along equations that hold by computation, so the stretch leaves at its
  result buffer exactly the reference's stage of that name, provided the contents it starts from hold the stages it
  reads.
-/
import proofs.«175188_j21217138442428_1_alg».proof.Proof.RefPieces
import proofs.«175188_j21217138442428_1_alg».proof.Proof.RefReadP
import Idealize.ShloMosaic.Lib.StableHlo.Run

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable (Vp : Valuation τ sig (Elt Ideal))

/-- The selection with its operands moved to their buffers' types and back: the moves change nothing. -/
theorem select_moved (A : (⟨S100000, .i1⟩ : BufTy).Contents (Elt Ideal)) (B : (⟨S100000, .f32⟩ : BufTy).Contents (Elt Ideal))
    (C : (⟨S_, .f32⟩ : BufTy).Contents (Elt Ideal)) :
    ((TRef.of (T := ⟨S100000, .f32⟩) main_v14).toBuf (Val := Elt Ideal) (select ((TRef.of (T := ⟨S100000, .i1⟩) main_v12).ofBuf (Val := Elt Ideal) A) ((TRef.of (T := ⟨S100000, .f32⟩) main_v13).ofBuf (Val := Elt Ideal) B)
      ((TRef.of (T := ⟨S100000, .f32⟩) main_call0_v1).ofBuf (Val := Elt Ideal) ((TRef.of (T := ⟨S100000, .f32⟩) main_call0_v1).toBuf (Val := Elt Ideal) (broadcastInDim S100000 ![] bcast_S_S100000
        ((TRef.of (T := ⟨S_, .f32⟩) main_call0_v0).ofBuf (Val := Elt Ideal) ((TRef.of (T := ⟨S_, .f32⟩) main_call0_v0).toBuf (Val := Elt Ideal) (id ((TRef.of (T := ⟨S_, .f32⟩) main_cst_2).ofBuf (Val := Elt Ideal) C)))))))))
      = select A B (broadcastInDim S100000 ![] bcast_S_S100000 (id C)) := rfl

/-- The selection, run from contents that hold the positivity mask, the reciprocal square roots and the zero, leaves
    the node weights. -/
theorem pieceAw_main_v14 (x5 : (⟨S2x600000, .i32⟩ : BufTy).Contents (Elt Ideal)) (h0 : Vp (Proc.devRef .tc main_v12) = val_main_v12 (F := Ideal) x5) (h1 : Vp (Proc.devRef .tc main_v13) = val_main_v13 (F := Ideal) x5) (h2 : Vp (Proc.devRef .tc main_cst_2) = val_main_cst_2 (F := Ideal)) :
    after (pieceAw (F := Ideal)) Vp (Proc.devRef .tc main_v14) = val_main_v14 (F := Ideal) x5 := by
  after_results
  rw [h0, h1, h2]
  unfold val_main_v14 val_main_call0_v1 val_main_call0_v0
  exact select_moved _ _ _

/-- The first layer's rectifier with its operands moved to their buffers' types and back: the moves are along equations
    that hold by computation, so they change nothing. -/
theorem maximum_moved_1 (A : (⟨S100000x128, .f32⟩ : BufTy).Contents (Elt Ideal)) :
    ((TRef.of (T := ⟨S100000x128, .f32⟩) main_v51).toBuf (Val := Elt Ideal) (maximumf (F := Ideal) (s := S100000x128) (φ := .f32) ((TRef.of (T := ⟨S100000x128, .f32⟩) main_v50).ofBuf (Val := Elt Ideal) A)
      ((TRef.of (T := ⟨S100000x128, .f32⟩) main_call1_v0).ofBuf (Val := Elt Ideal) ((TRef.of (T := ⟨S100000x128, .f32⟩) main_call1_v0).toBuf (Val := Elt Ideal) (broadcastInDim S100000x128 ![] bcast_S_S100000x128
        ((TRef.of (T := ⟨S_, .f32⟩) main_call1_cst).ofBuf (Val := Elt Ideal) ((TRef.of (T := ⟨S_, .f32⟩) main_call1_cst).toBuf (Val := Elt Ideal) (constant (F := Ideal) S_ .f32 0x00000000#32))))))))
      = maximumf (F := Ideal) (s := S100000x128) (φ := .f32) A (broadcastInDim S100000x128 ![] bcast_S_S100000x128 (constant (F := Ideal) S_ .f32 0x00000000#32)) := rfl

/-- The first layer's rectifier, run from contents that hold the layer's biased aggregate, leaves the rectified stage. -/
theorem pieceL1r_main_v51 (x0 : (⟨S100000x128, .f32⟩ : BufTy).Contents (Elt Ideal)) (x1 : (⟨S4x128x128, .f32⟩ : BufTy).Contents (Elt Ideal)) (x2 : (⟨S4x128, .f32⟩ : BufTy).Contents (Elt Ideal)) (x5 : (⟨S2x600000, .i32⟩ : BufTy).Contents (Elt Ideal)) (h0 : Vp (Proc.devRef .tc main_v50) = val_main_v50 (F := Ideal) x0 x1 x2 x5) :
    after (pieceL1r (F := Ideal)) Vp (Proc.devRef .tc main_v51) = val_main_v51 (F := Ideal) x0 x1 x2 x5 := by
  after_results
  rw [h0]
  unfold val_main_v51 val_main_call1_v0 val_main_call1_cst
  exact maximum_moved_1 _

/-- The second layer's rectifier with its operands moved to their buffers' types and back: the moves are along equations
    that hold by computation, so they change nothing. -/
theorem maximum_moved_2 (A : (⟨S100000x128, .f32⟩ : BufTy).Contents (Elt Ideal)) :
    ((TRef.of (T := ⟨S100000x128, .f32⟩) main_v101).toBuf (Val := Elt Ideal) (maximumf (F := Ideal) (s := S100000x128) (φ := .f32) ((TRef.of (T := ⟨S100000x128, .f32⟩) main_v100).ofBuf (Val := Elt Ideal) A)
      ((TRef.of (T := ⟨S100000x128, .f32⟩) main_call2_v0).ofBuf (Val := Elt Ideal) ((TRef.of (T := ⟨S100000x128, .f32⟩) main_call2_v0).toBuf (Val := Elt Ideal) (broadcastInDim S100000x128 ![] bcast_S_S100000x128
        ((TRef.of (T := ⟨S_, .f32⟩) main_call2_cst).ofBuf (Val := Elt Ideal) ((TRef.of (T := ⟨S_, .f32⟩) main_call2_cst).toBuf (Val := Elt Ideal) (constant (F := Ideal) S_ .f32 0x00000000#32))))))))
      = maximumf (F := Ideal) (s := S100000x128) (φ := .f32) A (broadcastInDim S100000x128 ![] bcast_S_S100000x128 (constant (F := Ideal) S_ .f32 0x00000000#32)) := rfl

/-- The second layer's rectifier, run from contents that hold the layer's biased aggregate, leaves the rectified stage. -/
theorem pieceL2r_main_v101 (x0 : (⟨S100000x128, .f32⟩ : BufTy).Contents (Elt Ideal)) (x1 : (⟨S4x128x128, .f32⟩ : BufTy).Contents (Elt Ideal)) (x2 : (⟨S4x128, .f32⟩ : BufTy).Contents (Elt Ideal)) (x3 : (⟨S4x128, .f32⟩ : BufTy).Contents (Elt Ideal)) (x4 : (⟨S4x128, .f32⟩ : BufTy).Contents (Elt Ideal)) (x5 : (⟨S2x600000, .i32⟩ : BufTy).Contents (Elt Ideal)) (h0 : Vp (Proc.devRef .tc main_v100) = val_main_v100 (F := Ideal) x0 x1 x2 x3 x4 x5) :
    after (pieceL2r (F := Ideal)) Vp (Proc.devRef .tc main_v101) = val_main_v101 (F := Ideal) x0 x1 x2 x3 x4 x5 := by
  after_results
  rw [h0]
  unfold val_main_v101 val_main_call2_v0 val_main_call2_cst
  exact maximum_moved_2 _

/-- The third layer's rectifier with its operands moved to their buffers' types and back: the moves are along equations
    that hold by computation, so they change nothing. -/
theorem maximum_moved_3 (A : (⟨S100000x128, .f32⟩ : BufTy).Contents (Elt Ideal)) :
    ((TRef.of (T := ⟨S100000x128, .f32⟩) main_v151).toBuf (Val := Elt Ideal) (maximumf (F := Ideal) (s := S100000x128) (φ := .f32) ((TRef.of (T := ⟨S100000x128, .f32⟩) main_v150).ofBuf (Val := Elt Ideal) A)
      ((TRef.of (T := ⟨S100000x128, .f32⟩) main_call3_v0).ofBuf (Val := Elt Ideal) ((TRef.of (T := ⟨S100000x128, .f32⟩) main_call3_v0).toBuf (Val := Elt Ideal) (broadcastInDim S100000x128 ![] bcast_S_S100000x128
        ((TRef.of (T := ⟨S_, .f32⟩) main_call3_cst).ofBuf (Val := Elt Ideal) ((TRef.of (T := ⟨S_, .f32⟩) main_call3_cst).toBuf (Val := Elt Ideal) (constant (F := Ideal) S_ .f32 0x00000000#32))))))))
      = maximumf (F := Ideal) (s := S100000x128) (φ := .f32) A (broadcastInDim S100000x128 ![] bcast_S_S100000x128 (constant (F := Ideal) S_ .f32 0x00000000#32)) := rfl

/-- The third layer's rectifier, run from contents that hold the layer's biased aggregate, leaves the rectified stage. -/
theorem pieceL3r_main_v151 (x0 : (⟨S100000x128, .f32⟩ : BufTy).Contents (Elt Ideal)) (x1 : (⟨S4x128x128, .f32⟩ : BufTy).Contents (Elt Ideal)) (x2 : (⟨S4x128, .f32⟩ : BufTy).Contents (Elt Ideal)) (x3 : (⟨S4x128, .f32⟩ : BufTy).Contents (Elt Ideal)) (x4 : (⟨S4x128, .f32⟩ : BufTy).Contents (Elt Ideal)) (x5 : (⟨S2x600000, .i32⟩ : BufTy).Contents (Elt Ideal)) (h0 : Vp (Proc.devRef .tc main_v150) = val_main_v150 (F := Ideal) x0 x1 x2 x3 x4 x5) :
    after (pieceL3r (F := Ideal)) Vp (Proc.devRef .tc main_v151) = val_main_v151 (F := Ideal) x0 x1 x2 x3 x4 x5 := by
  after_results
  rw [h0]
  unfold val_main_v151 val_main_call3_v0 val_main_call3_cst
  exact maximum_moved_3 _

/-- The fourth layer's rectifier with its operands moved to their buffers' types and back: the moves are along equations
    that hold by computation, so they change nothing. -/
theorem maximum_moved_4 (A : (⟨S100000x128, .f32⟩ : BufTy).Contents (Elt Ideal)) :
    ((TRef.of (T := ⟨S100000x128, .f32⟩) main_v201).toBuf (Val := Elt Ideal) (maximumf (F := Ideal) (s := S100000x128) (φ := .f32) ((TRef.of (T := ⟨S100000x128, .f32⟩) main_v200).ofBuf (Val := Elt Ideal) A)
      ((TRef.of (T := ⟨S100000x128, .f32⟩) main_call4_v0).ofBuf (Val := Elt Ideal) ((TRef.of (T := ⟨S100000x128, .f32⟩) main_call4_v0).toBuf (Val := Elt Ideal) (broadcastInDim S100000x128 ![] bcast_S_S100000x128
        ((TRef.of (T := ⟨S_, .f32⟩) main_call4_cst).ofBuf (Val := Elt Ideal) ((TRef.of (T := ⟨S_, .f32⟩) main_call4_cst).toBuf (Val := Elt Ideal) (constant (F := Ideal) S_ .f32 0x00000000#32))))))))
      = maximumf (F := Ideal) (s := S100000x128) (φ := .f32) A (broadcastInDim S100000x128 ![] bcast_S_S100000x128 (constant (F := Ideal) S_ .f32 0x00000000#32)) := rfl

/-- The fourth layer's rectifier, run from contents that hold the layer's biased aggregate, leaves the rectified stage. -/
theorem pieceL4r_main_v201 (x0 : (⟨S100000x128, .f32⟩ : BufTy).Contents (Elt Ideal)) (x1 : (⟨S4x128x128, .f32⟩ : BufTy).Contents (Elt Ideal)) (x2 : (⟨S4x128, .f32⟩ : BufTy).Contents (Elt Ideal)) (x3 : (⟨S4x128, .f32⟩ : BufTy).Contents (Elt Ideal)) (x4 : (⟨S4x128, .f32⟩ : BufTy).Contents (Elt Ideal)) (x5 : (⟨S2x600000, .i32⟩ : BufTy).Contents (Elt Ideal)) (h0 : Vp (Proc.devRef .tc main_v200) = val_main_v200 (F := Ideal) x0 x1 x2 x3 x4 x5) :
    after (pieceL4r (F := Ideal)) Vp (Proc.devRef .tc main_v201) = val_main_v201 (F := Ideal) x0 x1 x2 x3 x4 x5 := by
  after_results
  rw [h0]
  unfold val_main_v201 val_main_call4_v0 val_main_call4_cst
  exact maximum_moved_4 _

end Cert.ReferenceIdeal.RefRun

end
-- ==== Proof.RefRun.lean ====
/-
  The reference program's run, read stage by stage.

  The reference is one line of 280 host operations.  Every buffer is written once, so the line can be cut wherever
  a value is about to be used several times: around each inlined call, after the edge weights, and in each layer
  before the rectifier, after it and after the layer's output; in each piece the values a later piece needs are the stages the
  reference's own staged reading names, as a function of the six arguments, and every buffer written earlier
  passes through the later pieces untouched.  Composing the pieces, every weakly fair execution ends with the
  result at the last stage of the arguments and the arguments unchanged.
-/
import proofs.«175188_j21217138442428_1_alg».proof.Proof.RefReadP
import proofs.«175188_j21217138442428_1_alg».proof.Proof.RefPieces
import proofs.«175188_j21217138442428_1_alg».proof.Proof.RefMoved
import Idealize.ShloMosaic.Lib.StableHlo.Run

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- Running two lines one after the other is running the second from where the first ends. -/
theorem after_append (xs ys : List (HloOp τ sig (Elt Ideal))) (V : Valuation τ sig (Elt Ideal)) :
    after (xs ++ ys) V = after ys (after xs V) := by
  induction xs generalizing V with
  | nil => rfl
  | cons x xs ih => exact ih _

variable (Vp : Valuation τ sig (Elt Ideal))

/-! ## What passes through each piece untouched -/

theorem keepA1_main_arg0 : after (pieceA1 (F := Ideal)) Vp (Proc.devRef .tc main_arg0) = Vp (Proc.devRef .tc main_arg0) := by
  after_results
theorem keepA1_main_arg1 : after (pieceA1 (F := Ideal)) Vp (Proc.devRef .tc main_arg1) = Vp (Proc.devRef .tc main_arg1) := by
  after_results
theorem keepA1_main_arg2 : after (pieceA1 (F := Ideal)) Vp (Proc.devRef .tc main_arg2) = Vp (Proc.devRef .tc main_arg2) := by
  after_results
theorem keepA1_main_arg3 : after (pieceA1 (F := Ideal)) Vp (Proc.devRef .tc main_arg3) = Vp (Proc.devRef .tc main_arg3) := by
  after_results
theorem keepA1_main_arg4 : after (pieceA1 (F := Ideal)) Vp (Proc.devRef .tc main_arg4) = Vp (Proc.devRef .tc main_arg4) := by
  after_results
theorem keepA1_main_arg5 : after (pieceA1 (F := Ideal)) Vp (Proc.devRef .tc main_arg5) = Vp (Proc.devRef .tc main_arg5) := by
  after_results
theorem keepAw_main_arg0 : after (pieceAw (F := Ideal)) Vp (Proc.devRef .tc main_arg0) = Vp (Proc.devRef .tc main_arg0) := by
  after_results
theorem keepAw_main_arg1 : after (pieceAw (F := Ideal)) Vp (Proc.devRef .tc main_arg1) = Vp (Proc.devRef .tc main_arg1) := by
  after_results
theorem keepAw_main_arg2 : after (pieceAw (F := Ideal)) Vp (Proc.devRef .tc main_arg2) = Vp (Proc.devRef .tc main_arg2) := by
  after_results
theorem keepAw_main_arg3 : after (pieceAw (F := Ideal)) Vp (Proc.devRef .tc main_arg3) = Vp (Proc.devRef .tc main_arg3) := by
  after_results
theorem keepAw_main_arg4 : after (pieceAw (F := Ideal)) Vp (Proc.devRef .tc main_arg4) = Vp (Proc.devRef .tc main_arg4) := by
  after_results
theorem keepAw_main_arg5 : after (pieceAw (F := Ideal)) Vp (Proc.devRef .tc main_arg5) = Vp (Proc.devRef .tc main_arg5) := by
  after_results
theorem keepAw_main_v5 : after (pieceAw (F := Ideal)) Vp (Proc.devRef .tc main_v5) = Vp (Proc.devRef .tc main_v5) := by
  after_results
theorem keepAw_main_v6 : after (pieceAw (F := Ideal)) Vp (Proc.devRef .tc main_v6) = Vp (Proc.devRef .tc main_v6) := by
  after_results
theorem keepA2_main_arg0 : after (pieceA2 (F := Ideal)) Vp (Proc.devRef .tc main_arg0) = Vp (Proc.devRef .tc main_arg0) := by
  after_results
theorem keepA2_main_arg1 : after (pieceA2 (F := Ideal)) Vp (Proc.devRef .tc main_arg1) = Vp (Proc.devRef .tc main_arg1) := by
  after_results
theorem keepA2_main_arg2 : after (pieceA2 (F := Ideal)) Vp (Proc.devRef .tc main_arg2) = Vp (Proc.devRef .tc main_arg2) := by
  after_results
theorem keepA2_main_arg3 : after (pieceA2 (F := Ideal)) Vp (Proc.devRef .tc main_arg3) = Vp (Proc.devRef .tc main_arg3) := by
  after_results
theorem keepA2_main_arg4 : after (pieceA2 (F := Ideal)) Vp (Proc.devRef .tc main_arg4) = Vp (Proc.devRef .tc main_arg4) := by
  after_results
theorem keepA2_main_arg5 : after (pieceA2 (F := Ideal)) Vp (Proc.devRef .tc main_arg5) = Vp (Proc.devRef .tc main_arg5) := by
  after_results
theorem keepA2_main_v5 : after (pieceA2 (F := Ideal)) Vp (Proc.devRef .tc main_v5) = Vp (Proc.devRef .tc main_v5) := by
  after_results
theorem keepA2_main_v6 : after (pieceA2 (F := Ideal)) Vp (Proc.devRef .tc main_v6) = Vp (Proc.devRef .tc main_v6) := by
  after_results
theorem keepL1a_main_arg0 : after (pieceL1a (F := Ideal)) Vp (Proc.devRef .tc main_arg0) = Vp (Proc.devRef .tc main_arg0) := by
  after_results
theorem keepL1a_main_arg1 : after (pieceL1a (F := Ideal)) Vp (Proc.devRef .tc main_arg1) = Vp (Proc.devRef .tc main_arg1) := by
  after_results
theorem keepL1a_main_arg2 : after (pieceL1a (F := Ideal)) Vp (Proc.devRef .tc main_arg2) = Vp (Proc.devRef .tc main_arg2) := by
  after_results
theorem keepL1a_main_arg3 : after (pieceL1a (F := Ideal)) Vp (Proc.devRef .tc main_arg3) = Vp (Proc.devRef .tc main_arg3) := by
  after_results
theorem keepL1a_main_arg4 : after (pieceL1a (F := Ideal)) Vp (Proc.devRef .tc main_arg4) = Vp (Proc.devRef .tc main_arg4) := by
  after_results
theorem keepL1a_main_arg5 : after (pieceL1a (F := Ideal)) Vp (Proc.devRef .tc main_arg5) = Vp (Proc.devRef .tc main_arg5) := by
  after_results
theorem keepL1a_main_v5 : after (pieceL1a (F := Ideal)) Vp (Proc.devRef .tc main_v5) = Vp (Proc.devRef .tc main_v5) := by
  after_results
theorem keepL1a_main_v6 : after (pieceL1a (F := Ideal)) Vp (Proc.devRef .tc main_v6) = Vp (Proc.devRef .tc main_v6) := by
  after_results
theorem keepL1a_main_v29 : after (pieceL1a (F := Ideal)) Vp (Proc.devRef .tc main_v29) = Vp (Proc.devRef .tc main_v29) := by
  after_results
theorem keepL1r_main_arg0 : after (pieceL1r (F := Ideal)) Vp (Proc.devRef .tc main_arg0) = Vp (Proc.devRef .tc main_arg0) := by
  after_results
theorem keepL1r_main_arg1 : after (pieceL1r (F := Ideal)) Vp (Proc.devRef .tc main_arg1) = Vp (Proc.devRef .tc main_arg1) := by
  after_results
theorem keepL1r_main_arg2 : after (pieceL1r (F := Ideal)) Vp (Proc.devRef .tc main_arg2) = Vp (Proc.devRef .tc main_arg2) := by
  after_results
theorem keepL1r_main_arg3 : after (pieceL1r (F := Ideal)) Vp (Proc.devRef .tc main_arg3) = Vp (Proc.devRef .tc main_arg3) := by
  after_results
theorem keepL1r_main_arg4 : after (pieceL1r (F := Ideal)) Vp (Proc.devRef .tc main_arg4) = Vp (Proc.devRef .tc main_arg4) := by
  after_results
theorem keepL1r_main_arg5 : after (pieceL1r (F := Ideal)) Vp (Proc.devRef .tc main_arg5) = Vp (Proc.devRef .tc main_arg5) := by
  after_results
theorem keepL1r_main_v5 : after (pieceL1r (F := Ideal)) Vp (Proc.devRef .tc main_v5) = Vp (Proc.devRef .tc main_v5) := by
  after_results
theorem keepL1r_main_v6 : after (pieceL1r (F := Ideal)) Vp (Proc.devRef .tc main_v6) = Vp (Proc.devRef .tc main_v6) := by
  after_results
theorem keepL1r_main_v29 : after (pieceL1r (F := Ideal)) Vp (Proc.devRef .tc main_v29) = Vp (Proc.devRef .tc main_v29) := by
  after_results
theorem keepL1b_main_arg0 : after (pieceL1b (F := Ideal)) Vp (Proc.devRef .tc main_arg0) = Vp (Proc.devRef .tc main_arg0) := by
  after_results
theorem keepL1b_main_arg1 : after (pieceL1b (F := Ideal)) Vp (Proc.devRef .tc main_arg1) = Vp (Proc.devRef .tc main_arg1) := by
  after_results
theorem keepL1b_main_arg2 : after (pieceL1b (F := Ideal)) Vp (Proc.devRef .tc main_arg2) = Vp (Proc.devRef .tc main_arg2) := by
  after_results
theorem keepL1b_main_arg3 : after (pieceL1b (F := Ideal)) Vp (Proc.devRef .tc main_arg3) = Vp (Proc.devRef .tc main_arg3) := by
  after_results
theorem keepL1b_main_arg4 : after (pieceL1b (F := Ideal)) Vp (Proc.devRef .tc main_arg4) = Vp (Proc.devRef .tc main_arg4) := by
  after_results
theorem keepL1b_main_arg5 : after (pieceL1b (F := Ideal)) Vp (Proc.devRef .tc main_arg5) = Vp (Proc.devRef .tc main_arg5) := by
  after_results
theorem keepL1b_main_v5 : after (pieceL1b (F := Ideal)) Vp (Proc.devRef .tc main_v5) = Vp (Proc.devRef .tc main_v5) := by
  after_results
theorem keepL1b_main_v6 : after (pieceL1b (F := Ideal)) Vp (Proc.devRef .tc main_v6) = Vp (Proc.devRef .tc main_v6) := by
  after_results
theorem keepL1b_main_v29 : after (pieceL1b (F := Ideal)) Vp (Proc.devRef .tc main_v29) = Vp (Proc.devRef .tc main_v29) := by
  after_results
theorem keepL2a_main_arg0 : after (pieceL2a (F := Ideal)) Vp (Proc.devRef .tc main_arg0) = Vp (Proc.devRef .tc main_arg0) := by
  after_results
theorem keepL2a_main_arg1 : after (pieceL2a (F := Ideal)) Vp (Proc.devRef .tc main_arg1) = Vp (Proc.devRef .tc main_arg1) := by
  after_results
theorem keepL2a_main_arg2 : after (pieceL2a (F := Ideal)) Vp (Proc.devRef .tc main_arg2) = Vp (Proc.devRef .tc main_arg2) := by
  after_results
theorem keepL2a_main_arg3 : after (pieceL2a (F := Ideal)) Vp (Proc.devRef .tc main_arg3) = Vp (Proc.devRef .tc main_arg3) := by
  after_results
theorem keepL2a_main_arg4 : after (pieceL2a (F := Ideal)) Vp (Proc.devRef .tc main_arg4) = Vp (Proc.devRef .tc main_arg4) := by
  after_results
theorem keepL2a_main_arg5 : after (pieceL2a (F := Ideal)) Vp (Proc.devRef .tc main_arg5) = Vp (Proc.devRef .tc main_arg5) := by
  after_results
theorem keepL2a_main_v5 : after (pieceL2a (F := Ideal)) Vp (Proc.devRef .tc main_v5) = Vp (Proc.devRef .tc main_v5) := by
  after_results
theorem keepL2a_main_v6 : after (pieceL2a (F := Ideal)) Vp (Proc.devRef .tc main_v6) = Vp (Proc.devRef .tc main_v6) := by
  after_results
theorem keepL2a_main_v29 : after (pieceL2a (F := Ideal)) Vp (Proc.devRef .tc main_v29) = Vp (Proc.devRef .tc main_v29) := by
  after_results
theorem keepL2r_main_arg0 : after (pieceL2r (F := Ideal)) Vp (Proc.devRef .tc main_arg0) = Vp (Proc.devRef .tc main_arg0) := by
  after_results
theorem keepL2r_main_arg1 : after (pieceL2r (F := Ideal)) Vp (Proc.devRef .tc main_arg1) = Vp (Proc.devRef .tc main_arg1) := by
  after_results
theorem keepL2r_main_arg2 : after (pieceL2r (F := Ideal)) Vp (Proc.devRef .tc main_arg2) = Vp (Proc.devRef .tc main_arg2) := by
  after_results
theorem keepL2r_main_arg3 : after (pieceL2r (F := Ideal)) Vp (Proc.devRef .tc main_arg3) = Vp (Proc.devRef .tc main_arg3) := by
  after_results
theorem keepL2r_main_arg4 : after (pieceL2r (F := Ideal)) Vp (Proc.devRef .tc main_arg4) = Vp (Proc.devRef .tc main_arg4) := by
  after_results
theorem keepL2r_main_arg5 : after (pieceL2r (F := Ideal)) Vp (Proc.devRef .tc main_arg5) = Vp (Proc.devRef .tc main_arg5) := by
  after_results
theorem keepL2r_main_v5 : after (pieceL2r (F := Ideal)) Vp (Proc.devRef .tc main_v5) = Vp (Proc.devRef .tc main_v5) := by
  after_results
theorem keepL2r_main_v6 : after (pieceL2r (F := Ideal)) Vp (Proc.devRef .tc main_v6) = Vp (Proc.devRef .tc main_v6) := by
  after_results
theorem keepL2r_main_v29 : after (pieceL2r (F := Ideal)) Vp (Proc.devRef .tc main_v29) = Vp (Proc.devRef .tc main_v29) := by
  after_results
theorem keepL2b_main_arg0 : after (pieceL2b (F := Ideal)) Vp (Proc.devRef .tc main_arg0) = Vp (Proc.devRef .tc main_arg0) := by
  after_results
theorem keepL2b_main_arg1 : after (pieceL2b (F := Ideal)) Vp (Proc.devRef .tc main_arg1) = Vp (Proc.devRef .tc main_arg1) := by
  after_results
theorem keepL2b_main_arg2 : after (pieceL2b (F := Ideal)) Vp (Proc.devRef .tc main_arg2) = Vp (Proc.devRef .tc main_arg2) := by
  after_results
theorem keepL2b_main_arg3 : after (pieceL2b (F := Ideal)) Vp (Proc.devRef .tc main_arg3) = Vp (Proc.devRef .tc main_arg3) := by
  after_results
theorem keepL2b_main_arg4 : after (pieceL2b (F := Ideal)) Vp (Proc.devRef .tc main_arg4) = Vp (Proc.devRef .tc main_arg4) := by
  after_results
theorem keepL2b_main_arg5 : after (pieceL2b (F := Ideal)) Vp (Proc.devRef .tc main_arg5) = Vp (Proc.devRef .tc main_arg5) := by
  after_results
theorem keepL2b_main_v5 : after (pieceL2b (F := Ideal)) Vp (Proc.devRef .tc main_v5) = Vp (Proc.devRef .tc main_v5) := by
  after_results
theorem keepL2b_main_v6 : after (pieceL2b (F := Ideal)) Vp (Proc.devRef .tc main_v6) = Vp (Proc.devRef .tc main_v6) := by
  after_results
theorem keepL2b_main_v29 : after (pieceL2b (F := Ideal)) Vp (Proc.devRef .tc main_v29) = Vp (Proc.devRef .tc main_v29) := by
  after_results
theorem keepL3a_main_arg0 : after (pieceL3a (F := Ideal)) Vp (Proc.devRef .tc main_arg0) = Vp (Proc.devRef .tc main_arg0) := by
  after_results
theorem keepL3a_main_arg1 : after (pieceL3a (F := Ideal)) Vp (Proc.devRef .tc main_arg1) = Vp (Proc.devRef .tc main_arg1) := by
  after_results
theorem keepL3a_main_arg2 : after (pieceL3a (F := Ideal)) Vp (Proc.devRef .tc main_arg2) = Vp (Proc.devRef .tc main_arg2) := by
  after_results
theorem keepL3a_main_arg3 : after (pieceL3a (F := Ideal)) Vp (Proc.devRef .tc main_arg3) = Vp (Proc.devRef .tc main_arg3) := by
  after_results
theorem keepL3a_main_arg4 : after (pieceL3a (F := Ideal)) Vp (Proc.devRef .tc main_arg4) = Vp (Proc.devRef .tc main_arg4) := by
  after_results
theorem keepL3a_main_arg5 : after (pieceL3a (F := Ideal)) Vp (Proc.devRef .tc main_arg5) = Vp (Proc.devRef .tc main_arg5) := by
  after_results
theorem keepL3a_main_v5 : after (pieceL3a (F := Ideal)) Vp (Proc.devRef .tc main_v5) = Vp (Proc.devRef .tc main_v5) := by
  after_results
theorem keepL3a_main_v6 : after (pieceL3a (F := Ideal)) Vp (Proc.devRef .tc main_v6) = Vp (Proc.devRef .tc main_v6) := by
  after_results
theorem keepL3a_main_v29 : after (pieceL3a (F := Ideal)) Vp (Proc.devRef .tc main_v29) = Vp (Proc.devRef .tc main_v29) := by
  after_results
theorem keepL3r_main_arg0 : after (pieceL3r (F := Ideal)) Vp (Proc.devRef .tc main_arg0) = Vp (Proc.devRef .tc main_arg0) := by
  after_results
theorem keepL3r_main_arg1 : after (pieceL3r (F := Ideal)) Vp (Proc.devRef .tc main_arg1) = Vp (Proc.devRef .tc main_arg1) := by
  after_results
theorem keepL3r_main_arg2 : after (pieceL3r (F := Ideal)) Vp (Proc.devRef .tc main_arg2) = Vp (Proc.devRef .tc main_arg2) := by
  after_results
theorem keepL3r_main_arg3 : after (pieceL3r (F := Ideal)) Vp (Proc.devRef .tc main_arg3) = Vp (Proc.devRef .tc main_arg3) := by
  after_results
theorem keepL3r_main_arg4 : after (pieceL3r (F := Ideal)) Vp (Proc.devRef .tc main_arg4) = Vp (Proc.devRef .tc main_arg4) := by
  after_results
theorem keepL3r_main_arg5 : after (pieceL3r (F := Ideal)) Vp (Proc.devRef .tc main_arg5) = Vp (Proc.devRef .tc main_arg5) := by
  after_results
theorem keepL3r_main_v5 : after (pieceL3r (F := Ideal)) Vp (Proc.devRef .tc main_v5) = Vp (Proc.devRef .tc main_v5) := by
  after_results
theorem keepL3r_main_v6 : after (pieceL3r (F := Ideal)) Vp (Proc.devRef .tc main_v6) = Vp (Proc.devRef .tc main_v6) := by
  after_results
theorem keepL3r_main_v29 : after (pieceL3r (F := Ideal)) Vp (Proc.devRef .tc main_v29) = Vp (Proc.devRef .tc main_v29) := by
  after_results
theorem keepL3b_main_arg0 : after (pieceL3b (F := Ideal)) Vp (Proc.devRef .tc main_arg0) = Vp (Proc.devRef .tc main_arg0) := by
  after_results
theorem keepL3b_main_arg1 : after (pieceL3b (F := Ideal)) Vp (Proc.devRef .tc main_arg1) = Vp (Proc.devRef .tc main_arg1) := by
  after_results
theorem keepL3b_main_arg2 : after (pieceL3b (F := Ideal)) Vp (Proc.devRef .tc main_arg2) = Vp (Proc.devRef .tc main_arg2) := by
  after_results
theorem keepL3b_main_arg3 : after (pieceL3b (F := Ideal)) Vp (Proc.devRef .tc main_arg3) = Vp (Proc.devRef .tc main_arg3) := by
  after_results
theorem keepL3b_main_arg4 : after (pieceL3b (F := Ideal)) Vp (Proc.devRef .tc main_arg4) = Vp (Proc.devRef .tc main_arg4) := by
  after_results
theorem keepL3b_main_arg5 : after (pieceL3b (F := Ideal)) Vp (Proc.devRef .tc main_arg5) = Vp (Proc.devRef .tc main_arg5) := by
  after_results
theorem keepL3b_main_v5 : after (pieceL3b (F := Ideal)) Vp (Proc.devRef .tc main_v5) = Vp (Proc.devRef .tc main_v5) := by
  after_results
theorem keepL3b_main_v6 : after (pieceL3b (F := Ideal)) Vp (Proc.devRef .tc main_v6) = Vp (Proc.devRef .tc main_v6) := by
  after_results
theorem keepL3b_main_v29 : after (pieceL3b (F := Ideal)) Vp (Proc.devRef .tc main_v29) = Vp (Proc.devRef .tc main_v29) := by
  after_results
theorem keepL4a_main_arg0 : after (pieceL4a (F := Ideal)) Vp (Proc.devRef .tc main_arg0) = Vp (Proc.devRef .tc main_arg0) := by
  after_results
theorem keepL4a_main_arg1 : after (pieceL4a (F := Ideal)) Vp (Proc.devRef .tc main_arg1) = Vp (Proc.devRef .tc main_arg1) := by
  after_results
theorem keepL4a_main_arg2 : after (pieceL4a (F := Ideal)) Vp (Proc.devRef .tc main_arg2) = Vp (Proc.devRef .tc main_arg2) := by
  after_results
theorem keepL4a_main_arg3 : after (pieceL4a (F := Ideal)) Vp (Proc.devRef .tc main_arg3) = Vp (Proc.devRef .tc main_arg3) := by
  after_results
theorem keepL4a_main_arg4 : after (pieceL4a (F := Ideal)) Vp (Proc.devRef .tc main_arg4) = Vp (Proc.devRef .tc main_arg4) := by
  after_results
theorem keepL4a_main_arg5 : after (pieceL4a (F := Ideal)) Vp (Proc.devRef .tc main_arg5) = Vp (Proc.devRef .tc main_arg5) := by
  after_results
theorem keepL4a_main_v5 : after (pieceL4a (F := Ideal)) Vp (Proc.devRef .tc main_v5) = Vp (Proc.devRef .tc main_v5) := by
  after_results
theorem keepL4a_main_v6 : after (pieceL4a (F := Ideal)) Vp (Proc.devRef .tc main_v6) = Vp (Proc.devRef .tc main_v6) := by
  after_results
theorem keepL4a_main_v29 : after (pieceL4a (F := Ideal)) Vp (Proc.devRef .tc main_v29) = Vp (Proc.devRef .tc main_v29) := by
  after_results
theorem keepL4r_main_arg0 : after (pieceL4r (F := Ideal)) Vp (Proc.devRef .tc main_arg0) = Vp (Proc.devRef .tc main_arg0) := by
  after_results
theorem keepL4r_main_arg1 : after (pieceL4r (F := Ideal)) Vp (Proc.devRef .tc main_arg1) = Vp (Proc.devRef .tc main_arg1) := by
  after_results
theorem keepL4r_main_arg2 : after (pieceL4r (F := Ideal)) Vp (Proc.devRef .tc main_arg2) = Vp (Proc.devRef .tc main_arg2) := by
  after_results
theorem keepL4r_main_arg3 : after (pieceL4r (F := Ideal)) Vp (Proc.devRef .tc main_arg3) = Vp (Proc.devRef .tc main_arg3) := by
  after_results
theorem keepL4r_main_arg4 : after (pieceL4r (F := Ideal)) Vp (Proc.devRef .tc main_arg4) = Vp (Proc.devRef .tc main_arg4) := by
  after_results
theorem keepL4r_main_arg5 : after (pieceL4r (F := Ideal)) Vp (Proc.devRef .tc main_arg5) = Vp (Proc.devRef .tc main_arg5) := by
  after_results
theorem keepL4r_main_v5 : after (pieceL4r (F := Ideal)) Vp (Proc.devRef .tc main_v5) = Vp (Proc.devRef .tc main_v5) := by
  after_results
theorem keepL4r_main_v6 : after (pieceL4r (F := Ideal)) Vp (Proc.devRef .tc main_v6) = Vp (Proc.devRef .tc main_v6) := by
  after_results
theorem keepL4r_main_v29 : after (pieceL4r (F := Ideal)) Vp (Proc.devRef .tc main_v29) = Vp (Proc.devRef .tc main_v29) := by
  after_results
theorem keepL4b_main_arg0 : after (pieceL4b (F := Ideal)) Vp (Proc.devRef .tc main_arg0) = Vp (Proc.devRef .tc main_arg0) := by
  after_results
theorem keepL4b_main_arg1 : after (pieceL4b (F := Ideal)) Vp (Proc.devRef .tc main_arg1) = Vp (Proc.devRef .tc main_arg1) := by
  after_results
theorem keepL4b_main_arg2 : after (pieceL4b (F := Ideal)) Vp (Proc.devRef .tc main_arg2) = Vp (Proc.devRef .tc main_arg2) := by
  after_results
theorem keepL4b_main_arg3 : after (pieceL4b (F := Ideal)) Vp (Proc.devRef .tc main_arg3) = Vp (Proc.devRef .tc main_arg3) := by
  after_results
theorem keepL4b_main_arg4 : after (pieceL4b (F := Ideal)) Vp (Proc.devRef .tc main_arg4) = Vp (Proc.devRef .tc main_arg4) := by
  after_results
theorem keepL4b_main_arg5 : after (pieceL4b (F := Ideal)) Vp (Proc.devRef .tc main_arg5) = Vp (Proc.devRef .tc main_arg5) := by
  after_results
theorem keepL4b_main_v5 : after (pieceL4b (F := Ideal)) Vp (Proc.devRef .tc main_v5) = Vp (Proc.devRef .tc main_v5) := by
  after_results
theorem keepL4b_main_v6 : after (pieceL4b (F := Ideal)) Vp (Proc.devRef .tc main_v6) = Vp (Proc.devRef .tc main_v6) := by
  after_results
theorem keepL4b_main_v29 : after (pieceL4b (F := Ideal)) Vp (Proc.devRef .tc main_v29) = Vp (Proc.devRef .tc main_v29) := by
  after_results

/-! ## What each piece computes, from the stages it reads (the three-operation pieces of the inlined calls are read in their own module) -/

set_option maxHeartbeats 2000000 in
theorem pieceA1_main_v5 (x5 : (⟨S2x600000, .i32⟩ : BufTy).Contents (Elt Ideal))
    (h0 : Vp (Proc.devRef .tc main_arg5) = x5) :
    after (pieceA1 (F := Ideal)) Vp (Proc.devRef .tc main_v5) = val_main_v5 (F := Ideal) x5 := by
  after_results
  (try rw [h0])
  rfl
set_option maxHeartbeats 2000000 in
theorem pieceA1_main_v6 (x5 : (⟨S2x600000, .i32⟩ : BufTy).Contents (Elt Ideal))
    (h0 : Vp (Proc.devRef .tc main_arg5) = x5) :
    after (pieceA1 (F := Ideal)) Vp (Proc.devRef .tc main_v6) = val_main_v6 (F := Ideal) x5 := by
  after_results
  (try rw [h0])
  rfl
set_option maxHeartbeats 2000000 in
theorem pieceA1_main_v12 (x5 : (⟨S2x600000, .i32⟩ : BufTy).Contents (Elt Ideal))
    (h0 : Vp (Proc.devRef .tc main_arg5) = x5) :
    after (pieceA1 (F := Ideal)) Vp (Proc.devRef .tc main_v12) = val_main_v12 (F := Ideal) x5 := by
  after_results
  (try rw [h0])
  rfl
set_option maxHeartbeats 2000000 in
theorem pieceA1_main_v13 (x5 : (⟨S2x600000, .i32⟩ : BufTy).Contents (Elt Ideal))
    (h0 : Vp (Proc.devRef .tc main_arg5) = x5) :
    after (pieceA1 (F := Ideal)) Vp (Proc.devRef .tc main_v13) = val_main_v13 (F := Ideal) x5 := by
  after_results
  (try rw [h0])
  rfl
set_option maxHeartbeats 2000000 in
theorem pieceA1_main_cst_2 (x5 : (⟨S2x600000, .i32⟩ : BufTy).Contents (Elt Ideal))
    (h0 : Vp (Proc.devRef .tc main_arg5) = x5) :
    after (pieceA1 (F := Ideal)) Vp (Proc.devRef .tc main_cst_2) = val_main_cst_2 (F := Ideal) := by
  after_results
  (try rw [h0])
  rfl
set_option maxHeartbeats 2000000 in
theorem pieceA2_main_v29 (x5 : (⟨S2x600000, .i32⟩ : BufTy).Contents (Elt Ideal))
    (h0 : Vp (Proc.devRef .tc main_v5) = val_main_v5 (F := Ideal) x5) (h1 : Vp (Proc.devRef .tc main_v6) = val_main_v6 (F := Ideal) x5) (h2 : Vp (Proc.devRef .tc main_v14) = val_main_v14 (F := Ideal) x5) :
    after (pieceA2 (F := Ideal)) Vp (Proc.devRef .tc main_v29) = val_main_v29 (F := Ideal) x5 := by
  after_results
  (try rw [h0]); (try rw [h1]); (try rw [h2])
  rfl
set_option maxHeartbeats 2000000 in
theorem pieceL1a_main_v50 (x0 : (⟨S100000x128, .f32⟩ : BufTy).Contents (Elt Ideal)) (x1 : (⟨S4x128x128, .f32⟩ : BufTy).Contents (Elt Ideal)) (x2 : (⟨S4x128, .f32⟩ : BufTy).Contents (Elt Ideal)) (x5 : (⟨S2x600000, .i32⟩ : BufTy).Contents (Elt Ideal))
    (h0 : Vp (Proc.devRef .tc main_arg0) = x0) (h1 : Vp (Proc.devRef .tc main_arg1) = x1) (h2 : Vp (Proc.devRef .tc main_arg2) = x2) (h3 : Vp (Proc.devRef .tc main_v5) = val_main_v5 (F := Ideal) x5) (h4 : Vp (Proc.devRef .tc main_v6) = val_main_v6 (F := Ideal) x5) (h5 : Vp (Proc.devRef .tc main_v29) = val_main_v29 (F := Ideal) x5) :
    after (pieceL1a (F := Ideal)) Vp (Proc.devRef .tc main_v50) = val_main_v50 (F := Ideal) x0 x1 x2 x5 := by
  after_results
  (try rw [h0]); (try rw [h1]); (try rw [h2]); (try rw [h3]); (try rw [h4]); (try rw [h5])
  rfl
set_option maxHeartbeats 2000000 in
theorem pieceL1b_main_v79 (x0 : (⟨S100000x128, .f32⟩ : BufTy).Contents (Elt Ideal)) (x1 : (⟨S4x128x128, .f32⟩ : BufTy).Contents (Elt Ideal)) (x2 : (⟨S4x128, .f32⟩ : BufTy).Contents (Elt Ideal)) (x3 : (⟨S4x128, .f32⟩ : BufTy).Contents (Elt Ideal)) (x4 : (⟨S4x128, .f32⟩ : BufTy).Contents (Elt Ideal)) (x5 : (⟨S2x600000, .i32⟩ : BufTy).Contents (Elt Ideal))
    (h0 : Vp (Proc.devRef .tc main_v51) = val_main_v51 (F := Ideal) x0 x1 x2 x5) (h1 : Vp (Proc.devRef .tc main_arg3) = x3) (h2 : Vp (Proc.devRef .tc main_arg4) = x4) :
    after (pieceL1b (F := Ideal)) Vp (Proc.devRef .tc main_v79) = val_main_v79 (F := Ideal) x0 x1 x2 x3 x4 x5 := by
  after_results
  (try rw [h0]); (try rw [h1]); (try rw [h2])
  rfl
set_option maxHeartbeats 2000000 in
theorem pieceL2a_main_v100 (x0 : (⟨S100000x128, .f32⟩ : BufTy).Contents (Elt Ideal)) (x1 : (⟨S4x128x128, .f32⟩ : BufTy).Contents (Elt Ideal)) (x2 : (⟨S4x128, .f32⟩ : BufTy).Contents (Elt Ideal)) (x3 : (⟨S4x128, .f32⟩ : BufTy).Contents (Elt Ideal)) (x4 : (⟨S4x128, .f32⟩ : BufTy).Contents (Elt Ideal)) (x5 : (⟨S2x600000, .i32⟩ : BufTy).Contents (Elt Ideal))
    (h0 : Vp (Proc.devRef .tc main_v79) = val_main_v79 (F := Ideal) x0 x1 x2 x3 x4 x5) (h1 : Vp (Proc.devRef .tc main_arg1) = x1) (h2 : Vp (Proc.devRef .tc main_arg2) = x2) (h3 : Vp (Proc.devRef .tc main_v5) = val_main_v5 (F := Ideal) x5) (h4 : Vp (Proc.devRef .tc main_v6) = val_main_v6 (F := Ideal) x5) (h5 : Vp (Proc.devRef .tc main_v29) = val_main_v29 (F := Ideal) x5) :
    after (pieceL2a (F := Ideal)) Vp (Proc.devRef .tc main_v100) = val_main_v100 (F := Ideal) x0 x1 x2 x3 x4 x5 := by
  after_results
  (try rw [h0]); (try rw [h1]); (try rw [h2]); (try rw [h3]); (try rw [h4]); (try rw [h5])
  rfl
set_option maxHeartbeats 2000000 in
theorem pieceL2b_main_v129 (x0 : (⟨S100000x128, .f32⟩ : BufTy).Contents (Elt Ideal)) (x1 : (⟨S4x128x128, .f32⟩ : BufTy).Contents (Elt Ideal)) (x2 : (⟨S4x128, .f32⟩ : BufTy).Contents (Elt Ideal)) (x3 : (⟨S4x128, .f32⟩ : BufTy).Contents (Elt Ideal)) (x4 : (⟨S4x128, .f32⟩ : BufTy).Contents (Elt Ideal)) (x5 : (⟨S2x600000, .i32⟩ : BufTy).Contents (Elt Ideal))
    (h0 : Vp (Proc.devRef .tc main_v101) = val_main_v101 (F := Ideal) x0 x1 x2 x3 x4 x5) (h1 : Vp (Proc.devRef .tc main_arg3) = x3) (h2 : Vp (Proc.devRef .tc main_arg4) = x4) :
    after (pieceL2b (F := Ideal)) Vp (Proc.devRef .tc main_v129) = val_main_v129 (F := Ideal) x0 x1 x2 x3 x4 x5 := by
  after_results
  (try rw [h0]); (try rw [h1]); (try rw [h2])
  rfl
set_option maxHeartbeats 2000000 in
theorem pieceL3a_main_v150 (x0 : (⟨S100000x128, .f32⟩ : BufTy).Contents (Elt Ideal)) (x1 : (⟨S4x128x128, .f32⟩ : BufTy).Contents (Elt Ideal)) (x2 : (⟨S4x128, .f32⟩ : BufTy).Contents (Elt Ideal)) (x3 : (⟨S4x128, .f32⟩ : BufTy).Contents (Elt Ideal)) (x4 : (⟨S4x128, .f32⟩ : BufTy).Contents (Elt Ideal)) (x5 : (⟨S2x600000, .i32⟩ : BufTy).Contents (Elt Ideal))
    (h0 : Vp (Proc.devRef .tc main_v129) = val_main_v129 (F := Ideal) x0 x1 x2 x3 x4 x5) (h1 : Vp (Proc.devRef .tc main_arg1) = x1) (h2 : Vp (Proc.devRef .tc main_arg2) = x2) (h3 : Vp (Proc.devRef .tc main_v5) = val_main_v5 (F := Ideal) x5) (h4 : Vp (Proc.devRef .tc main_v6) = val_main_v6 (F := Ideal) x5) (h5 : Vp (Proc.devRef .tc main_v29) = val_main_v29 (F := Ideal) x5) :
    after (pieceL3a (F := Ideal)) Vp (Proc.devRef .tc main_v150) = val_main_v150 (F := Ideal) x0 x1 x2 x3 x4 x5 := by
  after_results
  (try rw [h0]); (try rw [h1]); (try rw [h2]); (try rw [h3]); (try rw [h4]); (try rw [h5])
  rfl
set_option maxHeartbeats 2000000 in
theorem pieceL3b_main_v179 (x0 : (⟨S100000x128, .f32⟩ : BufTy).Contents (Elt Ideal)) (x1 : (⟨S4x128x128, .f32⟩ : BufTy).Contents (Elt Ideal)) (x2 : (⟨S4x128, .f32⟩ : BufTy).Contents (Elt Ideal)) (x3 : (⟨S4x128, .f32⟩ : BufTy).Contents (Elt Ideal)) (x4 : (⟨S4x128, .f32⟩ : BufTy).Contents (Elt Ideal)) (x5 : (⟨S2x600000, .i32⟩ : BufTy).Contents (Elt Ideal))
    (h0 : Vp (Proc.devRef .tc main_v151) = val_main_v151 (F := Ideal) x0 x1 x2 x3 x4 x5) (h1 : Vp (Proc.devRef .tc main_arg3) = x3) (h2 : Vp (Proc.devRef .tc main_arg4) = x4) :
    after (pieceL3b (F := Ideal)) Vp (Proc.devRef .tc main_v179) = val_main_v179 (F := Ideal) x0 x1 x2 x3 x4 x5 := by
  after_results
  (try rw [h0]); (try rw [h1]); (try rw [h2])
  rfl
set_option maxHeartbeats 2000000 in
theorem pieceL4a_main_v200 (x0 : (⟨S100000x128, .f32⟩ : BufTy).Contents (Elt Ideal)) (x1 : (⟨S4x128x128, .f32⟩ : BufTy).Contents (Elt Ideal)) (x2 : (⟨S4x128, .f32⟩ : BufTy).Contents (Elt Ideal)) (x3 : (⟨S4x128, .f32⟩ : BufTy).Contents (Elt Ideal)) (x4 : (⟨S4x128, .f32⟩ : BufTy).Contents (Elt Ideal)) (x5 : (⟨S2x600000, .i32⟩ : BufTy).Contents (Elt Ideal))
    (h0 : Vp (Proc.devRef .tc main_v179) = val_main_v179 (F := Ideal) x0 x1 x2 x3 x4 x5) (h1 : Vp (Proc.devRef .tc main_arg1) = x1) (h2 : Vp (Proc.devRef .tc main_arg2) = x2) (h3 : Vp (Proc.devRef .tc main_v5) = val_main_v5 (F := Ideal) x5) (h4 : Vp (Proc.devRef .tc main_v6) = val_main_v6 (F := Ideal) x5) (h5 : Vp (Proc.devRef .tc main_v29) = val_main_v29 (F := Ideal) x5) :
    after (pieceL4a (F := Ideal)) Vp (Proc.devRef .tc main_v200) = val_main_v200 (F := Ideal) x0 x1 x2 x3 x4 x5 := by
  after_results
  (try rw [h0]); (try rw [h1]); (try rw [h2]); (try rw [h3]); (try rw [h4]); (try rw [h5])
  rfl
set_option maxHeartbeats 2000000 in
theorem pieceL4b_main_v229 (x0 : (⟨S100000x128, .f32⟩ : BufTy).Contents (Elt Ideal)) (x1 : (⟨S4x128x128, .f32⟩ : BufTy).Contents (Elt Ideal)) (x2 : (⟨S4x128, .f32⟩ : BufTy).Contents (Elt Ideal)) (x3 : (⟨S4x128, .f32⟩ : BufTy).Contents (Elt Ideal)) (x4 : (⟨S4x128, .f32⟩ : BufTy).Contents (Elt Ideal)) (x5 : (⟨S2x600000, .i32⟩ : BufTy).Contents (Elt Ideal))
    (h0 : Vp (Proc.devRef .tc main_v201) = val_main_v201 (F := Ideal) x0 x1 x2 x3 x4 x5) (h1 : Vp (Proc.devRef .tc main_arg3) = x3) (h2 : Vp (Proc.devRef .tc main_arg4) = x4) :
    after (pieceL4b (F := Ideal)) Vp (Proc.devRef .tc main_v229) = val_main_v229 (F := Ideal) x0 x1 x2 x3 x4 x5 := by
  after_results
  (try rw [h0]); (try rw [h1]); (try rw [h2])
  rfl

/-! ## The pieces composed -/

variable (m : (ℓ : Loc nD τ sig) → Buf (Elt Ideal) ℓ) (c : Dev nD)

abbrev UA1 : Valuation τ sig (Elt Ideal) := after (pieceA1 (F := Ideal)) (launchContents m c)
abbrev UAw : Valuation τ sig (Elt Ideal) := after (pieceAw (F := Ideal)) (UA1 m c)
abbrev UA2 : Valuation τ sig (Elt Ideal) := after (pieceA2 (F := Ideal)) (UAw m c)
abbrev UL1a : Valuation τ sig (Elt Ideal) := after (pieceL1a (F := Ideal)) (UA2 m c)
abbrev UL1r : Valuation τ sig (Elt Ideal) := after (pieceL1r (F := Ideal)) (UL1a m c)
abbrev UL1b : Valuation τ sig (Elt Ideal) := after (pieceL1b (F := Ideal)) (UL1r m c)
abbrev UL2a : Valuation τ sig (Elt Ideal) := after (pieceL2a (F := Ideal)) (UL1b m c)
abbrev UL2r : Valuation τ sig (Elt Ideal) := after (pieceL2r (F := Ideal)) (UL2a m c)
abbrev UL2b : Valuation τ sig (Elt Ideal) := after (pieceL2b (F := Ideal)) (UL2r m c)
abbrev UL3a : Valuation τ sig (Elt Ideal) := after (pieceL3a (F := Ideal)) (UL2b m c)
abbrev UL3r : Valuation τ sig (Elt Ideal) := after (pieceL3r (F := Ideal)) (UL3a m c)
abbrev UL3b : Valuation τ sig (Elt Ideal) := after (pieceL3b (F := Ideal)) (UL3r m c)
abbrev UL4a : Valuation τ sig (Elt Ideal) := after (pieceL4a (F := Ideal)) (UL3b m c)
abbrev UL4r : Valuation τ sig (Elt Ideal) := after (pieceL4r (F := Ideal)) (UL4a m c)

theorem after_ops_eq (b : DevRef τ sig) :
    after (ops (F := Ideal)) (launchContents m c) b = after (pieceL4b (F := Ideal)) (UL4r m c) b := by
  rw [ops_pieces (F := Ideal), after_append, after_append, after_append, after_append, after_append, after_append, after_append, after_append, after_append, after_append, after_append, after_append, after_append, after_append]

theorem UA1_main_arg0 : UA1 m c (Proc.devRef .tc main_arg0) = (m ((c.tc : Thread nD τ).loc main_arg0)) :=
  keepA1_main_arg0 (launchContents m c)
theorem UA1_main_arg1 : UA1 m c (Proc.devRef .tc main_arg1) = (m ((c.tc : Thread nD τ).loc main_arg1)) :=
  keepA1_main_arg1 (launchContents m c)
theorem UA1_main_arg2 : UA1 m c (Proc.devRef .tc main_arg2) = (m ((c.tc : Thread nD τ).loc main_arg2)) :=
  keepA1_main_arg2 (launchContents m c)
theorem UA1_main_arg3 : UA1 m c (Proc.devRef .tc main_arg3) = (m ((c.tc : Thread nD τ).loc main_arg3)) :=
  keepA1_main_arg3 (launchContents m c)
theorem UA1_main_arg4 : UA1 m c (Proc.devRef .tc main_arg4) = (m ((c.tc : Thread nD τ).loc main_arg4)) :=
  keepA1_main_arg4 (launchContents m c)
theorem UA1_main_arg5 : UA1 m c (Proc.devRef .tc main_arg5) = (m ((c.tc : Thread nD τ).loc main_arg5)) :=
  keepA1_main_arg5 (launchContents m c)
theorem UA1_main_v5 : UA1 m c (Proc.devRef .tc main_v5) = val_main_v5 (F := Ideal) (m ((c.tc : Thread nD τ).loc main_arg5)) :=
  pieceA1_main_v5 (launchContents m c) _ rfl
theorem UA1_main_v6 : UA1 m c (Proc.devRef .tc main_v6) = val_main_v6 (F := Ideal) (m ((c.tc : Thread nD τ).loc main_arg5)) :=
  pieceA1_main_v6 (launchContents m c) _ rfl
theorem UA1_main_v12 : UA1 m c (Proc.devRef .tc main_v12) = val_main_v12 (F := Ideal) (m ((c.tc : Thread nD τ).loc main_arg5)) :=
  pieceA1_main_v12 (launchContents m c) _ rfl
theorem UA1_main_v13 : UA1 m c (Proc.devRef .tc main_v13) = val_main_v13 (F := Ideal) (m ((c.tc : Thread nD τ).loc main_arg5)) :=
  pieceA1_main_v13 (launchContents m c) _ rfl
theorem UA1_main_cst_2 : UA1 m c (Proc.devRef .tc main_cst_2) = val_main_cst_2 (F := Ideal) :=
  pieceA1_main_cst_2 (launchContents m c) _ rfl

theorem UAw_main_arg0 : UAw m c (Proc.devRef .tc main_arg0) = (m ((c.tc : Thread nD τ).loc main_arg0)) :=
  (keepAw_main_arg0 (UA1 m c)).trans (UA1_main_arg0 m c)
theorem UAw_main_arg1 : UAw m c (Proc.devRef .tc main_arg1) = (m ((c.tc : Thread nD τ).loc main_arg1)) :=
  (keepAw_main_arg1 (UA1 m c)).trans (UA1_main_arg1 m c)
theorem UAw_main_arg2 : UAw m c (Proc.devRef .tc main_arg2) = (m ((c.tc : Thread nD τ).loc main_arg2)) :=
  (keepAw_main_arg2 (UA1 m c)).trans (UA1_main_arg2 m c)
theorem UAw_main_arg3 : UAw m c (Proc.devRef .tc main_arg3) = (m ((c.tc : Thread nD τ).loc main_arg3)) :=
  (keepAw_main_arg3 (UA1 m c)).trans (UA1_main_arg3 m c)
theorem UAw_main_arg4 : UAw m c (Proc.devRef .tc main_arg4) = (m ((c.tc : Thread nD τ).loc main_arg4)) :=
  (keepAw_main_arg4 (UA1 m c)).trans (UA1_main_arg4 m c)
theorem UAw_main_arg5 : UAw m c (Proc.devRef .tc main_arg5) = (m ((c.tc : Thread nD τ).loc main_arg5)) :=
  (keepAw_main_arg5 (UA1 m c)).trans (UA1_main_arg5 m c)
theorem UAw_main_v5 : UAw m c (Proc.devRef .tc main_v5) = val_main_v5 (F := Ideal) (m ((c.tc : Thread nD τ).loc main_arg5)) :=
  (keepAw_main_v5 (UA1 m c)).trans (UA1_main_v5 m c)
theorem UAw_main_v6 : UAw m c (Proc.devRef .tc main_v6) = val_main_v6 (F := Ideal) (m ((c.tc : Thread nD τ).loc main_arg5)) :=
  (keepAw_main_v6 (UA1 m c)).trans (UA1_main_v6 m c)
theorem UAw_main_v14 : UAw m c (Proc.devRef .tc main_v14) = val_main_v14 (F := Ideal) (m ((c.tc : Thread nD τ).loc main_arg5)) :=
  pieceAw_main_v14 (UA1 m c) _ (UA1_main_v12 m c) (UA1_main_v13 m c) (UA1_main_cst_2 m c)

theorem UA2_main_arg0 : UA2 m c (Proc.devRef .tc main_arg0) = (m ((c.tc : Thread nD τ).loc main_arg0)) :=
  (keepA2_main_arg0 (UAw m c)).trans (UAw_main_arg0 m c)
theorem UA2_main_arg1 : UA2 m c (Proc.devRef .tc main_arg1) = (m ((c.tc : Thread nD τ).loc main_arg1)) :=
  (keepA2_main_arg1 (UAw m c)).trans (UAw_main_arg1 m c)
theorem UA2_main_arg2 : UA2 m c (Proc.devRef .tc main_arg2) = (m ((c.tc : Thread nD τ).loc main_arg2)) :=
  (keepA2_main_arg2 (UAw m c)).trans (UAw_main_arg2 m c)
theorem UA2_main_arg3 : UA2 m c (Proc.devRef .tc main_arg3) = (m ((c.tc : Thread nD τ).loc main_arg3)) :=
  (keepA2_main_arg3 (UAw m c)).trans (UAw_main_arg3 m c)
theorem UA2_main_arg4 : UA2 m c (Proc.devRef .tc main_arg4) = (m ((c.tc : Thread nD τ).loc main_arg4)) :=
  (keepA2_main_arg4 (UAw m c)).trans (UAw_main_arg4 m c)
theorem UA2_main_arg5 : UA2 m c (Proc.devRef .tc main_arg5) = (m ((c.tc : Thread nD τ).loc main_arg5)) :=
  (keepA2_main_arg5 (UAw m c)).trans (UAw_main_arg5 m c)
theorem UA2_main_v5 : UA2 m c (Proc.devRef .tc main_v5) = val_main_v5 (F := Ideal) (m ((c.tc : Thread nD τ).loc main_arg5)) :=
  (keepA2_main_v5 (UAw m c)).trans (UAw_main_v5 m c)
theorem UA2_main_v6 : UA2 m c (Proc.devRef .tc main_v6) = val_main_v6 (F := Ideal) (m ((c.tc : Thread nD τ).loc main_arg5)) :=
  (keepA2_main_v6 (UAw m c)).trans (UAw_main_v6 m c)
theorem UA2_main_v29 : UA2 m c (Proc.devRef .tc main_v29) = val_main_v29 (F := Ideal) (m ((c.tc : Thread nD τ).loc main_arg5)) :=
  pieceA2_main_v29 (UAw m c) _ (UAw_main_v5 m c) (UAw_main_v6 m c) (UAw_main_v14 m c)

theorem UL1a_main_arg0 : UL1a m c (Proc.devRef .tc main_arg0) = (m ((c.tc : Thread nD τ).loc main_arg0)) :=
  (keepL1a_main_arg0 (UA2 m c)).trans (UA2_main_arg0 m c)
theorem UL1a_main_arg1 : UL1a m c (Proc.devRef .tc main_arg1) = (m ((c.tc : Thread nD τ).loc main_arg1)) :=
  (keepL1a_main_arg1 (UA2 m c)).trans (UA2_main_arg1 m c)
theorem UL1a_main_arg2 : UL1a m c (Proc.devRef .tc main_arg2) = (m ((c.tc : Thread nD τ).loc main_arg2)) :=
  (keepL1a_main_arg2 (UA2 m c)).trans (UA2_main_arg2 m c)
theorem UL1a_main_arg3 : UL1a m c (Proc.devRef .tc main_arg3) = (m ((c.tc : Thread nD τ).loc main_arg3)) :=
  (keepL1a_main_arg3 (UA2 m c)).trans (UA2_main_arg3 m c)
theorem UL1a_main_arg4 : UL1a m c (Proc.devRef .tc main_arg4) = (m ((c.tc : Thread nD τ).loc main_arg4)) :=
  (keepL1a_main_arg4 (UA2 m c)).trans (UA2_main_arg4 m c)
theorem UL1a_main_arg5 : UL1a m c (Proc.devRef .tc main_arg5) = (m ((c.tc : Thread nD τ).loc main_arg5)) :=
  (keepL1a_main_arg5 (UA2 m c)).trans (UA2_main_arg5 m c)
theorem UL1a_main_v5 : UL1a m c (Proc.devRef .tc main_v5) = val_main_v5 (F := Ideal) (m ((c.tc : Thread nD τ).loc main_arg5)) :=
  (keepL1a_main_v5 (UA2 m c)).trans (UA2_main_v5 m c)
theorem UL1a_main_v6 : UL1a m c (Proc.devRef .tc main_v6) = val_main_v6 (F := Ideal) (m ((c.tc : Thread nD τ).loc main_arg5)) :=
  (keepL1a_main_v6 (UA2 m c)).trans (UA2_main_v6 m c)
theorem UL1a_main_v29 : UL1a m c (Proc.devRef .tc main_v29) = val_main_v29 (F := Ideal) (m ((c.tc : Thread nD τ).loc main_arg5)) :=
  (keepL1a_main_v29 (UA2 m c)).trans (UA2_main_v29 m c)
theorem UL1a_main_v50 : UL1a m c (Proc.devRef .tc main_v50) = val_main_v50 (F := Ideal) (m ((c.tc : Thread nD τ).loc main_arg0)) (m ((c.tc : Thread nD τ).loc main_arg1)) (m ((c.tc : Thread nD τ).loc main_arg2)) (m ((c.tc : Thread nD τ).loc main_arg5)) :=
  pieceL1a_main_v50 (UA2 m c) _ _ _ _ (UA2_main_arg0 m c) (UA2_main_arg1 m c) (UA2_main_arg2 m c) (UA2_main_v5 m c) (UA2_main_v6 m c) (UA2_main_v29 m c)

theorem UL1r_main_arg0 : UL1r m c (Proc.devRef .tc main_arg0) = (m ((c.tc : Thread nD τ).loc main_arg0)) :=
  (keepL1r_main_arg0 (UL1a m c)).trans (UL1a_main_arg0 m c)
theorem UL1r_main_arg1 : UL1r m c (Proc.devRef .tc main_arg1) = (m ((c.tc : Thread nD τ).loc main_arg1)) :=
  (keepL1r_main_arg1 (UL1a m c)).trans (UL1a_main_arg1 m c)
theorem UL1r_main_arg2 : UL1r m c (Proc.devRef .tc main_arg2) = (m ((c.tc : Thread nD τ).loc main_arg2)) :=
  (keepL1r_main_arg2 (UL1a m c)).trans (UL1a_main_arg2 m c)
theorem UL1r_main_arg3 : UL1r m c (Proc.devRef .tc main_arg3) = (m ((c.tc : Thread nD τ).loc main_arg3)) :=
  (keepL1r_main_arg3 (UL1a m c)).trans (UL1a_main_arg3 m c)
theorem UL1r_main_arg4 : UL1r m c (Proc.devRef .tc main_arg4) = (m ((c.tc : Thread nD τ).loc main_arg4)) :=
  (keepL1r_main_arg4 (UL1a m c)).trans (UL1a_main_arg4 m c)
theorem UL1r_main_arg5 : UL1r m c (Proc.devRef .tc main_arg5) = (m ((c.tc : Thread nD τ).loc main_arg5)) :=
  (keepL1r_main_arg5 (UL1a m c)).trans (UL1a_main_arg5 m c)
theorem UL1r_main_v5 : UL1r m c (Proc.devRef .tc main_v5) = val_main_v5 (F := Ideal) (m ((c.tc : Thread nD τ).loc main_arg5)) :=
  (keepL1r_main_v5 (UL1a m c)).trans (UL1a_main_v5 m c)
theorem UL1r_main_v6 : UL1r m c (Proc.devRef .tc main_v6) = val_main_v6 (F := Ideal) (m ((c.tc : Thread nD τ).loc main_arg5)) :=
  (keepL1r_main_v6 (UL1a m c)).trans (UL1a_main_v6 m c)
theorem UL1r_main_v29 : UL1r m c (Proc.devRef .tc main_v29) = val_main_v29 (F := Ideal) (m ((c.tc : Thread nD τ).loc main_arg5)) :=
  (keepL1r_main_v29 (UL1a m c)).trans (UL1a_main_v29 m c)
theorem UL1r_main_v51 : UL1r m c (Proc.devRef .tc main_v51) = val_main_v51 (F := Ideal) (m ((c.tc : Thread nD τ).loc main_arg0)) (m ((c.tc : Thread nD τ).loc main_arg1)) (m ((c.tc : Thread nD τ).loc main_arg2)) (m ((c.tc : Thread nD τ).loc main_arg5)) :=
  pieceL1r_main_v51 (UL1a m c) _ _ _ _ (UL1a_main_v50 m c)

theorem UL1b_main_arg0 : UL1b m c (Proc.devRef .tc main_arg0) = (m ((c.tc : Thread nD τ).loc main_arg0)) :=
  (keepL1b_main_arg0 (UL1r m c)).trans (UL1r_main_arg0 m c)
theorem UL1b_main_arg1 : UL1b m c (Proc.devRef .tc main_arg1) = (m ((c.tc : Thread nD τ).loc main_arg1)) :=
  (keepL1b_main_arg1 (UL1r m c)).trans (UL1r_main_arg1 m c)
theorem UL1b_main_arg2 : UL1b m c (Proc.devRef .tc main_arg2) = (m ((c.tc : Thread nD τ).loc main_arg2)) :=
  (keepL1b_main_arg2 (UL1r m c)).trans (UL1r_main_arg2 m c)
theorem UL1b_main_arg3 : UL1b m c (Proc.devRef .tc main_arg3) = (m ((c.tc : Thread nD τ).loc main_arg3)) :=
  (keepL1b_main_arg3 (UL1r m c)).trans (UL1r_main_arg3 m c)
theorem UL1b_main_arg4 : UL1b m c (Proc.devRef .tc main_arg4) = (m ((c.tc : Thread nD τ).loc main_arg4)) :=
  (keepL1b_main_arg4 (UL1r m c)).trans (UL1r_main_arg4 m c)
theorem UL1b_main_arg5 : UL1b m c (Proc.devRef .tc main_arg5) = (m ((c.tc : Thread nD τ).loc main_arg5)) :=
  (keepL1b_main_arg5 (UL1r m c)).trans (UL1r_main_arg5 m c)
theorem UL1b_main_v5 : UL1b m c (Proc.devRef .tc main_v5) = val_main_v5 (F := Ideal) (m ((c.tc : Thread nD τ).loc main_arg5)) :=
  (keepL1b_main_v5 (UL1r m c)).trans (UL1r_main_v5 m c)
theorem UL1b_main_v6 : UL1b m c (Proc.devRef .tc main_v6) = val_main_v6 (F := Ideal) (m ((c.tc : Thread nD τ).loc main_arg5)) :=
  (keepL1b_main_v6 (UL1r m c)).trans (UL1r_main_v6 m c)
theorem UL1b_main_v29 : UL1b m c (Proc.devRef .tc main_v29) = val_main_v29 (F := Ideal) (m ((c.tc : Thread nD τ).loc main_arg5)) :=
  (keepL1b_main_v29 (UL1r m c)).trans (UL1r_main_v29 m c)
theorem UL1b_main_v79 : UL1b m c (Proc.devRef .tc main_v79) = val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  pieceL1b_main_v79 (UL1r m c) _ _ _ _ _ _ (UL1r_main_v51 m c) (UL1r_main_arg3 m c) (UL1r_main_arg4 m c)

theorem UL2a_main_arg0 : UL2a m c (Proc.devRef .tc main_arg0) = (m ((c.tc : Thread nD τ).loc main_arg0)) :=
  (keepL2a_main_arg0 (UL1b m c)).trans (UL1b_main_arg0 m c)
theorem UL2a_main_arg1 : UL2a m c (Proc.devRef .tc main_arg1) = (m ((c.tc : Thread nD τ).loc main_arg1)) :=
  (keepL2a_main_arg1 (UL1b m c)).trans (UL1b_main_arg1 m c)
theorem UL2a_main_arg2 : UL2a m c (Proc.devRef .tc main_arg2) = (m ((c.tc : Thread nD τ).loc main_arg2)) :=
  (keepL2a_main_arg2 (UL1b m c)).trans (UL1b_main_arg2 m c)
theorem UL2a_main_arg3 : UL2a m c (Proc.devRef .tc main_arg3) = (m ((c.tc : Thread nD τ).loc main_arg3)) :=
  (keepL2a_main_arg3 (UL1b m c)).trans (UL1b_main_arg3 m c)
theorem UL2a_main_arg4 : UL2a m c (Proc.devRef .tc main_arg4) = (m ((c.tc : Thread nD τ).loc main_arg4)) :=
  (keepL2a_main_arg4 (UL1b m c)).trans (UL1b_main_arg4 m c)
theorem UL2a_main_arg5 : UL2a m c (Proc.devRef .tc main_arg5) = (m ((c.tc : Thread nD τ).loc main_arg5)) :=
  (keepL2a_main_arg5 (UL1b m c)).trans (UL1b_main_arg5 m c)
theorem UL2a_main_v5 : UL2a m c (Proc.devRef .tc main_v5) = val_main_v5 (F := Ideal) (m ((c.tc : Thread nD τ).loc main_arg5)) :=
  (keepL2a_main_v5 (UL1b m c)).trans (UL1b_main_v5 m c)
theorem UL2a_main_v6 : UL2a m c (Proc.devRef .tc main_v6) = val_main_v6 (F := Ideal) (m ((c.tc : Thread nD τ).loc main_arg5)) :=
  (keepL2a_main_v6 (UL1b m c)).trans (UL1b_main_v6 m c)
theorem UL2a_main_v29 : UL2a m c (Proc.devRef .tc main_v29) = val_main_v29 (F := Ideal) (m ((c.tc : Thread nD τ).loc main_arg5)) :=
  (keepL2a_main_v29 (UL1b m c)).trans (UL1b_main_v29 m c)
theorem UL2a_main_v100 : UL2a m c (Proc.devRef .tc main_v100) = val_main_v100 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  pieceL2a_main_v100 (UL1b m c) _ _ _ _ _ _ (UL1b_main_v79 m c) (UL1b_main_arg1 m c) (UL1b_main_arg2 m c) (UL1b_main_v5 m c) (UL1b_main_v6 m c) (UL1b_main_v29 m c)

theorem UL2r_main_arg0 : UL2r m c (Proc.devRef .tc main_arg0) = (m ((c.tc : Thread nD τ).loc main_arg0)) :=
  (keepL2r_main_arg0 (UL2a m c)).trans (UL2a_main_arg0 m c)
theorem UL2r_main_arg1 : UL2r m c (Proc.devRef .tc main_arg1) = (m ((c.tc : Thread nD τ).loc main_arg1)) :=
  (keepL2r_main_arg1 (UL2a m c)).trans (UL2a_main_arg1 m c)
theorem UL2r_main_arg2 : UL2r m c (Proc.devRef .tc main_arg2) = (m ((c.tc : Thread nD τ).loc main_arg2)) :=
  (keepL2r_main_arg2 (UL2a m c)).trans (UL2a_main_arg2 m c)
theorem UL2r_main_arg3 : UL2r m c (Proc.devRef .tc main_arg3) = (m ((c.tc : Thread nD τ).loc main_arg3)) :=
  (keepL2r_main_arg3 (UL2a m c)).trans (UL2a_main_arg3 m c)
theorem UL2r_main_arg4 : UL2r m c (Proc.devRef .tc main_arg4) = (m ((c.tc : Thread nD τ).loc main_arg4)) :=
  (keepL2r_main_arg4 (UL2a m c)).trans (UL2a_main_arg4 m c)
theorem UL2r_main_arg5 : UL2r m c (Proc.devRef .tc main_arg5) = (m ((c.tc : Thread nD τ).loc main_arg5)) :=
  (keepL2r_main_arg5 (UL2a m c)).trans (UL2a_main_arg5 m c)
theorem UL2r_main_v5 : UL2r m c (Proc.devRef .tc main_v5) = val_main_v5 (F := Ideal) (m ((c.tc : Thread nD τ).loc main_arg5)) :=
  (keepL2r_main_v5 (UL2a m c)).trans (UL2a_main_v5 m c)
theorem UL2r_main_v6 : UL2r m c (Proc.devRef .tc main_v6) = val_main_v6 (F := Ideal) (m ((c.tc : Thread nD τ).loc main_arg5)) :=
  (keepL2r_main_v6 (UL2a m c)).trans (UL2a_main_v6 m c)
theorem UL2r_main_v29 : UL2r m c (Proc.devRef .tc main_v29) = val_main_v29 (F := Ideal) (m ((c.tc : Thread nD τ).loc main_arg5)) :=
  (keepL2r_main_v29 (UL2a m c)).trans (UL2a_main_v29 m c)
theorem UL2r_main_v101 : UL2r m c (Proc.devRef .tc main_v101) = val_main_v101 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  pieceL2r_main_v101 (UL2a m c) _ _ _ _ _ _ (UL2a_main_v100 m c)

theorem UL2b_main_arg0 : UL2b m c (Proc.devRef .tc main_arg0) = (m ((c.tc : Thread nD τ).loc main_arg0)) :=
  (keepL2b_main_arg0 (UL2r m c)).trans (UL2r_main_arg0 m c)
theorem UL2b_main_arg1 : UL2b m c (Proc.devRef .tc main_arg1) = (m ((c.tc : Thread nD τ).loc main_arg1)) :=
  (keepL2b_main_arg1 (UL2r m c)).trans (UL2r_main_arg1 m c)
theorem UL2b_main_arg2 : UL2b m c (Proc.devRef .tc main_arg2) = (m ((c.tc : Thread nD τ).loc main_arg2)) :=
  (keepL2b_main_arg2 (UL2r m c)).trans (UL2r_main_arg2 m c)
theorem UL2b_main_arg3 : UL2b m c (Proc.devRef .tc main_arg3) = (m ((c.tc : Thread nD τ).loc main_arg3)) :=
  (keepL2b_main_arg3 (UL2r m c)).trans (UL2r_main_arg3 m c)
theorem UL2b_main_arg4 : UL2b m c (Proc.devRef .tc main_arg4) = (m ((c.tc : Thread nD τ).loc main_arg4)) :=
  (keepL2b_main_arg4 (UL2r m c)).trans (UL2r_main_arg4 m c)
theorem UL2b_main_arg5 : UL2b m c (Proc.devRef .tc main_arg5) = (m ((c.tc : Thread nD τ).loc main_arg5)) :=
  (keepL2b_main_arg5 (UL2r m c)).trans (UL2r_main_arg5 m c)
theorem UL2b_main_v5 : UL2b m c (Proc.devRef .tc main_v5) = val_main_v5 (F := Ideal) (m ((c.tc : Thread nD τ).loc main_arg5)) :=
  (keepL2b_main_v5 (UL2r m c)).trans (UL2r_main_v5 m c)
theorem UL2b_main_v6 : UL2b m c (Proc.devRef .tc main_v6) = val_main_v6 (F := Ideal) (m ((c.tc : Thread nD τ).loc main_arg5)) :=
  (keepL2b_main_v6 (UL2r m c)).trans (UL2r_main_v6 m c)
theorem UL2b_main_v29 : UL2b m c (Proc.devRef .tc main_v29) = val_main_v29 (F := Ideal) (m ((c.tc : Thread nD τ).loc main_arg5)) :=
  (keepL2b_main_v29 (UL2r m c)).trans (UL2r_main_v29 m c)
theorem UL2b_main_v129 : UL2b m c (Proc.devRef .tc main_v129) = val_main_v129 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  pieceL2b_main_v129 (UL2r m c) _ _ _ _ _ _ (UL2r_main_v101 m c) (UL2r_main_arg3 m c) (UL2r_main_arg4 m c)

theorem UL3a_main_arg0 : UL3a m c (Proc.devRef .tc main_arg0) = (m ((c.tc : Thread nD τ).loc main_arg0)) :=
  (keepL3a_main_arg0 (UL2b m c)).trans (UL2b_main_arg0 m c)
theorem UL3a_main_arg1 : UL3a m c (Proc.devRef .tc main_arg1) = (m ((c.tc : Thread nD τ).loc main_arg1)) :=
  (keepL3a_main_arg1 (UL2b m c)).trans (UL2b_main_arg1 m c)
theorem UL3a_main_arg2 : UL3a m c (Proc.devRef .tc main_arg2) = (m ((c.tc : Thread nD τ).loc main_arg2)) :=
  (keepL3a_main_arg2 (UL2b m c)).trans (UL2b_main_arg2 m c)
theorem UL3a_main_arg3 : UL3a m c (Proc.devRef .tc main_arg3) = (m ((c.tc : Thread nD τ).loc main_arg3)) :=
  (keepL3a_main_arg3 (UL2b m c)).trans (UL2b_main_arg3 m c)
theorem UL3a_main_arg4 : UL3a m c (Proc.devRef .tc main_arg4) = (m ((c.tc : Thread nD τ).loc main_arg4)) :=
  (keepL3a_main_arg4 (UL2b m c)).trans (UL2b_main_arg4 m c)
theorem UL3a_main_arg5 : UL3a m c (Proc.devRef .tc main_arg5) = (m ((c.tc : Thread nD τ).loc main_arg5)) :=
  (keepL3a_main_arg5 (UL2b m c)).trans (UL2b_main_arg5 m c)
theorem UL3a_main_v5 : UL3a m c (Proc.devRef .tc main_v5) = val_main_v5 (F := Ideal) (m ((c.tc : Thread nD τ).loc main_arg5)) :=
  (keepL3a_main_v5 (UL2b m c)).trans (UL2b_main_v5 m c)
theorem UL3a_main_v6 : UL3a m c (Proc.devRef .tc main_v6) = val_main_v6 (F := Ideal) (m ((c.tc : Thread nD τ).loc main_arg5)) :=
  (keepL3a_main_v6 (UL2b m c)).trans (UL2b_main_v6 m c)
theorem UL3a_main_v29 : UL3a m c (Proc.devRef .tc main_v29) = val_main_v29 (F := Ideal) (m ((c.tc : Thread nD τ).loc main_arg5)) :=
  (keepL3a_main_v29 (UL2b m c)).trans (UL2b_main_v29 m c)
theorem UL3a_main_v150 : UL3a m c (Proc.devRef .tc main_v150) = val_main_v150 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  pieceL3a_main_v150 (UL2b m c) _ _ _ _ _ _ (UL2b_main_v129 m c) (UL2b_main_arg1 m c) (UL2b_main_arg2 m c) (UL2b_main_v5 m c) (UL2b_main_v6 m c) (UL2b_main_v29 m c)

theorem UL3r_main_arg0 : UL3r m c (Proc.devRef .tc main_arg0) = (m ((c.tc : Thread nD τ).loc main_arg0)) :=
  (keepL3r_main_arg0 (UL3a m c)).trans (UL3a_main_arg0 m c)
theorem UL3r_main_arg1 : UL3r m c (Proc.devRef .tc main_arg1) = (m ((c.tc : Thread nD τ).loc main_arg1)) :=
  (keepL3r_main_arg1 (UL3a m c)).trans (UL3a_main_arg1 m c)
theorem UL3r_main_arg2 : UL3r m c (Proc.devRef .tc main_arg2) = (m ((c.tc : Thread nD τ).loc main_arg2)) :=
  (keepL3r_main_arg2 (UL3a m c)).trans (UL3a_main_arg2 m c)
theorem UL3r_main_arg3 : UL3r m c (Proc.devRef .tc main_arg3) = (m ((c.tc : Thread nD τ).loc main_arg3)) :=
  (keepL3r_main_arg3 (UL3a m c)).trans (UL3a_main_arg3 m c)
theorem UL3r_main_arg4 : UL3r m c (Proc.devRef .tc main_arg4) = (m ((c.tc : Thread nD τ).loc main_arg4)) :=
  (keepL3r_main_arg4 (UL3a m c)).trans (UL3a_main_arg4 m c)
theorem UL3r_main_arg5 : UL3r m c (Proc.devRef .tc main_arg5) = (m ((c.tc : Thread nD τ).loc main_arg5)) :=
  (keepL3r_main_arg5 (UL3a m c)).trans (UL3a_main_arg5 m c)
theorem UL3r_main_v5 : UL3r m c (Proc.devRef .tc main_v5) = val_main_v5 (F := Ideal) (m ((c.tc : Thread nD τ).loc main_arg5)) :=
  (keepL3r_main_v5 (UL3a m c)).trans (UL3a_main_v5 m c)
theorem UL3r_main_v6 : UL3r m c (Proc.devRef .tc main_v6) = val_main_v6 (F := Ideal) (m ((c.tc : Thread nD τ).loc main_arg5)) :=
  (keepL3r_main_v6 (UL3a m c)).trans (UL3a_main_v6 m c)
theorem UL3r_main_v29 : UL3r m c (Proc.devRef .tc main_v29) = val_main_v29 (F := Ideal) (m ((c.tc : Thread nD τ).loc main_arg5)) :=
  (keepL3r_main_v29 (UL3a m c)).trans (UL3a_main_v29 m c)
theorem UL3r_main_v151 : UL3r m c (Proc.devRef .tc main_v151) = val_main_v151 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  pieceL3r_main_v151 (UL3a m c) _ _ _ _ _ _ (UL3a_main_v150 m c)

theorem UL3b_main_arg0 : UL3b m c (Proc.devRef .tc main_arg0) = (m ((c.tc : Thread nD τ).loc main_arg0)) :=
  (keepL3b_main_arg0 (UL3r m c)).trans (UL3r_main_arg0 m c)
theorem UL3b_main_arg1 : UL3b m c (Proc.devRef .tc main_arg1) = (m ((c.tc : Thread nD τ).loc main_arg1)) :=
  (keepL3b_main_arg1 (UL3r m c)).trans (UL3r_main_arg1 m c)
theorem UL3b_main_arg2 : UL3b m c (Proc.devRef .tc main_arg2) = (m ((c.tc : Thread nD τ).loc main_arg2)) :=
  (keepL3b_main_arg2 (UL3r m c)).trans (UL3r_main_arg2 m c)
theorem UL3b_main_arg3 : UL3b m c (Proc.devRef .tc main_arg3) = (m ((c.tc : Thread nD τ).loc main_arg3)) :=
  (keepL3b_main_arg3 (UL3r m c)).trans (UL3r_main_arg3 m c)
theorem UL3b_main_arg4 : UL3b m c (Proc.devRef .tc main_arg4) = (m ((c.tc : Thread nD τ).loc main_arg4)) :=
  (keepL3b_main_arg4 (UL3r m c)).trans (UL3r_main_arg4 m c)
theorem UL3b_main_arg5 : UL3b m c (Proc.devRef .tc main_arg5) = (m ((c.tc : Thread nD τ).loc main_arg5)) :=
  (keepL3b_main_arg5 (UL3r m c)).trans (UL3r_main_arg5 m c)
theorem UL3b_main_v5 : UL3b m c (Proc.devRef .tc main_v5) = val_main_v5 (F := Ideal) (m ((c.tc : Thread nD τ).loc main_arg5)) :=
  (keepL3b_main_v5 (UL3r m c)).trans (UL3r_main_v5 m c)
theorem UL3b_main_v6 : UL3b m c (Proc.devRef .tc main_v6) = val_main_v6 (F := Ideal) (m ((c.tc : Thread nD τ).loc main_arg5)) :=
  (keepL3b_main_v6 (UL3r m c)).trans (UL3r_main_v6 m c)
theorem UL3b_main_v29 : UL3b m c (Proc.devRef .tc main_v29) = val_main_v29 (F := Ideal) (m ((c.tc : Thread nD τ).loc main_arg5)) :=
  (keepL3b_main_v29 (UL3r m c)).trans (UL3r_main_v29 m c)
theorem UL3b_main_v179 : UL3b m c (Proc.devRef .tc main_v179) = val_main_v179 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  pieceL3b_main_v179 (UL3r m c) _ _ _ _ _ _ (UL3r_main_v151 m c) (UL3r_main_arg3 m c) (UL3r_main_arg4 m c)

theorem UL4a_main_arg0 : UL4a m c (Proc.devRef .tc main_arg0) = (m ((c.tc : Thread nD τ).loc main_arg0)) :=
  (keepL4a_main_arg0 (UL3b m c)).trans (UL3b_main_arg0 m c)
theorem UL4a_main_arg1 : UL4a m c (Proc.devRef .tc main_arg1) = (m ((c.tc : Thread nD τ).loc main_arg1)) :=
  (keepL4a_main_arg1 (UL3b m c)).trans (UL3b_main_arg1 m c)
theorem UL4a_main_arg2 : UL4a m c (Proc.devRef .tc main_arg2) = (m ((c.tc : Thread nD τ).loc main_arg2)) :=
  (keepL4a_main_arg2 (UL3b m c)).trans (UL3b_main_arg2 m c)
theorem UL4a_main_arg3 : UL4a m c (Proc.devRef .tc main_arg3) = (m ((c.tc : Thread nD τ).loc main_arg3)) :=
  (keepL4a_main_arg3 (UL3b m c)).trans (UL3b_main_arg3 m c)
theorem UL4a_main_arg4 : UL4a m c (Proc.devRef .tc main_arg4) = (m ((c.tc : Thread nD τ).loc main_arg4)) :=
  (keepL4a_main_arg4 (UL3b m c)).trans (UL3b_main_arg4 m c)
theorem UL4a_main_arg5 : UL4a m c (Proc.devRef .tc main_arg5) = (m ((c.tc : Thread nD τ).loc main_arg5)) :=
  (keepL4a_main_arg5 (UL3b m c)).trans (UL3b_main_arg5 m c)
theorem UL4a_main_v5 : UL4a m c (Proc.devRef .tc main_v5) = val_main_v5 (F := Ideal) (m ((c.tc : Thread nD τ).loc main_arg5)) :=
  (keepL4a_main_v5 (UL3b m c)).trans (UL3b_main_v5 m c)
theorem UL4a_main_v6 : UL4a m c (Proc.devRef .tc main_v6) = val_main_v6 (F := Ideal) (m ((c.tc : Thread nD τ).loc main_arg5)) :=
  (keepL4a_main_v6 (UL3b m c)).trans (UL3b_main_v6 m c)
theorem UL4a_main_v29 : UL4a m c (Proc.devRef .tc main_v29) = val_main_v29 (F := Ideal) (m ((c.tc : Thread nD τ).loc main_arg5)) :=
  (keepL4a_main_v29 (UL3b m c)).trans (UL3b_main_v29 m c)
theorem UL4a_main_v200 : UL4a m c (Proc.devRef .tc main_v200) = val_main_v200 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  pieceL4a_main_v200 (UL3b m c) _ _ _ _ _ _ (UL3b_main_v179 m c) (UL3b_main_arg1 m c) (UL3b_main_arg2 m c) (UL3b_main_v5 m c) (UL3b_main_v6 m c) (UL3b_main_v29 m c)

theorem UL4r_main_arg0 : UL4r m c (Proc.devRef .tc main_arg0) = (m ((c.tc : Thread nD τ).loc main_arg0)) :=
  (keepL4r_main_arg0 (UL4a m c)).trans (UL4a_main_arg0 m c)
theorem UL4r_main_arg1 : UL4r m c (Proc.devRef .tc main_arg1) = (m ((c.tc : Thread nD τ).loc main_arg1)) :=
  (keepL4r_main_arg1 (UL4a m c)).trans (UL4a_main_arg1 m c)
theorem UL4r_main_arg2 : UL4r m c (Proc.devRef .tc main_arg2) = (m ((c.tc : Thread nD τ).loc main_arg2)) :=
  (keepL4r_main_arg2 (UL4a m c)).trans (UL4a_main_arg2 m c)
theorem UL4r_main_arg3 : UL4r m c (Proc.devRef .tc main_arg3) = (m ((c.tc : Thread nD τ).loc main_arg3)) :=
  (keepL4r_main_arg3 (UL4a m c)).trans (UL4a_main_arg3 m c)
theorem UL4r_main_arg4 : UL4r m c (Proc.devRef .tc main_arg4) = (m ((c.tc : Thread nD τ).loc main_arg4)) :=
  (keepL4r_main_arg4 (UL4a m c)).trans (UL4a_main_arg4 m c)
theorem UL4r_main_arg5 : UL4r m c (Proc.devRef .tc main_arg5) = (m ((c.tc : Thread nD τ).loc main_arg5)) :=
  (keepL4r_main_arg5 (UL4a m c)).trans (UL4a_main_arg5 m c)
theorem UL4r_main_v5 : UL4r m c (Proc.devRef .tc main_v5) = val_main_v5 (F := Ideal) (m ((c.tc : Thread nD τ).loc main_arg5)) :=
  (keepL4r_main_v5 (UL4a m c)).trans (UL4a_main_v5 m c)
theorem UL4r_main_v6 : UL4r m c (Proc.devRef .tc main_v6) = val_main_v6 (F := Ideal) (m ((c.tc : Thread nD τ).loc main_arg5)) :=
  (keepL4r_main_v6 (UL4a m c)).trans (UL4a_main_v6 m c)
theorem UL4r_main_v29 : UL4r m c (Proc.devRef .tc main_v29) = val_main_v29 (F := Ideal) (m ((c.tc : Thread nD τ).loc main_arg5)) :=
  (keepL4r_main_v29 (UL4a m c)).trans (UL4a_main_v29 m c)
theorem UL4r_main_v201 : UL4r m c (Proc.devRef .tc main_v201) = val_main_v201 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  pieceL4r_main_v201 (UL4a m c) _ _ _ _ _ _ (UL4a_main_v200 m c)

/-- After the whole line the result buffer holds the last stage of the arguments. -/
theorem result_stage : after (ops (F := Ideal)) (launchContents m c) (Proc.devRef .tc main_v229) = val_main_v229 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (after_ops_eq m c _).trans
    (pieceL4b_main_v229 (UL4r m c) _ _ _ _ _ _ (UL4r_main_v201 m c) (UL4r_main_arg3 m c) (UL4r_main_arg4 m c))

theorem kept_arg0 : after (ops (F := Ideal)) (launchContents m c) (Proc.devRef .tc main_arg0) = (m ((c.tc : Thread nD τ).loc main_arg0)) :=
  (after_ops_eq m c _).trans ((keepL4b_main_arg0 (UL4r m c)).trans (UL4r_main_arg0 m c))
theorem kept_arg1 : after (ops (F := Ideal)) (launchContents m c) (Proc.devRef .tc main_arg1) = (m ((c.tc : Thread nD τ).loc main_arg1)) :=
  (after_ops_eq m c _).trans ((keepL4b_main_arg1 (UL4r m c)).trans (UL4r_main_arg1 m c))
theorem kept_arg2 : after (ops (F := Ideal)) (launchContents m c) (Proc.devRef .tc main_arg2) = (m ((c.tc : Thread nD τ).loc main_arg2)) :=
  (after_ops_eq m c _).trans ((keepL4b_main_arg2 (UL4r m c)).trans (UL4r_main_arg2 m c))
theorem kept_arg3 : after (ops (F := Ideal)) (launchContents m c) (Proc.devRef .tc main_arg3) = (m ((c.tc : Thread nD τ).loc main_arg3)) :=
  (after_ops_eq m c _).trans ((keepL4b_main_arg3 (UL4r m c)).trans (UL4r_main_arg3 m c))
theorem kept_arg4 : after (ops (F := Ideal)) (launchContents m c) (Proc.devRef .tc main_arg4) = (m ((c.tc : Thread nD τ).loc main_arg4)) :=
  (after_ops_eq m c _).trans ((keepL4b_main_arg4 (UL4r m c)).trans (UL4r_main_arg4 m c))
theorem kept_arg5 : after (ops (F := Ideal)) (launchContents m c) (Proc.devRef .tc main_arg5) = (m ((c.tc : Thread nD τ).loc main_arg5)) :=
  (after_ops_eq m c _).trans ((keepL4b_main_arg5 (UL4r m c)).trans (UL4r_main_arg5 m c))

/-- Every weakly fair execution of the reference terminates, nothing faulting, with the result at the last stage
    of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v229) = val_main_v229 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5)) :=
  (θ_run defs _ _).mono (fun _ h c => ⟨(h c main_v229).trans (result_stage m c),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c)⟩)
    (run_seq scopedRefs_eq scopedSems_eq defs main (fun _ => ops) main_eq (fun _ => ops_sub) m ρ)

end Cert.ReferenceIdeal.RefRun

end
-- ==== Proof.lean ====
/-
  A four-layer graph encoder on 100000 nodes with 128 features: its kernel program against its reference, equal as
  extended reals.

  Both programs first append the self-loops to the edge list, count each node's incoming edges, and weight
  edge (s, t) by (deg s)^(-1/2) · (deg t)^(-1/2).  Then four times: multiply the node features by the layer's
  128 × 128 weight matrix; gather each edge's source row, scale it by the edge's weight and add it into the
  target's row; add the layer's bias, rectify, and normalize each row to zero mean and unit variance (with the
  floor ε under the square root), scaled and shifted by the layer's two parameter rows.  The reference does all
  of this with host operations.  The kernel program does the two dense steps in launches over twenty blocks of
  5000 rows — the product as a matrix unit product into a zero accumulator, its operands first narrowed to
  sixteen bits, and the bias/rectifier/normalization as one fused body — and the gather and scatter-add between
  them with the reference's own host operations.

  On the extended reals a change of float format is the identity, a product into the zero accumulator and the
  host's contraction are both the sum over the contracted axis, a lane sum and the host's sum are both the sum of
  the row, and the two reciprocal square roots are one function.  So launch by launch the kernel program's
  arrays are the reference's staged values (`Cert.KernelIdeal.Chain`), and both runs end with the result at the
  same function of the six arguments.  No step moves a factor across a sum or cancels, so finiteness of the
  inputs is never used.  The idealizing pass rewrote nothing, so the kernel program read at the ideal instance
  is its own idealization.
-/
import proofs.«175188_j21217138442428_1_alg».proof.Defs
import proofs.«175188_j21217138442428_1_alg».proof.Proof.Gen.Kernel
import proofs.«175188_j21217138442428_1_alg».proof.Proof.Gen.Kernel.Frame
import proofs.«175188_j21217138442428_1_alg».proof.Proof.Gen.KernelIdeal
import proofs.«175188_j21217138442428_1_alg».proof.Proof.Gen.KernelIdeal.Frame
import proofs.«175188_j21217138442428_1_alg».proof.Proof.Gen.ReferenceIdeal
import proofs.«175188_j21217138442428_1_alg».proof.Proof.Gen.Pre_finite_inputs
import proofs.«175188_j21217138442428_1_alg».proof.Proof.KernelRun
import proofs.«175188_j21217138442428_1_alg».proof.Proof.KernelChain
import proofs.«175188_j21217138442428_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the kernel program read at the ideal instance. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.RefRun.run m ρ)

/-- The idealizing pass rewrote no operation. -/
theorem preserves : Cert.preserves_Kernel_KernelIdeal := trivial

/-- From memories agreeing on the six arguments both programs end with the result at the reference's last stage
    of the arguments: the kernel program's last boundary holds it, and the reference's run ends at it. -/
theorem algebraic : Cert.algebraic_KernelIdeal_ReferenceIdeal := by
  intro m ρ m' ρ' _ hagree
  refine ⟨fun c => Cert.ReferenceIdeal.ReadP.val_main_v229 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Chain.result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.RefRun.run m' ρ')
    obtain ⟨e0, e1, e2, e3, e4, e5⟩ := hagree c
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
